-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S4096x3072 : Shape := ⟨2, ![4096, 3072]⟩
abbrev S2048x1024 : Shape := ⟨2, ![2048, 1024]⟩
abbrev S2048x1 : Shape := ⟨2, ![2048, 1]⟩
abbrev S2048 : Shape := ⟨1, ![2048]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S3072x1024, .f32⟩
  | .hbm, ⟨14, _⟩ => ⟨S1024x3072, .f32⟩
  | .hbm, ⟨15, _⟩ => ⟨S1024x3072, .bf16⟩
  | .hbm, ⟨16, _⟩ => ⟨S3072, .f32⟩
  | .hbm, ⟨17, _⟩ => ⟨S1x3072, .f32⟩
  | .hbm, ⟨18, _⟩ => ⟨S4096x1024, .bf16⟩
  | .hbm, ⟨19, _⟩ => ⟨S4096x3072, .bf16⟩
  | .hbm, ⟨20, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2048x1024, .f32⟩
  | .local _ .vmem, ⟨13, _⟩ => ⟨S2048x1024, .f32⟩
  | .local _ .vmem, ⟨14, _⟩ => ⟨S2048x1, .f32⟩
  | .local _ .vmem, ⟨15, _⟩ => ⟨S2048x1, .f32⟩
  | .local _ .vmem, ⟨16, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  bcast_S_S1024 : S_.BroadcastsInDim S1024 (![] : Fin 0 → Fin S1024.rank)
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  packedbf16_S1024x3072_S1024x3072_0_0 : (Rect.unit (s := S1024x3072) ![0, 0] S1024x3072.size inb_S1024x3072_S1024x3072_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S1024x1024_p1_0_S1024x1024 : S1024x1024.Transposes [1, 0] S1024x1024
  reduces_S2048x1024_S2048 : S2048x1024.Reduces [1] S2048
  shapeCasts_S2048_S2048x1 : S2048.ShapeCasts S2048x1
  broadcasts_S2048x1_S2048x1024 : S2048x1.Broadcasts S2048x1024
  dot_S1024x1024_S1024x3072_S1024x3072_1_0_0_1_n_n_wf : DotDims.WF S1024x1024 S1024x3072 S1024x3072 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S4096x3072.size a
  hwx0_3 : ∀ i : grid0.Coords, EltTy.bits .bf16 = 32 ∨ (Rect.block (s := S4096x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x3072.size a
  hwx1_0 : ∀ i : grid1.Coords, EltTy.bits .bf16 = 32 ∨ (Rect.block (s := S4096x3072) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x3072.size a
  hwx1_1 : ∀ i : grid1.Coords, EltTy.bits .bf16 = 32 ∨ (Rect.block (s := S4096x3072) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x3072.size a
  hwx1_2 : ∀ i : grid1.Coords, EltTy.bits .bf16 = 32 ∨ (Rect.block (s := S4096x3072) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S4096x1024.size a
  hwx1_3 : ∀ i : grid1.Coords, EltTy.bits .f32 = 32 ∨ (Rect.block (s := S4096x1024) S2048x1024.size (cc1_transform_3 i) (hinb1_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S1024x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S4096x1024_S1024x4096_1_0 : S4096x1024.Transposes [1, 0] S1024x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Reg0.lean ====
/- Region 0 of the main function: the dense layer, one row block per grid point. Stated at a parameter V, the
   contents of the core's buffers when the region is entered. Three input windows (the row block of the
   activations, the whole weight matrix, the whole bias row) and one output window (the row block of the result). -/
import proofs.«170261_j10977936409228_2_alg».proof.Proof.Gen.Kernel.Launch
import proofs.«170261_j10977936409228_2_alg».proof.Proof.Gen.Kernel.Skeleton
import proofs.«170261_j10977936409228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether it was fetched there or not: where it
    was not fetched the block index has not moved, and the body leaves the block in place. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for window 2, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_a : Rect S1024x1024 := Rect.unit (s := S1024x1024) ![0, 0] S1024x1024.size inb_S1024x1024_S1024x1024_0_0
abbrev r0_b : Rect S1024x3072 := Rect.unit (s := S1024x3072) ![0, 0] S1024x3072.size inb_S1024x3072_S1024x3072_0_0
abbrev r0_c : Rect S1x3072 := Rect.unit (s := S1x3072) ![0, 0] S1x3072.size inb_S1x3072_S1x3072_0_0

/-! ## What the body leaves in the output window's buffer -/

/-- The output buffer after the body, from the three input blocks: one store of the whole buffer, whose value is
    the product of the activations block with the weights, plus the bias row, cast to the output type. -/
def out0_3 (x0 : Vec F S1024x1024 .bf16) (x1 : Vec F S1024x3072 .bf16) (x2 : Vec F S1x3072 .f32) : Vec F S1024x3072 .bf16 :=
  View.canon [⟨r0_b, k0_pay1 (View.ld x0 r0_a) (View.ld x1 r0_b) (View.ld x2 r0_c)⟩]

/-- The one store covers the buffer. -/
theorem cover0_3 (p0 : Vec F S1024x3072 .bf16) (y : S1024x3072.Idx) :
    ∃ pc ∈ ([⟨r0_b, p0⟩] : List (View.Piece (Elt F) S1024x3072 .bf16)), y ∈ pc.1.set :=
  View.cover_of_tiled [⟨r0_b, p0⟩] S1024x3072.size (by rfl) y

/-! ## The body's triple -/

set_option maxHeartbeats 1000000 in
/-- The body on whole buffers: the three inputs at known contents, the output at any contents (it is read once,
    the value unused, before it is overwritten). It ends with the inputs unchanged and the output at out0_3. -/
theorem sound_kernel0 (c : Dev nD) (E : Set ℕ) (i : grid0.Coords)
    (arg1 : Memref sig .tc .vmem S1024x1024 .bf16) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S1024x3072 .bf16) (harg4 : arg4.IsWhole)
    (x0 : Vec F S1024x1024 .bf16) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core c: the arrays as the region finds them; after the body at point t each
    input's buffer still at its block and the output's at out0_3 of the three input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Runs1.lean ====
/-
  The attention kernel (the second region of the program): what its runs share.

  The grid has 2 x 4 points; point t works on query tile t / 4 and key/value tile t % 4. The body resets its three
  carried buffers (running maximum, running sum, running weighted sum) where t % 4 = 0, updates them at every point, and
  writes the output block, the weighted sum divided by the running sum, where t % 4 = 3. So a point is in one of three
  cases: first key tile (reset, no output), middle (no reset, no output), last (no reset, output). This module states
  the two branch conditions in closed form over the grid, where the output window is idle, each input window's block
  at a point, and the invariant's buffers one by one.
-/
import proofs.«170261_j10977936409228_2_alg».proof.Proof.Gen.Kernel.Launch
import proofs.«170261_j10977936409228_2_alg».proof.Proof.Gen.Kernel.Skeleton
import proofs.«170261_j10977936409228_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's branch conditions -/

/-- The reset branch: the key/value coordinate is 0. -/
abbrev cond1_0 (i : grid1.Coords) : Prop := (Scalar.cmpi .ne (Scalar.extui (Scalar.cmpi .eq (BitVec.ofNat 32 (i 1).val) 0#32)) 0#32) = 1#1
/-- It holds at the points t with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The output branch: the key/value coordinate is the last, 3. -/
abbrev cond1_1 (i : grid1.Coords) : Prop := k1_cond2 i = 1#1
/-- It holds at the points t with t % 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the body does not write the output block it is idle, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The three carried buffers: running maximum, running sum, running weighted sum. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1024 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x1024 .f32 := scM1_2.view

/-- The scoped buffers that are neither this region's staging buffers nor its carried buffers: the first region's
    staging buffers, each whole at some contents. -/
def otherRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant as the launch hands it over: the other scoped buffers, the three carried buffers as memrefs
    owned at some contents, the generator register at some state. -/
theorem PhiA1_eq (c : Dev nD) :
    (Pipeline.ΦA spec1 c : sProp 𝕄)
      = iprop(iprop(otherRest c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA otherRest; rw [scopedRest1_eq]; simp only [scM1_0, scM1_1, scM1_2, owns_whole]
  refine Idealize.SL.BI.Entails.antisymm ?_ ?_
  · show BIBase.Entails (PROP := sProp 𝕄) _ _
    iintro ⟨⟨H1, H2, H3, H4, H5, H6, S0, S1, S2⟩, Hg⟩
    isplitl [H1 H2 H3 H4 H5 H6 S0 S1 S2]
    · isplitl [H1 H2 H3 H4 H5 H6]
      · isplitl [H1]; · iexact H1
        isplitl [H2]; · iexact H2
        isplitl [H3]; · iexact H3
        isplitl [H4]; · iexact H4
        isplitl [H5]; · iexact H5
        iexact H6
      isplitl [S0]; · iexact S0
      isplitl [S1]; · iexact S1
      iexact S2
    iexact Hg
  · show BIBase.Entails (PROP := sProp 𝕄) _ _
    iintro ⟨⟨⟨H1, H2, H3, H4, H5, H6⟩, S0, S1, S2⟩, Hg⟩
    isplitl [H1 H2 H3 H4 H5 H6 S0 S1 S2]
    · isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      iexact S2
    iexact Hg

end Cert.Kernel.Hand

end
-- ==== Proof.K.Run1A.lean ====
/-
  The attention kernel's body at a point of the FIRST key tile (reset taken, output not taken): what its stores leave
  in the three carried buffers, found by running the body; the output buffer is handed back untouched.
-/
import proofs.«170261_j10977936409228_2_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) at a point of the first key tile, with the proof that on whole
    memrefs — the inputs at their contents, the output buffer at contents handed back untouched, the carried buffers at
    anything — the body runs to the continuation holding the inputs as they were and each carried buffer with its pieces
    written. -/
noncomputable def kernelRun1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S1024x1024 .bf16) (x2 : Vec F S1024x1024 .bf16) :
    Σ' (L3 : List (View.Piece (Elt F) S2048x1024 .f32)) (LS0 : List (View.Piece (Elt F) S2048x1 .f32)) (LS1 : List (View.Piece (Elt F) S2048x1 .f32)), { LS2 : List (View.Piece (Elt F) S2048x1024 .f32) //
      ∀ (xi3 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.Run1B.lean ====
/-
  The attention kernel's body at a point of a MIDDLE key tile (neither branch taken): the carried buffers are found at
  what the point before left and are left with the body's pieces written; the output buffer is handed back untouched.
-/
import proofs.«170261_j10977936409228_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) at a point of a middle key tile, with the body's triple. -/
noncomputable def kernelRun1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S1024x1024 .bf16) (x2 : Vec F S1024x1024 .bf16)
    (xs0 : Vec F S2048x1 .f32) (xs1 : Vec F S2048x1 .f32) (xs2 : Vec F S2048x1024 .f32) :
    Σ' (L3 : List (View.Piece (Elt F) S2048x1024 .f32)) (LS0 : List (View.Piece (Elt F) S2048x1 .f32)) (LS1 : List (View.Piece (Elt F) S2048x1 .f32)), { LS2 : List (View.Piece (Elt F) S2048x1024 .f32) //
      ∀ (xi3 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.Run1C.lean ====
/-
  The attention kernel's body at a point of the LAST key tile (reset not taken, output taken): the carried buffers are
  found at what the point before left, updated, and the output buffer receives the weighted sum divided by the running sum.
-/
import proofs.«170261_j10977936409228_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) at a point of the last key tile, with the body's triple. -/
noncomputable def kernelRun1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S1024x1024 .bf16) (x2 : Vec F S1024x1024 .bf16)
    (xs0 : Vec F S2048x1 .f32) (xs1 : Vec F S2048x1 .f32) (xs2 : Vec F S2048x1024 .f32) :
    Σ' (L3 : List (View.Piece (Elt F) S2048x1024 .f32)) (LS0 : List (View.Piece (Elt F) S2048x1 .f32)) (LS1 : List (View.Piece (Elt F) S2048x1 .f32)), { LS2 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Reg1.lean ====
/-
  The attention kernel (the second region): what its buffers hold after each grid point, the proof data, and the body
  obligation.

  After point t the three carried buffers hold the running maximum, the running sum and the running weighted sum of
  query tile t / 4 over key tiles 0 … t % 4; at t % 4 = 3 the output window's buffer holds their quotient. This is
  stated by recursion on the point (each case's run applied to the point's input blocks and, past a reset, to what the
  point before left), the region's invariant carries the three buffers at those contents from point to point, and the
  body obligation is the case's run at each point. The three input windows read ONE array (the query, key and value
  columns of the projected array), so each holds a third of its full share.
-/
import proofs.«170261_j10977936409228_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's run at a point -/

/-- The first-key-tile run at point t. -/
abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)
/-- The middle run at point t, from the carried contents p. -/
abbrev runB (c : Dev nD) (t : Fin cfg1.N) (h0 : ¬t.val % 4 = 0) (h1 : ¬t.val % 4 = 3) (p : Vec F S2048x1 .f32 × Vec F S2048x1 .f32 × Vec F S2048x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2
/-- The last-key-tile run at point t, from the carried contents p. -/
abbrev runC (c : Dev nD) (t : Fin cfg1.N) (h0 : ¬t.val % 4 = 0) (h1 : t.val % 4 = 3) (p : Vec F S2048x1 .f32 × Vec F S2048x1 .f32 × Vec F S2048x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

/-! ## The pieces cover their buffers -/

theorem scoverA_0 (c t h0 h1) (y : S2048x1.Idx) : ∃ pc ∈ (runA V c t h0 h1).2.1, y ∈ pc.1.set :=
  View.cover_of_tiledL (runA V c t h0 h1).2.1 S2048x1.size (by sl_kernel_rfl) y
theorem scoverA_1 (c t h0 h1) (y : S2048x1.Idx) : ∃ pc ∈ (runA V c t h0 h1).2.2.1, y ∈ pc.1.set :=
  View.cover_of_tiledL (runA V c t h0 h1).2.2.1 S2048x1.size (by sl_kernel_rfl) y
theorem scoverA_2 (c t h0 h1) (y : S2048x1024.Idx) : ∃ pc ∈ (runA V c t h0 h1).2.2.2.1, y ∈ pc.1.set :=
  View.cover_of_tiledL (runA V c t h0 h1).2.2.2.1 S2048x1024.size (by sl_kernel_rfl) y
theorem scoverB_0 (c t h0 h1 p) (y : S2048x1.Idx) : ∃ pc ∈ (runB V c t h0 h1 p).2.1, y ∈ pc.1.set :=
  View.cover_of_tiledL (runB V c t h0 h1 p).2.1 S2048x1.size (by sl_kernel_rfl) y
theorem scoverB_1 (c t h0 h1 p) (y : S2048x1.Idx) : ∃ pc ∈ (runB V c t h0 h1 p).2.2.1, y ∈ pc.1.set :=
  View.cover_of_tiledL (runB V c t h0 h1 p).2.2.1 S2048x1.size (by sl_kernel_rfl) y
theorem scoverB_2 (c t h0 h1 p) (y : S2048x1024.Idx) : ∃ pc ∈ (runB V c t h0 h1 p).2.2.2.1, y ∈ pc.1.set :=
  View.cover_of_tiledL (runB V c t h0 h1 p).2.2.2.1 S2048x1024.size (by sl_kernel_rfl) y
theorem scoverC_0 (c t h0 h1 p) (y : S2048x1.Idx) : ∃ pc ∈ (runC V c t h0 h1 p).2.1, y ∈ pc.1.set :=
  View.cover_of_tiledL (runC V c t h0 h1 p).2.1 S2048x1.size (by sl_kernel_rfl) y
theorem scoverC_1 (c t h0 h1 p) (y : S2048x1.Idx) : ∃ pc ∈ (runC V c t h0 h1 p).2.2.1, y ∈ pc.1.set :=
  View.cover_of_tiledL (runC V c t h0 h1 p).2.2.1 S2048x1.size (by sl_kernel_rfl) y
theorem scoverC_2 (c t h0 h1 p) (y : S2048x1024.Idx) : ∃ pc ∈ (runC V c t h0 h1 p).2.2.2.1, y ∈ pc.1.set :=
  View.cover_of_tiledL (runC V c t h0 h1 p).2.2.2.1 S2048x1024.size (by sl_kernel_rfl) y
theorem coverC_3 (c t h0 h1 p) (y : S2048x1024.Idx) : ∃ pc ∈ (runC V c t h0 h1 p).1, y ∈ pc.1.set :=
  View.cover_of_tiledL (runC V c t h0 h1 p).1 S2048x1024.size (by sl_kernel_rfl) y

/-! ## What the buffers hold after each point -/

/-- What the output window's buffer and the three carried buffers hold after the body at point t, from what the carried
    buffers held before it (p; not consulted at a reset point): the case's pieces read back. Where the body stores
    nothing into the output buffer its component is a placeholder nothing consults. -/
def stepOuts (c : Dev nD) (t : Fin cfg1.N) (p : Vec F S2048x1 .f32 × Vec F S2048x1 .f32 × Vec F S2048x1024 .f32) : Vec F S2048x1024 .f32 × Vec F S2048x1 .f32 × Vec F S2048x1 .f32 × Vec F S2048x1024 .f32 :=
  if h0 : t.val % 4 = 0 then
    if h1 : t.val % 4 = 3 then False.elim (by omega)
    else (VO1_3.read (Elt F) (VO1_3.writes (Elt F) VO1_3.junk (runA V c t h0 h1).1), VS1_0.read (Elt F) (VS1_0.writes (Elt F) VS1_0.junk (runA V c t h0 h1).2.1), VS1_1.read (Elt F) (VS1_1.writes (Elt F) VS1_1.junk (runA V c t h0 h1).2.2.1), VS1_2.read (Elt F) (VS1_2.writes (Elt F) VS1_2.junk (runA V c t h0 h1).2.2.2.1))
  else
    if h1 : t.val % 4 = 3 then (VO1_3.read (Elt F) (VO1_3.writes (Elt F) VO1_3.junk (runC V c t h0 h1 p).1), VS1_0.read (Elt F) (VS1_0.writes (Elt F) VS1_0.junk (runC V c t h0 h1 p).2.1), VS1_1.read (Elt F) (VS1_1.writes (Elt F) VS1_1.junk (runC V c t h0 h1 p).2.2.1), VS1_2.read (Elt F) (VS1_2.writes (Elt F) VS1_2.junk (runC V c t h0 h1 p).2.2.2.1))
    else (VO1_3.read (Elt F) (VO1_3.writes (Elt F) VO1_3.junk (runB V c t h0 h1 p).1), VS1_0.read (Elt F) (VS1_0.writes (Elt F) VS1_0.junk (runB V c t h0 h1 p).2.1), VS1_1.read (Elt F) (VS1_1.writes (Elt F) VS1_1.junk (runB V c t h0 h1 p).2.2.1), VS1_2.read (Elt F) (VS1_2.writes (Elt F) VS1_2.junk (runB V c t h0 h1 p).2.2.2.1))

variable [∀ e, Nonempty (Elt F e)]

/-- THE ACCUMULATION: the buffers after position n, by recursion on the position (the first point is a reset point). -/
def outsAt1 (c : Dev nD) : (n : ℕ) → n < cfg1.N → Vec F S2048x1024 .f32 × Vec F S2048x1 .f32 × Vec F S2048x1 .f32 × Vec F S2048x1024 .f32
  | 0, hn => stepOuts V c ⟨0, hn⟩ (fun _ => Classical.arbitrary _, fun _ => Classical.arbitrary _, fun _ => Classical.arbitrary _)
  | n + 1, hn => stepOuts V c ⟨n + 1, hn⟩ (outsAt1 c n (Nat.lt_of_succ_lt hn)).2

/-- Past the first point: one step from what the point before left. -/
theorem outsAt1_pos (c : Dev nD) (t : Fin cfg1.N) (hz : t.val ≠ 0) :
    outsAt1 V c t.val t.isLt = stepOuts V c t (outsAt1 V c (t.val - 1) (Nat.lt_of_le_of_lt (Nat.sub_le _ _) t.isLt)).2 := by
  obtain ⟨n, hn⟩ := t
  cases n with
  | zero => exact absurd rfl hz
  | succ n => rfl

/-- At a reset point the step does not consult the carried contents. -/
theorem stepOuts_reset (c : Dev nD) (t : Fin cfg1.N) (h0 : t.val % 4 = 0) (p p' : Vec F S2048x1 .f32 × Vec F S2048x1 .f32 × Vec F S2048x1024 .f32) : stepOuts V c t p = stepOuts V c t p' := by
  unfold stepOuts; rw [dif_pos h0, dif_pos h0]

/-- The region's invariant before position n: before the first point as the launch hands it over; afterwards the three
    carried buffers at what the point before left, the other scoped buffers and the generator register at anything. -/
def PhiS1 (c : Dev nD) : (n : ℕ) → n ≤ cfg1.N → sProp 𝕄
  | 0, _ => Pipeline.ΦA spec1 c
  | n + 1, hn => iprop(iprop(otherRest c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(otherRest c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop(iprop(otherRest c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the attention pipeline on core c: the arrays as the region finds them; after the body each input's
    buffer at its block and the output's at the accumulation's first component; the invariant above; nothing owed; the
    three input windows, which read one array, each at a third of its full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.K.Reg1Body.lean ====
/-
  The attention kernel's body obligation: at every grid point the body, called on the point's staging buffers and the
  three carried buffers, takes the region's invariant before the point to the invariant after it and leaves each window's
  buffer as the proof data says. The point's case is read off t % 4; before the very first point the carried buffers
  hold anything, before a later reset point what the previous query tile left (forgotten), otherwise what the point
  before left.
-/
import proofs.«170261_j10977936409228_2_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) [∀ e, Nonempty (Elt F e)]

/-- What the carried buffers hold before point t, for the accumulation's step: anything at the first point. -/
def prevAt (c : Dev nD) (t : Fin cfg1.N) : Vec F S2048x1 .f32 × Vec F S2048x1 .f32 × Vec F S2048x1024 .f32 :=
  if hz : t.val = 0 then (fun _ => Classical.arbitrary _, fun _ => Classical.arbitrary _, fun _ => Classical.arbitrary _)
  else (outsAt1 V c (t.val - 1) (Nat.lt_of_le_of_lt (Nat.sub_le _ _) t.isLt)).2

theorem prevAt_pos (c : Dev nD) (t : Fin cfg1.N) (hz : t.val ≠ 0) :
    prevAt V c t = (outsAt1 V c (t.val - 1) (Nat.lt_of_le_of_lt (Nat.sub_le _ _) t.isLt)).2 := by
  unfold prevAt; rw [dif_neg hz]

/-- The accumulation at a point is one step from what the carried buffers held before it. -/
theorem outsAt1_step (c : Dev nD) (t : Fin cfg1.N) : outsAt1 V c t.val t.isLt = stepOuts V c t (prevAt V c t) := by
  obtain ⟨n, hn⟩ := t
  cases n with
  | zero => unfold prevAt; rw [dif_pos rfl]; rfl
  | succ n => unfold prevAt; rw [dif_neg (Nat.succ_ne_zero n)]; rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [outsAt1_step V c t]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    unfold stepOuts; rw [dif_pos h0, dif_neg h1]; (try dsimp only)
    by_cases hz : t.val = 0
    · rw [PhiS1_castSucc V c t, PhiS1_zero V c _ _ hz, PhiA1_eq]
      iintro ⟨⟨⟨HR, HS0, HS1, HS2⟩, Hg⟩, Ho, ⟨%d0, H0⟩, ⟨%d1, H1⟩, ⟨%d2, H2⟩, ⟨%d3, H3⟩⟩
      iapply ((runA V c t h0 h1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((runA V c t h0 h1).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [prevAt_pos V c t hz, PhiS1_castSucc V c t, PhiS1_pos V c _ _ hz]
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3, outsAt1_step V c t, prevAt_pos V c t hz]
      unfold stepOuts; rw [dif_neg h0, dif_pos h1]; (try dsimp only)
      iintro ⟨⟨⟨HR, HS0, HS1, HS2⟩, Hg⟩, Ho, ⟨%d0, H0⟩, ⟨%d1, H1⟩, ⟨%d2, H2⟩, ⟨%d3, H3⟩⟩
      iapply ((runC V c t h0 h1 _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverC_0 V c t h0 h1 _)
          isplitl [HS1]
          · unfold owns; iexists _; isplitr
            swap; · iexact HS1
            ipureintro; exact View.read_writes_of_cover _ _ _ _ _ (scoverC_1 V c t h0 h1 _)
          unfold owns; iexists _; isplitr
          swap; · iexact HS2
          ipureintro; exact View.read_writes_of_cover _ _ _ _ _ (scoverC_2 V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _)
    · rw [Dat.leavesExact_idle (dat1 V c) 3 t (idleAt1_3 t (fun h => h1 ((hcond1_1 t).mp h))) (noFlush1_3 t (fun h => h1 ((hcond1_1 t).mp h)))]
      unfold stepOuts; rw [dif_neg h0, dif_neg h1]; (try dsimp only)
      iintro ⟨⟨⟨HR, HS0, HS1, HS2⟩, Hg⟩, Ho, ⟨%d0, H0⟩, ⟨%d1, H1⟩, ⟨%d2, H2⟩, ⟨%d3, H3⟩⟩
      iapply ((runB V c t h0 h1 _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverB_0 V c t h0 h1 _)
          isplitl [HS1]
          · unfold owns; iexists _; isplitr
            swap; · iexact HS1
            ipureintro; exact View.read_writes_of_cover _ _ _ _ _ (scoverB_1 V c t h0 h1 _)
          unfold owns; iexists _; isplitr
          swap; · iexact HS2
          ipureintro; exact View.read_writes_of_cover _ _ _ _ _ (scoverB_2 V c t h0 h1 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the carried buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.LibShareThirds.lean ====
import Idealize.ShloMosaic.Lib.Memref

/-! # A buffer read through three windows: its full share in thirds

A pallas_call that hands ONE array to three windows (a block of rows and the two halo blocks holding the row above and
the row below it) holds that array three times over, so each window gets a share of it: the left half of the full
share, and the two halves of the right half. The three make up the full share again.

Where it is used: such a program's windows have distinct staging buffers but not distinct arrays (`Pipeline.WinFacts₀`
holds, `WinFacts` does not), so its run goes segment by segment (`Pipeline.θ_run_regions_kit`: host stretch, region,
host stretch) with the proof data's `q` at these three shares; the region's entry deals each shared array's full
points-to by `.1` below and its exit joins the three by `.2` — an input window's array is unchanged by the region, so
the three contents agree. -/

noncomputable section

namespace Cert.Lib

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A full share is its left half and the two halves of its right half, at the same contents. -/
theorem pointsTo_thirds {ℓ : Loc nD τ sig} (f : ℓ.ty.Contents Val) :
    (ℓ ↦{fullShare} f : sProp 𝕄) ⊣⊢ iprop((ℓ ↦{fullShare.left} f) ∗ (ℓ ↦{fullShare.right.left} f) ∗ (ℓ ↦{fullShare.right.right} f)) := by
  have hl := pointsTo_share (I := Finset.univ) (ℓ := ℓ) (f := f) (Ix := Ix) (Name := Name) (U := U) (Lvl := Lvl) (PosShare.mem_left_op_right fullShare)
  have hr := pointsTo_share (I := Finset.univ) (ℓ := ℓ) (f := f) (Ix := Ix) (Name := Name) (U := U) (Lvl := Lvl) (PosShare.mem_left_op_right fullShare.right)
  constructor
  · iintro H
    ihave H2 := hl.1 $$ H
    icases H2 with ⟨Hl, Hr⟩
    ihave H3 := hr.1 $$ Hr
    icases H3 with ⟨Hrl, Hrr⟩
    isplitl [Hl]; · iexact Hl
    isplitl [Hrl] <;> iassumption
  · iintro ⟨Hl, Hrl, Hrr⟩
    iapply hl.2
    isplitl [Hl]; · iexact Hl
    iapply hr.2
    isplitl [Hrl] <;> iassumption

end Cert.Lib

end
-- ==== Proof.K.Deal1.lean ====
/- The attention region reads one array, the dense layer's result, through three windows and writes a second array.
   A core's unscoped buffers regroup as: that shared array's full share in thirds, one per reading window; the
   written array at the full share; and every other unscoped buffer. -/
import proofs.«170261_j10977936409228_2_alg».proof.Proof.Gen.Kernel.Launch
import proofs.«170261_j10977936409228_2_alg».proof.Proof.LibShareThirds
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the region's four windows are two: the shared input array and the output array. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v11) ↦{fullShare} Vc main_v11) ∗ (((c : Thread nD τ).loc main_v12) ↦{fullShare} Vc main_v12)) := by
  unfold Pipeline.arrBufs
  exact bigSep_eq_bigSepL_of_eq [main_v11, main_v12] (by decide) (by decide) _

/-- The unscoped buffers that are no window's array depend only on the contents off those arrays. -/
theorem unscopedRest1_congr (c : Dev nD) (Vc Vc' : (b : Ref sig .tc) → Buf (Elt F) ((c : Thread nD τ).loc b))
    (h : ∀ b, b ∉ Finset.univ.image (Pipeline.arrRef spec1) → Vc b = Vc' b) :
    (Pipeline.unscopedRest spec1 c Vc : sProp 𝕄) = Pipeline.unscopedRest spec1 c Vc' := by
  unfold Pipeline.unscopedRest
  exact bigSep_congr fun b hb => by rw [h b (Finset.mem_sdiff.mp hb).2]

/-- A core's unscoped buffers at contents Vc are: the shared array in thirds, the output array whole, the rest. -/
theorem deal1 (c : Dev nD) (Vc : (b : Ref sig .tc) → Buf (Elt F) ((c : Thread nD τ).loc b)) :
    (unscopedBufs c Vc : sProp 𝕄) ⊣⊢
      iprop((((c : Thread nD τ).loc main_v11) ↦{fullShare.left} Vc main_v11)
        ∗ (((c : Thread nD τ).loc main_v11) ↦{fullShare.right.left} Vc main_v11)
        ∗ (((c : Thread nD τ).loc main_v11) ↦{fullShare.right.right} Vc main_v11)
        ∗ (((c : Thread nD τ).loc main_v12) ↦{fullShare} Vc main_v12)
        ∗ Pipeline.unscopedRest spec1 c Vc) := by
  have hsplit := Pipeline.unscopedBufs_split₀ (Ix := Unit) (Name := ℕ) (U := UR sig nD τ) (Lvl := ℕ) (nD := nD) (τ := τ)
    cfgs 1 winFacts₀1.arr_unscoped c Vc
  have hthirds := Cert.Lib.pointsTo_thirds (Ix := Unit) (Name := ℕ) (U := UR sig nD τ) (Lvl := ℕ)
    (ℓ := ((c : Thread nD τ).loc main_v11)) (Vc main_v11)
  rw [hsplit, show (cfgs 1).spec = spec1 from rfl, arrBufs1_eq]
  constructor
  · iintro ⟨⟨H11, H12⟩, Hrest⟩
    ihave H3 := hthirds.1 $$ H11
    icases H3 with ⟨Ha, Hb, Hc⟩
    isplitl [Ha]; · iexact Ha
    isplitl [Hb]; · iexact Hb
    isplitl [Hc]; · iexact Hc
    isplitl [H12]; · iexact H12
    iexact Hrest
  · iintro ⟨Ha, Hb, Hc, H12, Hrest⟩
    isplitr [Hrest]
    · isplitr [H12]
      · iapply hthirds.2
        isplitl [Ha]; · iexact Ha
        isplitl [Hb]; · iexact Hb
        iexact Hc
      iexact H12
    iexact Hrest

end Cert.Kernel.Hand

end
-- ==== Proof.K.Arrays1.lean ====
/- The attention region's four windowed arrays, written out: the three reading windows hold the shared array at the
   three thirds of its full share, the writing window holds the output array at the full share. An input window's
   array is unchanged by the region, so at every point it holds what the region found. -/
import proofs.«170261_j10977936409228_2_alg».proof.Proof.K.Reg1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) [∀ e, Nonempty (Elt F e)]

/-- The windowed arrays at contents G, one window at a time. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v11) ↦{fullShare.left} G 0)
        ∗ (((c : Thread nD τ).loc main_v11) ↦{fullShare.right.left} G 1)
        ∗ (((c : Thread nD τ).loc main_v11) ↦{fullShare.right.right} G 2)
        ∗ (((c : Thread nD τ).loc main_v12) ↦{fullShare} G 3)) := by
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have h3 : (cfg1.win 3).arr.view.set = Finset.univ := (arr_whole1 3).set_eq_univ
  unfold Dat.arrays
  rw [bigSep_W1, h0]
  try rw [h1]
  try rw [h2]
  try rw [h3]
  rfl

/-- The three reading windows' array holds, at every point, what the region found in the shared array. -/
theorem arrAt1_0 (c : Dev nD) (n : ℕ) : (dat1 V c).arrAt 0 n = V c main_v11 :=
  ((dat1 V c).arrAt_in 0 rfl n).trans (A_eq1 V c 0)
theorem arrAt1_1 (c : Dev nD) (n : ℕ) : (dat1 V c).arrAt 1 n = V c main_v11 :=
  ((dat1 V c).arrAt_in 1 rfl n).trans (A_eq1 V c 1)
theorem arrAt1_2 (c : Dev nD) (n : ℕ) : (dat1 V c).arrAt 2 n = V c main_v11 :=
  ((dat1 V c).arrAt_in 2 rfl n).trans (A_eq1 V c 2)
/-- The writing window's array starts at what the region found in the output array. -/
theorem arrAt1_3_zero (c : Dev nD) : (dat1 V c).arrAt 3 0 = V c main_v12 := A_eq1 V c 3

/-- At entry: the shared array's three thirds and the output array, all at what the region finds. -/
theorem entry_arrays1 (c : Dev nD) :
    ((dat1 V c).arrays ((dat1 V c).arrAt · 0) : sProp 𝕄)
      = iprop((((c : Thread nD τ).loc main_v11) ↦{fullShare.left} V c main_v11)
        ∗ (((c : Thread nD τ).loc main_v11) ↦{fullShare.right.left} V c main_v11)
        ∗ (((c : Thread nD τ).loc main_v11) ↦{fullShare.right.right} V c main_v11)
        ∗ (((c : Thread nD τ).loc main_v12) ↦{fullShare} V c main_v12)) := by
  rw [arrays1_eq]
  try dsimp only
  rw [arrAt1_0 V c, arrAt1_1 V c, arrAt1_2 V c, arrAt1_3_zero V c]

/-- At exit: the shared array's three thirds still at what the region found, the output array at what the
    write-backs of all the points leave. -/
theorem exit_arrays1 (c : Dev nD) :
    ((dat1 V c).arrays ((dat1 V c).arrAt · cfg1.N) : sProp 𝕄)
      = iprop((((c : Thread nD τ).loc main_v11) ↦{fullShare.left} V c main_v11)
        ∗ (((c : Thread nD τ).loc main_v11) ↦{fullShare.right.left} V c main_v11)
        ∗ (((c : Thread nD τ).loc main_v11) ↦{fullShare.right.right} V c main_v11)
        ∗ (((c : Thread nD τ).loc main_v12) ↦{fullShare} (dat1 V c).arrAt 3 cfg1.N)) := by
  rw [arrays1_eq]
  try dsimp only
  rw [arrAt1_0 V c, arrAt1_1 V c, arrAt1_2 V c]

end Cert.Kernel.Hand

end
-- ==== Proof.K.Run.lean ====
/- The run of the main function, from the launch to the return: a stretch of host operations, the dense layer's
   region, the attention region. The buffer contents at each boundary are named, every argument array is read back
   to its launch contents, and the result array ends at what the attention region's write-backs leave. -/
import proofs.«170261_j10977936409228_2_alg».proof.Proof.K.Reg0
import proofs.«170261_j10977936409228_2_alg».proof.Proof.K.Reg1Body
import proofs.«170261_j10977936409228_2_alg».proof.Proof.K.Deal1
import proofs.«170261_j10977936409228_2_alg».proof.Proof.K.Arrays1
import proofs.«170261_j10977936409228_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the host operations: the dense layer's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the dense layer's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit: the result array at what the write-backs of all its points leave, every other
    buffer as entered (the region's three reading windows leave their shared array unchanged). -/
def W3 (c : Dev nD) : Valuation τ sig (Elt F) :=
  Function.update (W2 m c) (Proc.devRef .tc main_v12) ((dat1 (V2 m) c).arrAt 3 cfg1.N)
abbrev V3 : (c : Dev nD) → (b : Ref sig .tc) → Buf (Elt F) ((c : Thread nD τ).loc b) := fun c b => W3 m c b
theorem W3_v12 (c : Dev nD) : W3 m c (Proc.devRef .tc main_v12) = (dat1 (V2 m) c).arrAt 3 cfg1.N := by
  unfold W3; exact Function.update_self _ _ _
theorem W3_of_ne (c : Dev nD) (b : Ref sig .tc) (hb : b ≠ main_v12) :
    W3 m c (Proc.devRef .tc b) = W2 m c (Proc.devRef .tc b) := by
  unfold W3; exact Function.update_of_ne (StableHlo.devRef_ne_of_ne hb) _ _

/-! ### The arguments end as launched: no host operation writes one and no region has one as a window's array -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The dense layer's region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's entry, the buffers' part: every unscoped buffer at W2 is the region's four windowed arrays
    at their entry contents (the shared array dealt in thirds) and the unscoped rest. -/
theorem entry1 (c : Dev nD) :
    (StableHlo.held (c : Thread nD τ) (Pipeline.ucRefs τ sig) (W2 m c) : sProp 𝕄)
      ⊢ iprop((dat1 (V2 m) c).arrays ((dat1 (V2 m) c).arrAt · 0) ∗ Pipeline.unscopedRest spec1 c (V2 m c)) := by
  have hd := (deal1 (F := F) c (V2 m c)).1
  rw [Pipeline.unscopedBufs_held] at hd
  rw [entry_arrays1]
  iintro H
  ihave H' := hd $$ H
  icases H' with ⟨Ha, Hb, Hc, H12, Hrest⟩
  isplitr [Hrest]
  · isplitl [Ha]; · iexact Ha
    isplitl [Hb]; · iexact Hb
    isplitl [Hc]; · iexact Hc
    iexact H12
  iexact Hrest

/-- The attention region's exit, the buffers' part: the four windowed arrays at their final contents (the three
    thirds of the shared array joined again) and the unscoped rest are every unscoped buffer at W3. -/
theorem exit1 (c : Dev nD) :
    iprop((dat1 (V2 m) c).arrays ((dat1 (V2 m) c).arrAt · cfg1.N) ∗ Pipeline.unscopedRest spec1 c (V2 m c))
      ⊢ (StableHlo.held (c : Thread nD τ) (Pipeline.ucRefs τ sig) (W3 m c) : sProp 𝕄) := by
  have hd := (deal1 (F := F) c (V3 m c)).2
  rw [Pipeline.unscopedBufs_held] at hd
  have hrest : (Pipeline.unscopedRest spec1 c (V3 m c) : sProp 𝕄) = Pipeline.unscopedRest spec1 c (V2 m c) :=
    unscopedRest1_congr c _ _ fun b hb => W3_of_ne m c b fun e =>
      hb (Finset.mem_image.mpr ⟨3, Finset.mem_univ _, e.symm⟩)
  rw [hrest, show V3 m c main_v11 = V2 m c main_v11 from W3_of_ne m c main_v11 (by decide),
    show V3 m c main_v12 = (dat1 (V2 m) c).arrAt 3 cfg1.N from W3_v12 m c] at hd
  rw [exit_arrays1]
  iintro ⟨⟨Ha, Hb, Hc, H12⟩, Hrest⟩
  iapply hd
  isplitl [Ha]; · iexact Ha
  isplitl [Hb]; · iexact Hb
  isplitl [Hc]; · iexact Hc
  isplitl [H12]; · iexact H12
  iexact Hrest

set_option backward.isDefEq.respectTransparency.types false in
/-- The attention region: entered from every unscoped buffer at W2, left at W3. Its three reading windows share one
    array: at entry that array's full share is dealt to them in thirds, at exit the thirds are joined again (entry1, exit1). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    refine .trans ?_ (hin1 (V2 m) c)
    unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    refine (hout1 (V2 m) c).trans ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The main function as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of the main function on the cores terminates,
    nothing faulting, and every final state has the result array at what the attention region's write-backs leave
    and each argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v12) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v12 (by decide))).trans (W3_v12 m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c),
        (h c _ (mem_uc main_arg4 (by decide))).trans (W3_main_arg4 m c),
        (h c _ (mem_uc main_arg5 (by decide))).trans (W3_main_arg5 m c),
        (h c _ (mem_uc main_arg6 (by decide))).trans (W3_main_arg6 m c)⟩)

end Cert.Kernel.Hand

end
-- ==== Proof.KI.Reg0.lean ====
/- Region 0 of the main function: the dense layer, one row block per grid point. Stated at a parameter V, the
   contents of the core's buffers when the region is entered. Three input windows (the row block of the
   activations, the whole weight matrix, the whole bias row) and one output window (the row block of the result). -/
import proofs.«170261_j10977936409228_2_alg».proof.Proof.Gen.KernelIdeal.Launch
import proofs.«170261_j10977936409228_2_alg».proof.Proof.Gen.KernelIdeal.Skeleton
import proofs.«170261_j10977936409228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether it was fetched there or not: where it
    was not fetched the block index has not moved, and the body leaves the block in place. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for window 2, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_a : Rect S1024x1024 := Rect.unit (s := S1024x1024) ![0, 0] S1024x1024.size inb_S1024x1024_S1024x1024_0_0
abbrev r0_b : Rect S1024x3072 := Rect.unit (s := S1024x3072) ![0, 0] S1024x3072.size inb_S1024x3072_S1024x3072_0_0
abbrev r0_c : Rect S1x3072 := Rect.unit (s := S1x3072) ![0, 0] S1x3072.size inb_S1x3072_S1x3072_0_0

/-! ## What the body leaves in the output window's buffer -/

/-- The output buffer after the body, from the three input blocks: one store of the whole buffer, whose value is
    the product of the activations block with the weights, plus the bias row, cast to the output type. -/
def out0_3 (x0 : Vec F S1024x1024 .bf16) (x1 : Vec F S1024x3072 .bf16) (x2 : Vec F S1x3072 .f32) : Vec F S1024x3072 .bf16 :=
  View.canon [⟨r0_b, k0_pay1 (View.ld x0 r0_a) (View.ld x1 r0_b) (View.ld x2 r0_c)⟩]

/-- The one store covers the buffer. -/
theorem cover0_3 (p0 : Vec F S1024x3072 .bf16) (y : S1024x3072.Idx) :
    ∃ pc ∈ ([⟨r0_b, p0⟩] : List (View.Piece (Elt F) S1024x3072 .bf16)), y ∈ pc.1.set :=
  View.cover_of_tiled [⟨r0_b, p0⟩] S1024x3072.size (by rfl) y

/-! ## The body's triple -/

set_option maxHeartbeats 1000000 in
/-- The body on whole buffers: the three inputs at known contents, the output at any contents (it is read once,
    the value unused, before it is overwritten). It ends with the inputs unchanged and the output at out0_3. -/
theorem sound_kernel0 (c : Dev nD) (E : Set ℕ) (i : grid0.Coords)
    (arg1 : Memref sig .tc .vmem S1024x1024 .bf16) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S1024x3072 .bf16) (harg4 : arg4.IsWhole)
    (x0 : Vec F S1024x1024 .bf16) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core c: the arrays as the region finds them; after the body at point t each
    input's buffer still at its block and the output's at out0_3 of the three input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Runs1.lean ====
/-
  The attention kernel (the second region of the program): what its runs share.

  The grid has 2 x 4 points; point t works on query tile t / 4 and key/value tile t % 4. The body resets its three
  carried buffers (running maximum, running sum, running weighted sum) where t % 4 = 0, updates them at every point, and
  writes the output block, the weighted sum divided by the running sum, where t % 4 = 3. So a point is in one of three
  cases: first key tile (reset, no output), middle (no reset, no output), last (no reset, output). This module states
  the two branch conditions in closed form over the grid, where the output window is idle, each input window's block
  at a point, and the invariant's buffers one by one.
-/
import proofs.«170261_j10977936409228_2_alg».proof.Proof.Gen.KernelIdeal.Launch
import proofs.«170261_j10977936409228_2_alg».proof.Proof.Gen.KernelIdeal.Skeleton
import proofs.«170261_j10977936409228_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's branch conditions -/

/-- The reset branch: the key/value coordinate is 0. -/
abbrev cond1_0 (i : grid1.Coords) : Prop := (Scalar.cmpi .ne (Scalar.extui (Scalar.cmpi .eq (BitVec.ofNat 32 (i 1).val) 0#32)) 0#32) = 1#1
/-- It holds at the points t with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The output branch: the key/value coordinate is the last, 3. -/
abbrev cond1_1 (i : grid1.Coords) : Prop := k1_cond2 i = 1#1
/-- It holds at the points t with t % 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the body does not write the output block it is idle, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The three carried buffers: running maximum, running sum, running weighted sum. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1024 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x1024 .f32 := scM1_2.view

/-- The scoped buffers that are neither this region's staging buffers nor its carried buffers: the first region's
    staging buffers, each whole at some contents. -/
def otherRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant as the launch hands it over: the other scoped buffers, the three carried buffers as memrefs
    owned at some contents, the generator register at some state. -/
theorem PhiA1_eq (c : Dev nD) :
    (Pipeline.ΦA spec1 c : sProp 𝕄)
      = iprop(iprop(otherRest c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA otherRest; rw [scopedRest1_eq]; simp only [scM1_0, scM1_1, scM1_2, owns_whole]
  refine Idealize.SL.BI.Entails.antisymm ?_ ?_
  · show BIBase.Entails (PROP := sProp 𝕄) _ _
    iintro ⟨⟨H1, H2, H3, H4, H5, H6, S0, S1, S2⟩, Hg⟩
    isplitl [H1 H2 H3 H4 H5 H6 S0 S1 S2]
    · isplitl [H1 H2 H3 H4 H5 H6]
      · isplitl [H1]; · iexact H1
        isplitl [H2]; · iexact H2
        isplitl [H3]; · iexact H3
        isplitl [H4]; · iexact H4
        isplitl [H5]; · iexact H5
        iexact H6
      isplitl [S0]; · iexact S0
      isplitl [S1]; · iexact S1
      iexact S2
    iexact Hg
  · show BIBase.Entails (PROP := sProp 𝕄) _ _
    iintro ⟨⟨⟨H1, H2, H3, H4, H5, H6⟩, S0, S1, S2⟩, Hg⟩
    isplitl [H1 H2 H3 H4 H5 H6 S0 S1 S2]
    · isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      iexact S2
    iexact Hg

end Cert.KernelIdeal.Hand

end
-- ==== Proof.KI.Run1A.lean ====
/-
  The attention kernel's body at a point of the FIRST key tile (reset taken, output not taken): what its stores leave
  in the three carried buffers, found by running the body; the output buffer is handed back untouched.
-/
import proofs.«170261_j10977936409228_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) at a point of the first key tile, with the proof that on whole
    memrefs — the inputs at their contents, the output buffer at contents handed back untouched, the carried buffers at
    anything — the body runs to the continuation holding the inputs as they were and each carried buffer with its pieces
    written. -/
noncomputable def kernelRun1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S1024x1024 .bf16) (x2 : Vec F S1024x1024 .bf16) :
    Σ' (L3 : List (View.Piece (Elt F) S2048x1024 .f32)) (LS0 : List (View.Piece (Elt F) S2048x1 .f32)) (LS1 : List (View.Piece (Elt F) S2048x1 .f32)), { LS2 : List (View.Piece (Elt F) S2048x1024 .f32) //
      ∀ (xi3 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Run1B.lean ====
/-
  The attention kernel's body at a point of a MIDDLE key tile (neither branch taken): the carried buffers are found at
  what the point before left and are left with the body's pieces written; the output buffer is handed back untouched.
-/
import proofs.«170261_j10977936409228_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) at a point of a middle key tile, with the body's triple. -/
noncomputable def kernelRun1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S1024x1024 .bf16) (x2 : Vec F S1024x1024 .bf16)
    (xs0 : Vec F S2048x1 .f32) (xs1 : Vec F S2048x1 .f32) (xs2 : Vec F S2048x1024 .f32) :
    Σ' (L3 : List (View.Piece (Elt F) S2048x1024 .f32)) (LS0 : List (View.Piece (Elt F) S2048x1 .f32)) (LS1 : List (View.Piece (Elt F) S2048x1 .f32)), { LS2 : List (View.Piece (Elt F) S2048x1024 .f32) //
      ∀ (xi3 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Run1C.lean ====
/-
  The attention kernel's body at a point of the LAST key tile (reset not taken, output taken): the carried buffers are
  found at what the point before left, updated, and the output buffer receives the weighted sum divided by the running sum.
-/
import proofs.«170261_j10977936409228_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) at a point of the last key tile, with the body's triple. -/
noncomputable def kernelRun1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S1024x1024 .bf16) (x2 : Vec F S1024x1024 .bf16)
    (xs0 : Vec F S2048x1 .f32) (xs1 : Vec F S2048x1 .f32) (xs2 : Vec F S2048x1024 .f32) :
    Σ' (L3 : List (View.Piece (Elt F) S2048x1024 .f32)) (LS0 : List (View.Piece (Elt F) S2048x1 .f32)) (LS1 : List (View.Piece (Elt F) S2048x1 .f32)), { LS2 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Reg1.lean ====
/-
  The attention kernel (the second region): what its buffers hold after each grid point, the proof data, and the body
  obligation.

  After point t the three carried buffers hold the running maximum, the running sum and the running weighted sum of
  query tile t / 4 over key tiles 0 … t % 4; at t % 4 = 3 the output window's buffer holds their quotient. This is
  stated by recursion on the point (each case's run applied to the point's input blocks and, past a reset, to what the
  point before left), the region's invariant carries the three buffers at those contents from point to point, and the
  body obligation is the case's run at each point. The three input windows read ONE array (the query, key and value
  columns of the projected array), so each holds a third of its full share.
-/
import proofs.«170261_j10977936409228_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's run at a point -/

/-- The first-key-tile run at point t. -/
abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)
/-- The middle run at point t, from the carried contents p. -/
abbrev runB (c : Dev nD) (t : Fin cfg1.N) (h0 : ¬t.val % 4 = 0) (h1 : ¬t.val % 4 = 3) (p : Vec F S2048x1 .f32 × Vec F S2048x1 .f32 × Vec F S2048x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2
/-- The last-key-tile run at point t, from the carried contents p. -/
abbrev runC (c : Dev nD) (t : Fin cfg1.N) (h0 : ¬t.val % 4 = 0) (h1 : t.val % 4 = 3) (p : Vec F S2048x1 .f32 × Vec F S2048x1 .f32 × Vec F S2048x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

/-! ## The pieces cover their buffers -/

theorem scoverA_0 (c t h0 h1) (y : S2048x1.Idx) : ∃ pc ∈ (runA V c t h0 h1).2.1, y ∈ pc.1.set :=
  View.cover_of_tiledL (runA V c t h0 h1).2.1 S2048x1.size (by sl_kernel_rfl) y
theorem scoverA_1 (c t h0 h1) (y : S2048x1.Idx) : ∃ pc ∈ (runA V c t h0 h1).2.2.1, y ∈ pc.1.set :=
  View.cover_of_tiledL (runA V c t h0 h1).2.2.1 S2048x1.size (by sl_kernel_rfl) y
theorem scoverA_2 (c t h0 h1) (y : S2048x1024.Idx) : ∃ pc ∈ (runA V c t h0 h1).2.2.2.1, y ∈ pc.1.set :=
  View.cover_of_tiledL (runA V c t h0 h1).2.2.2.1 S2048x1024.size (by sl_kernel_rfl) y
theorem scoverB_0 (c t h0 h1 p) (y : S2048x1.Idx) : ∃ pc ∈ (runB V c t h0 h1 p).2.1, y ∈ pc.1.set :=
  View.cover_of_tiledL (runB V c t h0 h1 p).2.1 S2048x1.size (by sl_kernel_rfl) y
theorem scoverB_1 (c t h0 h1 p) (y : S2048x1.Idx) : ∃ pc ∈ (runB V c t h0 h1 p).2.2.1, y ∈ pc.1.set :=
  View.cover_of_tiledL (runB V c t h0 h1 p).2.2.1 S2048x1.size (by sl_kernel_rfl) y
theorem scoverB_2 (c t h0 h1 p) (y : S2048x1024.Idx) : ∃ pc ∈ (runB V c t h0 h1 p).2.2.2.1, y ∈ pc.1.set :=
  View.cover_of_tiledL (runB V c t h0 h1 p).2.2.2.1 S2048x1024.size (by sl_kernel_rfl) y
theorem scoverC_0 (c t h0 h1 p) (y : S2048x1.Idx) : ∃ pc ∈ (runC V c t h0 h1 p).2.1, y ∈ pc.1.set :=
  View.cover_of_tiledL (runC V c t h0 h1 p).2.1 S2048x1.size (by sl_kernel_rfl) y
theorem scoverC_1 (c t h0 h1 p) (y : S2048x1.Idx) : ∃ pc ∈ (runC V c t h0 h1 p).2.2.1, y ∈ pc.1.set :=
  View.cover_of_tiledL (runC V c t h0 h1 p).2.2.1 S2048x1.size (by sl_kernel_rfl) y
theorem scoverC_2 (c t h0 h1 p) (y : S2048x1024.Idx) : ∃ pc ∈ (runC V c t h0 h1 p).2.2.2.1, y ∈ pc.1.set :=
  View.cover_of_tiledL (runC V c t h0 h1 p).2.2.2.1 S2048x1024.size (by sl_kernel_rfl) y
theorem coverC_3 (c t h0 h1 p) (y : S2048x1024.Idx) : ∃ pc ∈ (runC V c t h0 h1 p).1, y ∈ pc.1.set :=
  View.cover_of_tiledL (runC V c t h0 h1 p).1 S2048x1024.size (by sl_kernel_rfl) y

/-! ## What the buffers hold after each point -/

/-- What the output window's buffer and the three carried buffers hold after the body at point t, from what the carried
    buffers held before it (p; not consulted at a reset point): the case's pieces read back. Where the body stores
    nothing into the output buffer its component is a placeholder nothing consults. -/
def stepOuts (c : Dev nD) (t : Fin cfg1.N) (p : Vec F S2048x1 .f32 × Vec F S2048x1 .f32 × Vec F S2048x1024 .f32) : Vec F S2048x1024 .f32 × Vec F S2048x1 .f32 × Vec F S2048x1 .f32 × Vec F S2048x1024 .f32 :=
  if h0 : t.val % 4 = 0 then
    if h1 : t.val % 4 = 3 then False.elim (by omega)
    else (VO1_3.read (Elt F) (VO1_3.writes (Elt F) VO1_3.junk (runA V c t h0 h1).1), VS1_0.read (Elt F) (VS1_0.writes (Elt F) VS1_0.junk (runA V c t h0 h1).2.1), VS1_1.read (Elt F) (VS1_1.writes (Elt F) VS1_1.junk (runA V c t h0 h1).2.2.1), VS1_2.read (Elt F) (VS1_2.writes (Elt F) VS1_2.junk (runA V c t h0 h1).2.2.2.1))
  else
    if h1 : t.val % 4 = 3 then (VO1_3.read (Elt F) (VO1_3.writes (Elt F) VO1_3.junk (runC V c t h0 h1 p).1), VS1_0.read (Elt F) (VS1_0.writes (Elt F) VS1_0.junk (runC V c t h0 h1 p).2.1), VS1_1.read (Elt F) (VS1_1.writes (Elt F) VS1_1.junk (runC V c t h0 h1 p).2.2.1), VS1_2.read (Elt F) (VS1_2.writes (Elt F) VS1_2.junk (runC V c t h0 h1 p).2.2.2.1))
    else (VO1_3.read (Elt F) (VO1_3.writes (Elt F) VO1_3.junk (runB V c t h0 h1 p).1), VS1_0.read (Elt F) (VS1_0.writes (Elt F) VS1_0.junk (runB V c t h0 h1 p).2.1), VS1_1.read (Elt F) (VS1_1.writes (Elt F) VS1_1.junk (runB V c t h0 h1 p).2.2.1), VS1_2.read (Elt F) (VS1_2.writes (Elt F) VS1_2.junk (runB V c t h0 h1 p).2.2.2.1))

variable [∀ e, Nonempty (Elt F e)]

/-- THE ACCUMULATION: the buffers after position n, by recursion on the position (the first point is a reset point). -/
def outsAt1 (c : Dev nD) : (n : ℕ) → n < cfg1.N → Vec F S2048x1024 .f32 × Vec F S2048x1 .f32 × Vec F S2048x1 .f32 × Vec F S2048x1024 .f32
  | 0, hn => stepOuts V c ⟨0, hn⟩ (fun _ => Classical.arbitrary _, fun _ => Classical.arbitrary _, fun _ => Classical.arbitrary _)
  | n + 1, hn => stepOuts V c ⟨n + 1, hn⟩ (outsAt1 c n (Nat.lt_of_succ_lt hn)).2

/-- Past the first point: one step from what the point before left. -/
theorem outsAt1_pos (c : Dev nD) (t : Fin cfg1.N) (hz : t.val ≠ 0) :
    outsAt1 V c t.val t.isLt = stepOuts V c t (outsAt1 V c (t.val - 1) (Nat.lt_of_le_of_lt (Nat.sub_le _ _) t.isLt)).2 := by
  obtain ⟨n, hn⟩ := t
  cases n with
  | zero => exact absurd rfl hz
  | succ n => rfl

/-- At a reset point the step does not consult the carried contents. -/
theorem stepOuts_reset (c : Dev nD) (t : Fin cfg1.N) (h0 : t.val % 4 = 0) (p p' : Vec F S2048x1 .f32 × Vec F S2048x1 .f32 × Vec F S2048x1024 .f32) : stepOuts V c t p = stepOuts V c t p' := by
  unfold stepOuts; rw [dif_pos h0, dif_pos h0]

/-- The region's invariant before position n: before the first point as the launch hands it over; afterwards the three
    carried buffers at what the point before left, the other scoped buffers and the generator register at anything. -/
def PhiS1 (c : Dev nD) : (n : ℕ) → n ≤ cfg1.N → sProp 𝕄
  | 0, _ => Pipeline.ΦA spec1 c
  | n + 1, hn => iprop(iprop(otherRest c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(otherRest c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop(iprop(otherRest c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the attention pipeline on core c: the arrays as the region finds them; after the body each input's
    buffer at its block and the output's at the accumulation's first component; the invariant above; nothing owed; the
    three input windows, which read one array, each at a third of its full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.Reg1Body.lean ====
/-
  The attention kernel's body obligation: at every grid point the body, called on the point's staging buffers and the
  three carried buffers, takes the region's invariant before the point to the invariant after it and leaves each window's
  buffer as the proof data says. The point's case is read off t % 4; before the very first point the carried buffers
  hold anything, before a later reset point what the previous query tile left (forgotten), otherwise what the point
  before left.
-/
import proofs.«170261_j10977936409228_2_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) [∀ e, Nonempty (Elt F e)]

/-- What the carried buffers hold before point t, for the accumulation's step: anything at the first point. -/
def prevAt (c : Dev nD) (t : Fin cfg1.N) : Vec F S2048x1 .f32 × Vec F S2048x1 .f32 × Vec F S2048x1024 .f32 :=
  if hz : t.val = 0 then (fun _ => Classical.arbitrary _, fun _ => Classical.arbitrary _, fun _ => Classical.arbitrary _)
  else (outsAt1 V c (t.val - 1) (Nat.lt_of_le_of_lt (Nat.sub_le _ _) t.isLt)).2

theorem prevAt_pos (c : Dev nD) (t : Fin cfg1.N) (hz : t.val ≠ 0) :
    prevAt V c t = (outsAt1 V c (t.val - 1) (Nat.lt_of_le_of_lt (Nat.sub_le _ _) t.isLt)).2 := by
  unfold prevAt; rw [dif_neg hz]

/-- The accumulation at a point is one step from what the carried buffers held before it. -/
theorem outsAt1_step (c : Dev nD) (t : Fin cfg1.N) : outsAt1 V c t.val t.isLt = stepOuts V c t (prevAt V c t) := by
  obtain ⟨n, hn⟩ := t
  cases n with
  | zero => unfold prevAt; rw [dif_pos rfl]; rfl
  | succ n => unfold prevAt; rw [dif_neg (Nat.succ_ne_zero n)]; rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [outsAt1_step V c t]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    unfold stepOuts; rw [dif_pos h0, dif_neg h1]; (try dsimp only)
    by_cases hz : t.val = 0
    · rw [PhiS1_castSucc V c t, PhiS1_zero V c _ _ hz, PhiA1_eq]
      iintro ⟨⟨⟨HR, HS0, HS1, HS2⟩, Hg⟩, Ho, ⟨%d0, H0⟩, ⟨%d1, H1⟩, ⟨%d2, H2⟩, ⟨%d3, H3⟩⟩
      iapply ((runA V c t h0 h1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((runA V c t h0 h1).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [prevAt_pos V c t hz, PhiS1_castSucc V c t, PhiS1_pos V c _ _ hz]
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3, outsAt1_step V c t, prevAt_pos V c t hz]
      unfold stepOuts; rw [dif_neg h0, dif_pos h1]; (try dsimp only)
      iintro ⟨⟨⟨HR, HS0, HS1, HS2⟩, Hg⟩, Ho, ⟨%d0, H0⟩, ⟨%d1, H1⟩, ⟨%d2, H2⟩, ⟨%d3, H3⟩⟩
      iapply ((runC V c t h0 h1 _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverC_0 V c t h0 h1 _)
          isplitl [HS1]
          · unfold owns; iexists _; isplitr
            swap; · iexact HS1
            ipureintro; exact View.read_writes_of_cover _ _ _ _ _ (scoverC_1 V c t h0 h1 _)
          unfold owns; iexists _; isplitr
          swap; · iexact HS2
          ipureintro; exact View.read_writes_of_cover _ _ _ _ _ (scoverC_2 V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _)
    · rw [Dat.leavesExact_idle (dat1 V c) 3 t (idleAt1_3 t (fun h => h1 ((hcond1_1 t).mp h))) (noFlush1_3 t (fun h => h1 ((hcond1_1 t).mp h)))]
      unfold stepOuts; rw [dif_neg h0, dif_neg h1]; (try dsimp only)
      iintro ⟨⟨⟨HR, HS0, HS1, HS2⟩, Hg⟩, Ho, ⟨%d0, H0⟩, ⟨%d1, H1⟩, ⟨%d2, H2⟩, ⟨%d3, H3⟩⟩
      iapply ((runB V c t h0 h1 _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (scoverB_0 V c t h0 h1 _)
          isplitl [HS1]
          · unfold owns; iexists _; isplitr
            swap; · iexact HS1
            ipureintro; exact View.read_writes_of_cover _ _ _ _ _ (scoverB_1 V c t h0 h1 _)
          unfold owns; iexists _; isplitr
          swap; · iexact HS2
          ipureintro; exact View.read_writes_of_cover _ _ _ _ _ (scoverB_2 V c t h0 h1 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the carried buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.KI.Deal1.lean ====
/- The attention region reads one array, the dense layer's result, through three windows and writes a second array.
   A core's unscoped buffers regroup as: that shared array's full share in thirds, one per reading window; the
   written array at the full share; and every other unscoped buffer. -/
import proofs.«170261_j10977936409228_2_alg».proof.Proof.Gen.KernelIdeal.Launch
import proofs.«170261_j10977936409228_2_alg».proof.Proof.LibShareThirds
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind the region's four windows are two: the shared input array and the output array. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v11) ↦{fullShare} Vc main_v11) ∗ (((c : Thread nD τ).loc main_v12) ↦{fullShare} Vc main_v12)) := by
  unfold Pipeline.arrBufs
  exact bigSep_eq_bigSepL_of_eq [main_v11, main_v12] (by decide) (by decide) _

/-- The unscoped buffers that are no window's array depend only on the contents off those arrays. -/
theorem unscopedRest1_congr (c : Dev nD) (Vc Vc' : (b : Ref sig .tc) → Buf (Elt F) ((c : Thread nD τ).loc b))
    (h : ∀ b, b ∉ Finset.univ.image (Pipeline.arrRef spec1) → Vc b = Vc' b) :
    (Pipeline.unscopedRest spec1 c Vc : sProp 𝕄) = Pipeline.unscopedRest spec1 c Vc' := by
  unfold Pipeline.unscopedRest
  exact bigSep_congr fun b hb => by rw [h b (Finset.mem_sdiff.mp hb).2]

/-- A core's unscoped buffers at contents Vc are: the shared array in thirds, the output array whole, the rest. -/
theorem deal1 (c : Dev nD) (Vc : (b : Ref sig .tc) → Buf (Elt F) ((c : Thread nD τ).loc b)) :
    (unscopedBufs c Vc : sProp 𝕄) ⊣⊢
      iprop((((c : Thread nD τ).loc main_v11) ↦{fullShare.left} Vc main_v11)
        ∗ (((c : Thread nD τ).loc main_v11) ↦{fullShare.right.left} Vc main_v11)
        ∗ (((c : Thread nD τ).loc main_v11) ↦{fullShare.right.right} Vc main_v11)
        ∗ (((c : Thread nD τ).loc main_v12) ↦{fullShare} Vc main_v12)
        ∗ Pipeline.unscopedRest spec1 c Vc) := by
  have hsplit := Pipeline.unscopedBufs_split₀ (Ix := Unit) (Name := ℕ) (U := UR sig nD τ) (Lvl := ℕ) (nD := nD) (τ := τ)
    cfgs 1 winFacts₀1.arr_unscoped c Vc
  have hthirds := Cert.Lib.pointsTo_thirds (Ix := Unit) (Name := ℕ) (U := UR sig nD τ) (Lvl := ℕ)
    (ℓ := ((c : Thread nD τ).loc main_v11)) (Vc main_v11)
  rw [hsplit, show (cfgs 1).spec = spec1 from rfl, arrBufs1_eq]
  constructor
  · iintro ⟨⟨H11, H12⟩, Hrest⟩
    ihave H3 := hthirds.1 $$ H11
    icases H3 with ⟨Ha, Hb, Hc⟩
    isplitl [Ha]; · iexact Ha
    isplitl [Hb]; · iexact Hb
    isplitl [Hc]; · iexact Hc
    isplitl [H12]; · iexact H12
    iexact Hrest
  · iintro ⟨Ha, Hb, Hc, H12, Hrest⟩
    isplitr [Hrest]
    · isplitr [H12]
      · iapply hthirds.2
        isplitl [Ha]; · iexact Ha
        isplitl [Hb]; · iexact Hb
        iexact Hc
      iexact H12
    iexact Hrest

end Cert.KernelIdeal.Hand

end
-- ==== Proof.KI.Arrays1.lean ====
/- The attention region's four windowed arrays, written out: the three reading windows hold the shared array at the
   three thirds of its full share, the writing window holds the output array at the full share. An input window's
   array is unchanged by the region, so at every point it holds what the region found. -/
import proofs.«170261_j10977936409228_2_alg».proof.Proof.KI.Reg1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) [∀ e, Nonempty (Elt F e)]

/-- The windowed arrays at contents G, one window at a time. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v11) ↦{fullShare.left} G 0)
        ∗ (((c : Thread nD τ).loc main_v11) ↦{fullShare.right.left} G 1)
        ∗ (((c : Thread nD τ).loc main_v11) ↦{fullShare.right.right} G 2)
        ∗ (((c : Thread nD τ).loc main_v12) ↦{fullShare} G 3)) := by
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have h3 : (cfg1.win 3).arr.view.set = Finset.univ := (arr_whole1 3).set_eq_univ
  unfold Dat.arrays
  rw [bigSep_W1, h0]
  try rw [h1]
  try rw [h2]
  try rw [h3]
  rfl

/-- The three reading windows' array holds, at every point, what the region found in the shared array. -/
theorem arrAt1_0 (c : Dev nD) (n : ℕ) : (dat1 V c).arrAt 0 n = V c main_v11 :=
  ((dat1 V c).arrAt_in 0 rfl n).trans (A_eq1 V c 0)
theorem arrAt1_1 (c : Dev nD) (n : ℕ) : (dat1 V c).arrAt 1 n = V c main_v11 :=
  ((dat1 V c).arrAt_in 1 rfl n).trans (A_eq1 V c 1)
theorem arrAt1_2 (c : Dev nD) (n : ℕ) : (dat1 V c).arrAt 2 n = V c main_v11 :=
  ((dat1 V c).arrAt_in 2 rfl n).trans (A_eq1 V c 2)
/-- The writing window's array starts at what the region found in the output array. -/
theorem arrAt1_3_zero (c : Dev nD) : (dat1 V c).arrAt 3 0 = V c main_v12 := A_eq1 V c 3

/-- At entry: the shared array's three thirds and the output array, all at what the region finds. -/
theorem entry_arrays1 (c : Dev nD) :
    ((dat1 V c).arrays ((dat1 V c).arrAt · 0) : sProp 𝕄)
      = iprop((((c : Thread nD τ).loc main_v11) ↦{fullShare.left} V c main_v11)
        ∗ (((c : Thread nD τ).loc main_v11) ↦{fullShare.right.left} V c main_v11)
        ∗ (((c : Thread nD τ).loc main_v11) ↦{fullShare.right.right} V c main_v11)
        ∗ (((c : Thread nD τ).loc main_v12) ↦{fullShare} V c main_v12)) := by
  rw [arrays1_eq]
  try dsimp only
  rw [arrAt1_0 V c, arrAt1_1 V c, arrAt1_2 V c, arrAt1_3_zero V c]

/-- At exit: the shared array's three thirds still at what the region found, the output array at what the
    write-backs of all the points leave. -/
theorem exit_arrays1 (c : Dev nD) :
    ((dat1 V c).arrays ((dat1 V c).arrAt · cfg1.N) : sProp 𝕄)
      = iprop((((c : Thread nD τ).loc main_v11) ↦{fullShare.left} V c main_v11)
        ∗ (((c : Thread nD τ).loc main_v11) ↦{fullShare.right.left} V c main_v11)
        ∗ (((c : Thread nD τ).loc main_v11) ↦{fullShare.right.right} V c main_v11)
        ∗ (((c : Thread nD τ).loc main_v12) ↦{fullShare} (dat1 V c).arrAt 3 cfg1.N)) := by
  rw [arrays1_eq]
  try dsimp only
  rw [arrAt1_0 V c, arrAt1_1 V c, arrAt1_2 V c]

end Cert.KernelIdeal.Hand

end
-- ==== Proof.KI.Run.lean ====
/- The run of the main function, from the launch to the return: a stretch of host operations, the dense layer's
   region, the attention region. The buffer contents at each boundary are named, every argument array is read back
   to its launch contents, and the result array ends at what the attention region's write-backs leave. -/
import proofs.«170261_j10977936409228_2_alg».proof.Proof.KI.Reg0
import proofs.«170261_j10977936409228_2_alg».proof.Proof.KI.Reg1Body
import proofs.«170261_j10977936409228_2_alg».proof.Proof.KI.Deal1
import proofs.«170261_j10977936409228_2_alg».proof.Proof.KI.Arrays1
import proofs.«170261_j10977936409228_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the host operations: the dense layer's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the dense layer's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit: the result array at what the write-backs of all its points leave, every other
    buffer as entered (the region's three reading windows leave their shared array unchanged). -/
def W3 (c : Dev nD) : Valuation τ sig (Elt F) :=
  Function.update (W2 m c) (Proc.devRef .tc main_v12) ((dat1 (V2 m) c).arrAt 3 cfg1.N)
abbrev V3 : (c : Dev nD) → (b : Ref sig .tc) → Buf (Elt F) ((c : Thread nD τ).loc b) := fun c b => W3 m c b
theorem W3_v12 (c : Dev nD) : W3 m c (Proc.devRef .tc main_v12) = (dat1 (V2 m) c).arrAt 3 cfg1.N := by
  unfold W3; exact Function.update_self _ _ _
theorem W3_of_ne (c : Dev nD) (b : Ref sig .tc) (hb : b ≠ main_v12) :
    W3 m c (Proc.devRef .tc b) = W2 m c (Proc.devRef .tc b) := by
  unfold W3; exact Function.update_of_ne (StableHlo.devRef_ne_of_ne hb) _ _

/-! ### The arguments end as launched: no host operation writes one and no region has one as a window's array -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The dense layer's region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's entry, the buffers' part: every unscoped buffer at W2 is the region's four windowed arrays
    at their entry contents (the shared array dealt in thirds) and the unscoped rest. -/
theorem entry1 (c : Dev nD) :
    (StableHlo.held (c : Thread nD τ) (Pipeline.ucRefs τ sig) (W2 m c) : sProp 𝕄)
      ⊢ iprop((dat1 (V2 m) c).arrays ((dat1 (V2 m) c).arrAt · 0) ∗ Pipeline.unscopedRest spec1 c (V2 m c)) := by
  have hd := (deal1 (F := F) c (V2 m c)).1
  rw [Pipeline.unscopedBufs_held] at hd
  rw [entry_arrays1]
  iintro H
  ihave H' := hd $$ H
  icases H' with ⟨Ha, Hb, Hc, H12, Hrest⟩
  isplitr [Hrest]
  · isplitl [Ha]; · iexact Ha
    isplitl [Hb]; · iexact Hb
    isplitl [Hc]; · iexact Hc
    iexact H12
  iexact Hrest

/-- The attention region's exit, the buffers' part: the four windowed arrays at their final contents (the three
    thirds of the shared array joined again) and the unscoped rest are every unscoped buffer at W3. -/
theorem exit1 (c : Dev nD) :
    iprop((dat1 (V2 m) c).arrays ((dat1 (V2 m) c).arrAt · cfg1.N) ∗ Pipeline.unscopedRest spec1 c (V2 m c))
      ⊢ (StableHlo.held (c : Thread nD τ) (Pipeline.ucRefs τ sig) (W3 m c) : sProp 𝕄) := by
  have hd := (deal1 (F := F) c (V3 m c)).2
  rw [Pipeline.unscopedBufs_held] at hd
  have hrest : (Pipeline.unscopedRest spec1 c (V3 m c) : sProp 𝕄) = Pipeline.unscopedRest spec1 c (V2 m c) :=
    unscopedRest1_congr c _ _ fun b hb => W3_of_ne m c b fun e =>
      hb (Finset.mem_image.mpr ⟨3, Finset.mem_univ _, e.symm⟩)
  rw [hrest, show V3 m c main_v11 = V2 m c main_v11 from W3_of_ne m c main_v11 (by decide),
    show V3 m c main_v12 = (dat1 (V2 m) c).arrAt 3 cfg1.N from W3_v12 m c] at hd
  rw [exit_arrays1]
  iintro ⟨⟨Ha, Hb, Hc, H12⟩, Hrest⟩
  iapply hd
  isplitl [Ha]; · iexact Ha
  isplitl [Hb]; · iexact Hb
  isplitl [Hc]; · iexact Hc
  isplitl [H12]; · iexact H12
  iexact Hrest

set_option backward.isDefEq.respectTransparency.types false in
/-- The attention region: entered from every unscoped buffer at W2, left at W3. Its three reading windows share one
    array: at entry that array's full share is dealt to them in thirds, at exit the thirds are joined again (entry1, exit1). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    refine .trans ?_ (hin1 (V2 m) c)
    unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    refine (hout1 (V2 m) c).trans ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The main function as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of the main function on the cores terminates,
    nothing faulting, and every final state has the result array at what the attention region's write-backs leave
    and each argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v12) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v12 (by decide))).trans (W3_v12 m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c),
        (h c _ (mem_uc main_arg4 (by decide))).trans (W3_main_arg4 m c),
        (h c _ (mem_uc main_arg5 (by decide))).trans (W3_main_arg5 m c),
        (h c _ (mem_uc main_arg6 (by decide))).trans (W3_main_arg6 m c)⟩)

end Cert.KernelIdeal.Hand

end
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.LibSoftmaxRow.lean ====
/-
  One row of the distributional head, on the extended reals.

  For a row of logits l_0 … l_{n-1} and bin values β_0 … β_{n-1} put
      m = max_k l_k,   e_k = exp (l_k − m),   s = Σ_k e_k.
  One program forms the reciprocal r = 1 / s once and writes e_k · r and (Σ_k e_k · β_k) · r; the other writes the
  quotients e_k / s and Σ_k (e_k / s) · β_k. When every l_k and β_k is a real number, m is real (n ≥ 1), every e_k is
  a positive real, s is a positive real, so dividing by s is multiplying by the real 1 / s, and a real factor moves
  across a finite sum of reals: the two programs agree. With an infinite entry they need not (a factor does not
  distribute over a sum that meets an infinity), which is why the entries are asked to be real.
-/
import proofs.«170261_j10977936409228_2_alg».proof.Proof.LibRealEntries
import Idealize.ShloMosaic.PureOps.Ideal.Laws

noncomputable section

open scoped BigOperators

namespace Cert.Softmax

open Idealize.ShloMosaic Cert.Algebra

/-! ## Three literals -/

/-- The f32 pattern of −∞ is the bottom of the extended reals. -/
theorem negInf_f32 : Ideal.ofBits .f32 0xFF800000#32 = ⊥ := by simp [Ideal.ofBits, Ideal.ieee]

/-- The f32 pattern of 1.0 is 1. -/
theorem one_f32 : Ideal.ofBits .f32 0x3F800000#32 = 1 := IdealRules.sign_bit.ideal_onePat .f32

/-! ## The row -/

variable {n : ℕ}

/-- The largest logit of the row: the fold of max from −∞. -/
def rowMax (l : Fin n → EReal) : EReal := (Finset.univ : Finset (Fin n)).fold max ⊥ l

/-- The shifted exponentials. -/
def ex (l : Fin n → EReal) (k : Fin n) : EReal := Ideal.exp (l k - rowMax l)

/-- Their total. -/
def tot (l : Fin n → EReal) : EReal := ∑ k, ex l k

/-- Folding max once more with −∞ changes nothing. -/
theorem max_bot_rowMax (l : Fin n → EReal) : max ⊥ (rowMax l) = rowMax l := max_eq_right bot_le

/-- The largest of n ≥ 1 real logits is real. -/
theorem isReal_rowMax [NeZero n] (l : Fin n → EReal) (hl : ∀ k, IsReal (l k)) : IsReal (rowMax l) := by
  have hb : rowMax l ≠ ⊥ := by
    obtain ⟨a, ha⟩ := hl 0
    have h0 : l 0 ≤ rowMax l := (Finset.le_fold_max (l 0)).mpr (Or.inr ⟨0, Finset.mem_univ _, le_rfl⟩)
    intro h
    rw [h, ha] at h0
    exact absurd (le_bot_iff.mp h0) (EReal.coe_ne_bot a)
  have ht : rowMax l ≠ ⊤ := by
    have h : rowMax l < ⊤ := (Finset.fold_max_lt ⊤).mpr ⟨bot_lt_top, fun k _ => by
      obtain ⟨a, ha⟩ := hl k; rw [ha]; exact EReal.coe_lt_top a⟩
    exact h.ne
  exact ⟨(rowMax l).toReal, (EReal.coe_toReal ht hb).symm⟩

/-- With real logits a_k and real maximum M the shifted exponential is the real exp (a_k − M). -/
theorem ex_coe (l : Fin n → EReal) (a : Fin n → ℝ) (ha : ∀ k, l k = (a k : EReal)) (M : ℝ) (hM : rowMax l = (M : EReal)) (k : Fin n) :
    ex l k = ((Real.exp (a k - M) : ℝ) : EReal) := by
  unfold ex; rw [ha, hM, ← EReal.coe_sub, Ideal.exp_coe]

/-- and their total the positive real Σ exp (a_k − M). -/
theorem tot_coe [NeZero n] (l : Fin n → EReal) (a : Fin n → ℝ) (ha : ∀ k, l k = (a k : EReal)) (M : ℝ) (hM : rowMax l = (M : EReal)) :
    tot l = ((∑ k, Real.exp (a k - M) : ℝ) : EReal) ∧ 0 < ∑ k, Real.exp (a k - M) := by
  refine ⟨?_, Finset.sum_pos (fun k _ => Real.exp_pos _) ⟨0, Finset.mem_univ _⟩⟩
  unfold tot; rw [coe_sum]; exact Finset.sum_congr rfl fun k _ => ex_coe l a ha M hM k

/-- THE NORMALISED EXPONENTIAL: the product with the reciprocal of the total is the quotient by the total. -/
theorem probs_eq [NeZero n] (l : Fin n → EReal) (hl : ∀ k, IsReal (l k)) (k : Fin n) :
    ex l k * Ideal.div 1 (tot l) = Ideal.div (ex l k) (tot l) := by
  choose a ha using hl
  obtain ⟨M, hM⟩ := isReal_rowMax l fun k => ⟨a k, ha k⟩
  obtain ⟨hS, hpos⟩ := tot_coe l a ha M hM
  rw [hS, Ideal.div_coe hpos.ne', Ideal.div_coe hpos.ne', one_mul]

/-- THE EXPECTED VALUE: the reciprocal of the total applied after the weighted sum is the weighted sum of the
    quotients. -/
theorem val_eq [NeZero n] (l β : Fin n → EReal) (hl : ∀ k, IsReal (l k)) (hβ : ∀ k, IsReal (β k)) :
    (∑ k, ex l k * β k) * Ideal.div 1 (tot l) = ∑ k, Ideal.div (ex l k) (tot l) * β k := by
  choose a ha using hl
  choose bb hb using hβ
  obtain ⟨M, hM⟩ := isReal_rowMax l fun k => ⟨a k, ha k⟩
  obtain ⟨hS, hpos⟩ := tot_coe l a ha M hM
  rw [hS]
  simp only [Ideal.div_coe hpos.ne', one_mul, ex_coe l a ha M hM, hb, ← EReal.coe_mul, ← coe_sum]
  refine congrArg _ ?_
  rw [Finset.sum_mul]
  exact Finset.sum_congr rfl fun k _ => by ring

end Cert.Softmax

end
-- ==== Proof.Spec.lean ====
/-
  The specification: one head of softmax attention over 4096 rows of width 1024, on the extended reals.

  From an input x and three weight matrices with their biases form, for every row r, the projections
      lin x w b (r, c) = sum over k of x (r, k) * w (c, k) + b c          (a dense layer against the ROWS of w),
  the query divided by 32 (the square root of the width 1024), the scores of row r against every key,
      scores q k r j = sum over d of q (r, d) * k (j, d),
  and the output: the average of the value rows weighted by the softmax of the scores,
      attn q k v (r, c) = sum over j of (ex_j / tot) * v (j, c),   ex_j = exp (scores_j - rowMax), tot = sum of the ex_j.
  `attn` is a function of the three projected arrays alone, so two programs that agree on q, k and v agree on it.
-/
import proofs.«170261_j10977936409228_2_alg».proof.Proof.LibSoftmaxRow
import Idealize.ShloMosaic.Lib.ValueIdx

noncomputable section

open scoped BigOperators

namespace Cert.Spec

open Idealize.ShloMosaic Idealize.ShloMosaic.ValueIdx Cert.Softmax

/-- A dense layer against the rows of the weights, entry (r, c): the row r of x against the row c of w, plus the bias. -/
def lin (x : (⟨2, ![4096, 1024]⟩ : Shape).Idx → EReal) (w : (⟨2, ![1024, 1024]⟩ : Shape).Idx → EReal)
    (b : (⟨1, ![1024]⟩ : Shape).Idx → EReal) (r : Fin 4096) (c : Fin 1024) : EReal :=
  (∑ k : Fin 1024, x (ix2 r k) * w (ix2 c k)) + b (ix1 c)

/-- The scores of query row r: against every key row j, the sum over the width of the products. -/
def scores (q k : Fin 4096 → Fin 1024 → EReal) (r : Fin 4096) (j : Fin 4096) : EReal :=
  ∑ d : Fin 1024, q r d * k j d

/-- Softmax attention, entry (r, c): the value rows averaged with the normalised exponentials of row r's scores. -/
def attn (q k v : Fin 4096 → Fin 1024 → EReal) (r : Fin 4096) (c : Fin 1024) : EReal :=
  ∑ j : Fin 4096, Ideal.div (ex (scores q k r) j) (tot (scores q k r)) * v j c

/-- The scaled query projection: the dense layer divided by 32. -/
def qproj (x : (⟨2, ![4096, 1024]⟩ : Shape).Idx → EReal) (w : (⟨2, ![1024, 1024]⟩ : Shape).Idx → EReal)
    (b : (⟨1, ![1024]⟩ : Shape).Idx → EReal) (r : Fin 4096) (d : Fin 1024) : EReal :=
  Ideal.div (lin x w b r d) ((32 : ℝ) : EReal)

/-- The whole function of the seven arguments: entry i of the attention of the three projections. -/
def out (x : (⟨2, ![4096, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal) :
    (⟨2, ![4096, 1024]⟩ : Shape).Idx → EReal :=
  fun i => attn (qproj x wq bq) (lin x wk bk) (lin x wv bv) (i 0) (i 1)

/-- The attention read at explicit coordinates. -/
theorem out_ix2 (x wq bq wk bk wv bv) (r : Fin 4096) (c : Fin 1024) :
    out x wq bq wk bk wv bv (ix2 r c) = attn (qproj x wq bq) (lin x wk bk) (lin x wv bv) r c := rfl

end Cert.Spec

end
-- ==== Proof.RefConsts.lean ====
/-
  Two scalar constants on the extended reals: the width 1024 raised to the power one half, and its square root.
  Both are 32, since 1024 = 32 * 32.
-/
import Idealize.ShloMosaic.PureOps.Ideal

noncomputable section

namespace Cert.RefSpec

open Idealize.ShloMosaic

/-- The f32 pattern of 1024.0 is the real 1024. -/
theorem ofBits_1024 : Ideal.ofBits .f32 0x44800000#32 = ((1024 : ℝ) : EReal) := by
  simp [Ideal.ofBits, Ideal.ieee, -EReal.coe_mul]; norm_num

/-- The f32 pattern of 0.5 is the real one half. -/
theorem ofBits_half : Ideal.ofBits .f32 0x3F000000#32 = (((1 / 2 : ℝ)) : EReal) := by
  simp [Ideal.ofBits, Ideal.ieee, -EReal.coe_mul]; norm_num

/-- The square root of the real 1024 is 32. -/
theorem real_sqrt_1024 : Real.sqrt (1024 : ℝ) = 32 := by
  rw [show (1024 : ℝ) = 32 ^ 2 by norm_num]; exact Real.sqrt_sq (by norm_num)

/-- 1024 to the power one half is 32. -/
theorem pow_1024_half :
    Ideal.pow (Ideal.ofBits .f32 0x44800000#32) (Ideal.ofBits .f32 0x3F000000#32) = ((32 : ℝ) : EReal) := by
  rw [ofBits_1024, ofBits_half, Ideal.pow_coe_coe]
  refine congrArg _ ?_
  show (1024 : ℝ) ^ ((1 / 2 : ℝ)) = 32
  rw [← Real.sqrt_eq_rpow]; exact real_sqrt_1024

/-- The square root of 1024 is 32. -/
theorem sqrt_1024 : Ideal.sqrt (Ideal.ofBits .f32 0x44800000#32) = ((32 : ℝ) : EReal) := by
  rw [ofBits_1024, Ideal.sqrt_coe, if_neg (by norm_num), real_sqrt_1024]

end Cert.RefSpec

end
-- ==== Proof.RefProj.lean ====
/-
  The reference's three dense layers, its scaled query and its scores, read at explicit coordinates.

  The reference transposes each weight matrix and multiplies: entry (r, c) is the sum over k of x (r, k) times the
  transposed weight at (k, c), which is the weight at (c, k); the bias, a row broadcast down the 4096 rows, adds its
  entry c. That is the dense layer of the specification. The query is then divided, entry by entry, by 1024 to the power
  one half, which is 32. The scores multiply the scaled query by the transposed key projection: entry (r, j) is the
  sum over d of q (r, d) times k (j, d).
-/
import proofs.«170261_j10977936409228_2_alg».proof.Proof.Gen.ReferenceIdeal.Read
import proofs.«170261_j10977936409228_2_alg».proof.Proof.Spec
import proofs.«170261_j10977936409228_2_alg».proof.Proof.RefConsts

noncomputable section

open scoped BigOperators

namespace Cert.RefSpec

open Cert.ReferenceIdeal Cert.ReferenceIdeal.Gen Cert.ReferenceIdeal.Read Idealize.ShloMosaic Idealize.ShloMosaic.ValueIdx

/-! ## Where the composed index functions land -/

/-- The left operand of a product of a 4096 x 1024 array with a 1024 x 1024 one, at (r, c) and k: (r, k). -/
theorem lidx_proj (r : Fin 4096) (c k : Fin 1024) : lidx_main_v1 (ix2 r c) k = ix2 r k := by
  funext a; match a with | ⟨0, _⟩ => rfl | ⟨1, _⟩ => rfl

/-- The right operand at (k, c), read through the transpose: the weight at (c, k). -/
theorem ridx_proj (r : Fin 4096) (c k : Fin 1024) : idx_main_v0 (ridx_main_v1 (ix2 r c) k) = ix2 c k := by
  funext a; match a with | ⟨0, _⟩ => rfl | ⟨1, _⟩ => rfl

/-- The bias row broadcast twice, at (r, c): the bias at c. -/
theorem bidx_proj (r : Fin 4096) (c : Fin 1024) : idx_main_v2 (idx_main_v3 (ix2 r c)) = ix1 c := by
  funext a; match a with | ⟨0, _⟩ => rfl

/-! ## The dense layers -/

/-- The first dense layer at (r, c) is the specification's. -/
theorem lin_v4 (x : FVec Ideal S4096x1024 .f32) (w : FVec Ideal S1024x1024 .f32) (b : FVec Ideal S1024 .f32)
    (r : Fin 4096) (c : Fin 1024) :
    val_main_v4 (F := Ideal) x w b (ix2 r c) = Cert.Spec.lin x w b r c := by
  rw [val_main_v4_apply, val_main_v1_apply, val_main_v3_apply, val_main_v2_apply]
  unfold Cert.Spec.lin
  refine congrArg₂ (· + ·) (Finset.sum_congr rfl fun k _ => ?_) (congrArg b (bidx_proj r c))
  rw [val_main_v0_apply]
  exact congrArg₂ (· * ·) (congrArg x (lidx_proj r c k)) (congrArg w (ridx_proj r c k))

/-- The second and third dense layers are the same operations on other arguments. -/
theorem v9_eq_v4 (x : FVec Ideal S4096x1024 .f32) (w : FVec Ideal S1024x1024 .f32) (b : FVec Ideal S1024 .f32) :
    val_main_v9 (F := Ideal) x w b = val_main_v4 (F := Ideal) x w b := rfl

theorem v14_eq_v4 (x : FVec Ideal S4096x1024 .f32) (w : FVec Ideal S1024x1024 .f32) (b : FVec Ideal S1024 .f32) :
    val_main_v14 (F := Ideal) x w b = val_main_v4 (F := Ideal) x w b := rfl

theorem lin_v9 (x : FVec Ideal S4096x1024 .f32) (w : FVec Ideal S1024x1024 .f32) (b : FVec Ideal S1024 .f32)
    (r : Fin 4096) (c : Fin 1024) :
    val_main_v9 (F := Ideal) x w b (ix2 r c) = Cert.Spec.lin x w b r c :=
  (congrFun (v9_eq_v4 x w b) (ix2 r c)).trans (lin_v4 x w b r c)

theorem lin_v14 (x : FVec Ideal S4096x1024 .f32) (w : FVec Ideal S1024x1024 .f32) (b : FVec Ideal S1024 .f32)
    (r : Fin 4096) (c : Fin 1024) :
    val_main_v14 (F := Ideal) x w b (ix2 r c) = Cert.Spec.lin x w b r c :=
  (congrFun (v14_eq_v4 x w b) (ix2 r c)).trans (lin_v4 x w b r c)

/-! ## The scaled query -/

/-- The scalar the query is divided by, wherever it is read: 32. -/
theorem v16_eq (i : S4096x1024.Idx) : val_main_v16 (F := Ideal) i = ((32 : ℝ) : EReal) := by
  rw [val_main_v16_apply, val_main_v15_apply, val_main_cst_apply, val_main_cst_0_apply]
  exact pow_1024_half

/-- The scaled query at (r, d) is the specification's. -/
theorem qproj_v17 (x : FVec Ideal S4096x1024 .f32) (w : FVec Ideal S1024x1024 .f32) (b : FVec Ideal S1024 .f32)
    (r : Fin 4096) (d : Fin 1024) :
    val_main_v17 (F := Ideal) x w b (ix2 r d) = Cert.Spec.qproj x w b r d := by
  rw [val_main_v17_apply, v16_eq, lin_v4]
  rfl

/-! ## The scores -/

/-- The left operand of the scores' product at (r, j) and d: (r, d). -/
theorem lidx_scores (r j : Fin 4096) (d : Fin 1024) : lidx_main_v19 (ix2 r j) d = ix2 r d := by
  funext a; match a with | ⟨0, _⟩ => rfl | ⟨1, _⟩ => rfl

/-- The right operand at (d, j), read through the transpose: the key projection at (j, d). -/
theorem ridx_scores (r j : Fin 4096) (d : Fin 1024) : idx_main_v18 (ridx_main_v19 (ix2 r j) d) = ix2 j d := by
  funext a; match a with | ⟨0, _⟩ => rfl | ⟨1, _⟩ => rfl

/-- The scores at (r, j) are the specification's scores of the scaled query and the key projection. -/
theorem scores_v19 (x : FVec Ideal S4096x1024 .f32) (wq : FVec Ideal S1024x1024 .f32) (bq : FVec Ideal S1024 .f32)
    (wk : FVec Ideal S1024x1024 .f32) (bk : FVec Ideal S1024 .f32) (r j : Fin 4096) :
    val_main_v19 (F := Ideal) x wq bq wk bk (ix2 r j)
      = Cert.Spec.scores (Cert.Spec.qproj x wq bq) (Cert.Spec.lin x wk bk) r j := by
  rw [val_main_v19_apply]
  unfold Cert.Spec.scores
  refine Finset.sum_congr rfl fun d _ => ?_
  rw [val_main_v18_apply, lidx_scores, ridx_scores, qproj_v17, lin_v9]

end Cert.RefSpec

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.RefSoftmax.lean ====
/-
  The reference's softmax of the scores, one row at a time.

  For row r of the 4096 x 4096 scores s the reference takes the largest entry (a fold of max from minus infinity,
  then once more the maximum with minus infinity, which changes nothing), subtracts it from every entry of the row,
  exponentiates, sums the row from zero, and divides every exponential by that sum. With l = the row r of s these are
  the row's maximum, its shifted exponentials ex l j, their total tot l, and the quotients ex l j / tot l.
-/
import proofs.«170261_j10977936409228_2_alg».proof.Proof.Gen.ReferenceIdeal.Read
import proofs.«170261_j10977936409228_2_alg».proof.Proof.LibSoftmaxRow
import proofs.«170261_j10977936409228_2_alg».proof.Proof.LibRowReduce

noncomputable section

open scoped BigOperators

namespace Cert.RefSpec

open Cert.ReferenceIdeal Cert.ReferenceIdeal.Gen Cert.ReferenceIdeal.Read Idealize.ShloMosaic Idealize.ShloMosaic.ValueIdx
open Cert.Softmax

variable (x0 : FVec Ideal S4096x1024 .f32) (x1 : FVec Ideal S1024x1024 .f32) (x2 : FVec Ideal S1024 .f32)
  (x3 : FVec Ideal S1024x1024 .f32) (x4 : FVec Ideal S1024 .f32)

/-- Row r of the reference's scores. -/
def srow (r : Fin 4096) : Fin 4096 → EReal := fun j => val_main_v19 (F := Ideal) x0 x1 x2 x3 x4 (ix2 r j)

/-! ## Where the composed index functions land -/

/-- A column of 4096 entries broadcast along the rows, at (r, j): its entry r. -/
theorem idx_col_max (r j : Fin 4096) : idx_main_v23 (idx_main_v24 (ix2 r j)) = ix1 r := by
  funext a; match a with | ⟨0, _⟩ => rfl

theorem idx_col_tot (r j : Fin 4096) : idx_main_v28 (idx_main_v29 (ix2 r j)) = ix1 r := by
  funext a; match a with | ⟨0, _⟩ => rfl

/-- The row sum's operand at row r and k: (r, k). -/
theorem idx_row_sum (r k : Fin 4096) : idx_main_v27 (ix1 r) k = ix2 r k := by
  funext a; match a with | ⟨0, _⟩ => rfl | ⟨1, _⟩ => rfl

/-! ## The stages -/

/-- The row maximum. -/
theorem max_v22 (r : Fin 4096) :
    val_main_v22 (F := Ideal) x0 x1 x2 x3 x4 (ix1 r) = rowMax (srow x0 x1 x2 x3 x4 r) := by
  rw [val_main_v22_apply, val_main_v21_apply, val_main_cst_2_apply]
  unfold val_main_v20 srow
  generalize val_main_v19 (F := Ideal) x0 x1 x2 x3 x4 = s
  rw [hostReduce_max_row reducesTo_S4096x4096_S4096_d1 (by decide) s _ h_S_ r, val_main_cst_1_apply]
  simp only [Ideal.maximumf_def, Ideal.ofBits_def, negInf_f32]
  exact max_bot_rowMax _

/-- The shifted exponential at (r, j). -/
theorem ex_v26 (r j : Fin 4096) :
    val_main_v26 (F := Ideal) x0 x1 x2 x3 x4 (ix2 r j) = ex (srow x0 x1 x2 x3 x4 r) j := by
  rw [val_main_v26_apply, val_main_v25_apply, val_main_v24_apply, val_main_v23_apply, idx_col_max, max_v22]
  rfl

/-- The row's total. -/
theorem tot_v27 (r : Fin 4096) :
    val_main_v27 (F := Ideal) x0 x1 x2 x3 x4 (ix1 r) = tot (srow x0 x1 x2 x3 x4 r) := by
  rw [val_main_v27_apply, val_main_cst_3_apply, Ideal.ofBits_def, Ideal.ofBits_zero_f32, zero_add]
  unfold tot
  refine Finset.sum_congr rfl fun k _ => ?_
  rw [idx_row_sum, ex_v26]

/-- The normalised exponential at (r, j). -/
theorem probs_v30 (r j : Fin 4096) :
    val_main_v30 (F := Ideal) x0 x1 x2 x3 x4 (ix2 r j)
      = Ideal.div (ex (srow x0 x1 x2 x3 x4 r) j) (tot (srow x0 x1 x2 x3 x4 r)) := by
  rw [val_main_v30_apply, val_main_v29_apply, val_main_v28_apply, idx_col_tot, tot_v27, ex_v26]
  rfl

end Cert.RefSpec

end
-- ==== Proof.RefIsSpec.lean ====
/-
  The reference computes the specification.

  Its last operation multiplies the normalised exponentials by the value projection: entry (r, c) is the sum over the
  4096 keys j of (ex_j / tot) of row r's scores times v (j, c). Row r's scores are the specification's scores of the
  scaled query against the key projection, and the three projections are the specification's dense layers, so the sum
  is the specification's attention entry, term by term. No entry needs to be finite: both sides are the same
  arrangement of the same operations.
-/
import proofs.«170261_j10977936409228_2_alg».proof.Proof.RefProj
import proofs.«170261_j10977936409228_2_alg».proof.Proof.RefSoftmax

noncomputable section

open scoped BigOperators

namespace Cert.RefSpec

open Cert.ReferenceIdeal Cert.ReferenceIdeal.Gen Cert.ReferenceIdeal.Read Idealize.ShloMosaic Idealize.ShloMosaic.ValueIdx
open Cert.Softmax

/-- The left operand of the last product at (r, c) and j: (r, j). -/
theorem lidx_out (r : Fin 4096) (c : Fin 1024) (j : Fin 4096) : lidx_main_v31 (ix2 r c) j = ix2 r j := by
  funext a; match a with | ⟨0, _⟩ => rfl | ⟨1, _⟩ => rfl

/-- The right operand: (j, c). -/
theorem ridx_out (r : Fin 4096) (c : Fin 1024) (j : Fin 4096) : ridx_main_v31 (ix2 r c) j = ix2 j c := by
  funext a; match a with | ⟨0, _⟩ => rfl | ⟨1, _⟩ => rfl

/-- Row r of the reference's scores is the specification's. -/
theorem srow_eq (x : FVec Ideal S4096x1024 .f32) (wq : FVec Ideal S1024x1024 .f32) (bq : FVec Ideal S1024 .f32)
    (wk : FVec Ideal S1024x1024 .f32) (bk : FVec Ideal S1024 .f32) (r : Fin 4096) :
    srow x wq bq wk bk r = Cert.Spec.scores (Cert.Spec.qproj x wq bq) (Cert.Spec.lin x wk bk) r :=
  funext fun j => scores_v19 x wq bq wk bk r j

/-- THE REFERENCE IS THE SPECIFICATION: the last stage of the reference, as a function of the seven arguments, is the
    attention of the three projections. -/
theorem result_eq (x : FVec Ideal S4096x1024 .f32) (wq : FVec Ideal S1024x1024 .f32) (bq : FVec Ideal S1024 .f32)
    (wk : FVec Ideal S1024x1024 .f32) (bk : FVec Ideal S1024 .f32)
    (wv : FVec Ideal S1024x1024 .f32) (bv : FVec Ideal S1024 .f32) :
    val_main_v31 (F := Ideal) x wq bq wk bk wv bv = Cert.Spec.out x wq bq wk bk wv bv := by
  funext i
  obtain ⟨r, c, rfl⟩ : ∃ (r : Fin 4096) (c : Fin 1024), i = ix2 r c := ⟨i 0, i 1, eq_ix2 i⟩
  rw [val_main_v31_apply, Cert.Spec.out_ix2]
  unfold Cert.Spec.attn
  refine Finset.sum_congr rfl fun j _ => ?_
  rw [lidx_out, ridx_out, probs_v30, lin_v14, srow_eq]

end Cert.RefSpec

end
-- ==== Proof.RefRun.lean ====
/-
  The reference's run, with its result named by the specification.

  Every weakly fair execution of the reference terminates; its result array then holds the composed term of its
  operations applied to the seven arguments as they were at the start, and that term is the specification's attention
  of the three dense layers. The seven arguments end unchanged; dropping the result gives the frame.
-/
import proofs.«170261_j10977936409228_2_alg».proof.Defs
import proofs.«170261_j10977936409228_2_alg».proof.Proof.Gen.Pre_finite_inputs
import proofs.«170261_j10977936409228_2_alg».proof.Proof.RefIsSpec

noncomputable section

namespace Cert.RefSpec

open Cert.ReferenceIdeal Idealize.ShloMosaic Idealize.ShloMosaic.TcCoe Idealize.SL.Sem

/-- The reference ends with the specification's function of its arguments in its result, the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v31)
        = Cert.Spec.out (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans ((Cert.ReferenceIdeal.Read.val_main_v31_eq (F := Ideal) m' c).trans (result_eq _ _ _ _ _ _ _)), (h c).2⟩)
    (Cert.ReferenceIdeal.Value.run (F := Ideal) m' ρ')

/-- The reference runs and leaves its arguments unchanged. -/
theorem frame : Cert.frame_ReferenceIdeal (hReferenceIdeal := Cert.ReferenceIdeal.Gen.facts)
    (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

end Cert.RefSpec

end
-- ==== Proof.KI.ArrAt0.lean ====
/- Region 0's result array after the run, and the blocks its body reads. The output window is written back at every
   point, and its four blocks of 1024 rows tile the 4096 x 3072 array; so the array ends holding, in row R and column
   col, the payload of the point R / 1024 at the local row R % 1024 and column col. The activations' block at point t
   is rows 1024 t .. 1024 t + 1023 of their array; the weights' and the bias row's blocks are their whole arrays. -/
import proofs.«170261_j10977936409228_2_alg».proof.Proof.KI.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The index maps -/

theorem hz0 : (![0, 0] : Fin 2 → Nat) = fun _ => 0 := funext fun a => by fin_cases a <;> rfl

/-- The printed index maps at the four points: the activations' and the result's block row is the point, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks the body reads -/

/-- The activations' block at point t is rows 1024 t .. 1024 t + 1023 of their array. -/
theorem iblk0_x (c : Dev nD) (t : Fin cfg0.N) (p : Fin 1024) (k : Fin 1024) :
    iblk0 V c 0 t (ix2 p k)
      = (V c main_v10 : S4096x1024.Idx → Elt F .bf16)
          (ix2 (⟨1024 * t.val + p.val, by have ht : t.val < 4 := t.isLt; have := p.isLt; omega⟩ : Fin 4096) k) := by
  show (V c main_v10 : S4096x1024.Idx → Elt F .bf16) (((cfg0.win 0).blk t).view.emb (ix2 p k)) = _
  refine congrArg (V c main_v10 : S4096x1024.Idx → Elt F .bf16) (funext fun a => Fin.ext ?_)
  obtain ⟨e0, e1, -⟩ := idx_facts0 t
  match a with
  | ⟨0, _⟩ => show win0_0.index t (0 : Fin 2) * 1024 + 1 * p.val = 1024 * t.val + p.val; omega
  | ⟨1, _⟩ => show win0_0.index t (1 : Fin 2) * 1024 + 1 * k.val = k.val; omega

/-- The weights' block at every point is their whole array. -/
theorem iblk0_w (c : Dev nD) (t : Fin cfg0.N) (i : S1024x3072.Idx) :
    iblk0 V c 1 t i = (V c main_v7 : S1024x3072.Idx → Elt F .bf16) i := by
  show (V c main_v7 : S1024x3072.Idx → Elt F .bf16) (((cfg0.win 1).blk t).view.emb i) = _
  refine congrArg (V c main_v7 : S1024x3072.Idx → Elt F .bf16) (funext fun a => Fin.ext ?_)
  obtain ⟨-, -, e2, e3, -⟩ := idx_facts0 t
  match a with
  | ⟨0, _⟩ => show win0_1.index t (0 : Fin 2) * 1024 + 1 * (i 0).val = (i 0).val; omega
  | ⟨1, _⟩ => show win0_1.index t (1 : Fin 2) * 3072 + 1 * (i 1).val = (i 1).val; omega

/-- The bias row's block at every point is the whole row. -/
theorem iblk0_b (c : Dev nD) (t : Fin cfg0.N) (i : S1x3072.Idx) :
    iblk0 V c 2 t i = (V c main_v9 : S1x3072.Idx → Elt F .f32) i := by
  show (V c main_v9 : S1x3072.Idx → Elt F .f32) (((cfg0.win 2).blk t).view.emb i) = _
  refine congrArg (V c main_v9 : S1x3072.Idx → Elt F .f32) (funext fun a => Fin.ext ?_)
  obtain ⟨-, -, -, -, e4, e5, -⟩ := idx_facts0 t
  match a with
  | ⟨0, _⟩ => show win0_2.index t (0 : Fin 2) * 1 + 1 * (i 0).val = (i 0).val; omega
  | ⟨1, _⟩ => show win0_2.index t (1 : Fin 2) * 3072 + 1 * (i 1).val = (i 1).val; omega

/-! ## The result array -/

/-- The point whose block holds an index of the result array: its row divided by 1024. -/
def ptOf (i : S4096x3072.Idx) : Fin cfg0.N :=
  ⟨(i 0).val / 1024, by have h : (i 0).val < 4096 := (i 0).isLt; show (i 0).val / 1024 < 4; omega⟩

/-- The index within that block: the row modulo 1024, the same column. -/
def locOf (i : S4096x3072.Idx) : S1024x3072.Idx :=
  ix2 (⟨(i 0).val % 1024, Nat.mod_lt _ (by decide)⟩ : Fin 1024) (⟨(i 1).val, (i 1).isLt⟩ : Fin 3072)

/-- What the result array ends holding: at each index, the payload of the point whose block holds it. -/
def G0 (c : Dev nD) : S4096x3072.Idx → Elt F .bf16 := fun i =>
  k0_pay1 (iblk0 V c 0 (ptOf i)) (iblk0 V c 1 (ptOf i)) (iblk0 V c 2 (ptOf i)) (locOf i)

/-- What point t writes back is block t of that function. -/
theorem flushed0_3_eq (c : Dev nD) (t : Fin cfg0.N) :
    (dat0 V c).flushed 3 t = ((cfg0.win 3).blk t).view.read (Elt F) (G0 V c) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1024x3072) hz0, View.ld_unit_zero (S := S1x3072) hz0]
  obtain ⟨-, -, -, -, -, -, e6, e7⟩ := idx_facts0 t
  funext j
  show k0_pay1 (iblk0 V c 0 t) (iblk0 V c 1 t) (iblk0 V c 2 t) j = G0 V c (((cfg0.win 3).blk t).view.emb j)
  have hp : ptOf (((cfg0.win 3).blk t).view.emb j) = t := Fin.ext (by
    show (win0_3.index t (0 : Fin 2) * 1024 + 1 * (j 0).val) / 1024 = t.val
    have hj : (j 0).val < 1024 := (j 0).isLt
    omega)
  have hl : locOf (((cfg0.win 3).blk t).view.emb j) = j := funext fun a => Fin.ext (by
    match a with
    | ⟨0, _⟩ =>
      show (win0_3.index t (0 : Fin 2) * 1024 + 1 * (j 0).val) % 1024 = (j 0).val
      have hj : (j 0).val < 1024 := (j 0).isLt
      omega
    | ⟨1, _⟩ =>
      show win0_3.index t (1 : Fin 2) * 3072 + 1 * (j 1).val = (j 1).val
      omega)
  unfold G0
  rw [hp, hl]

/-- Every index of the result array is in the block of the point its row names, and every point writes back. -/
theorem covered0_3 (i : S4096x3072.Idx) :
    ∃ t : Fin cfg0.N, (cfg0.win 3).flush t = true ∧ i ∈ ((cfg0.win 3).blk t).view.set := by
  refine ⟨ptOf i, flush0_3 _, ?_⟩
  show i ∈ ((View.whole main_v11).slice (win0_3.rect (ptOf i))).set
  rw [View.set_slice_whole, Rect.mem_set_unit]
  obtain ⟨-, -, -, -, -, -, e6, e7⟩ := idx_facts0 (ptOf i)
  have h0 : (i 0).val < 4096 := (i 0).isLt
  have h1 : (i 1).val < 3072 := (i 1).isLt
  have hp : (ptOf i).val = (i 0).val / 1024 := rfl
  intro a
  match a with
  | ⟨0, _⟩ =>
    show win0_3.index (ptOf i) (0 : Fin 2) * 1024 ≤ (i 0).val ∧ (i 0).val < win0_3.index (ptOf i) (0 : Fin 2) * 1024 + 1024
    omega
  | ⟨1, _⟩ =>
    show win0_3.index (ptOf i) (1 : Fin 2) * 3072 ≤ (i 1).val ∧ (i 1).val < win0_3.index (ptOf i) (1 : Fin 2) * 3072 + 3072
    omega

/-- The result array after the run. -/
theorem arrAt0_3 (c : Dev nD) : (dat0 V c).arrAt 3 cfg0.N = G0 V c :=
  (dat0 V c).arrAt_eq_of_cover 3 (G0 V c) (fun t _ => flushed0_3_eq V c t) covered0_3

/-- The result array at row R and column col: the payload of point R / 1024 at local row R % 1024. -/
theorem arrAt0_eq (c : Dev nD) (R : Fin 4096) (col : Fin 3072) :
    ((dat0 V c).arrAt 3 cfg0.N : S4096x3072.Idx → Elt F .bf16) (ix2 R col)
      = k0_pay1 (F := F)
          (iblk0 V c 0 (⟨R.val / 1024, by have h := R.isLt; show R.val / 1024 < 4; omega⟩ : Fin cfg0.N))
          (iblk0 V c 1 (⟨R.val / 1024, by have h := R.isLt; show R.val / 1024 < 4; omega⟩ : Fin cfg0.N))
          (iblk0 V c 2 (⟨R.val / 1024, by have h := R.isLt; show R.val / 1024 < 4; omega⟩ : Fin cfg0.N))
          (ix2 (⟨R.val % 1024, Nat.mod_lt _ (by decide)⟩ : Fin 1024) col) := by
  rw [arrAt0_3]
  rfl

end Cert.KernelIdeal.Hand

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.DenseAt.lean ====
/-
  The dense layer's block at a row and a column, on the extended reals.

  One block of the dense layer multiplies a 1024 x 1024 block of the input by the whole 1024 x 3072 weight array into
  a zero accumulator, adds the one bias row broadcast down the 1024 rows, and narrows the format. On the extended
  reals the format changes are the identity, so the entry at (p, col) is
      sum over k of x0 (p, k) * x1 (k, col)  +  x2 (0, col).
  The product's dimension numbers contract the left operand's second axis with the right operand's first and batch
  nothing; the four coordinate facts that say so are read off the definition of the operand indices.
-/
import proofs.«170261_j10977936409228_2_alg».proof.Proof.Gen.KernelIdeal.Skeleton
import proofs.«170261_j10977936409228_2_alg».proof.Proof.LibDotIx2
import Idealize.ShloMosaic.Lib.ValueLayout
import Idealize.ShloMosaic.Lib.Pipeline.Value

noncomputable section

open scoped BigOperators

namespace Cert.KVal

open Idealize.ShloMosaic Idealize.ShloMosaic.ValueIdx Cert.KernelIdeal Cert.KernelIdeal.Facts₀

/-- The dense layer's product is a plain 1024 x 1024 by 1024 x 3072 product. -/
theorem dense_plainDot : PlainDot (M := 1024) (K := 1024) (N := 3072) dot_S1024x1024_S1024x3072_S1024x3072_1_0_0_1_n_n where
  rank := rfl
  size := rfl
  l0 := fun j q => by
    unfold DotDims.lhsIdx
    rw [dif_neg (show ¬(0 : Fin S1024x1024.rank) ∈ dot_S1024x1024_S1024x3072_S1024x3072_1_0_0_1_n_n.lhsBatch by decide),
      dif_pos (show (0 : Fin S1024x1024.rank) ∈ dot_S1024x1024_S1024x3072_S1024x3072_1_0_0_1_n_n.lhsNonContracting by decide)]
    rfl
  l1 := fun j q => dot_S1024x1024_S1024x3072_S1024x3072_1_0_0_1_n_n.lhsIdx_val_of_single rfl j q
  r0 := fun j q => dot_S1024x1024_S1024x3072_S1024x3072_1_0_0_1_n_n.rhsIdx_val_of_single rfl j q
  r1 := fun j q => by
    unfold DotDims.rhsIdx
    rw [dif_neg (show ¬(1 : Fin S1024x3072.rank) ∈ dot_S1024x1024_S1024x3072_S1024x3072_1_0_0_1_n_n.rhsBatch by decide),
      dif_pos (show (1 : Fin S1024x3072.rank) ∈ dot_S1024x1024_S1024x3072_S1024x3072_1_0_0_1_n_n.rhsNonContracting by decide)]
    rfl

/-- The dense layer's block at (p, col): the row p of the input block against the column col of the weights, plus
    the bias row's entry col. -/
theorem k0_pay1_apply (x0 : Vec Ideal S1024x1024 .bf16) (x1 : Vec Ideal S1024x3072 .bf16) (x2 : Vec Ideal S1x3072 .f32)
    (p : Fin 1024) (col : Fin 3072) :
    Cert.KernelIdeal.Gen.k0_pay1 (F := Ideal) x0 x1 x2 (ix2 p col)
      = (∑ k : Fin 1024, (x0 (ix2 p k) : EReal) * (x1 (ix2 k col) : EReal)) + (x2 (ix2 0 col) : EReal) := by
  unfold Cert.KernelIdeal.Gen.k0_pay1
  simp only [shapeCast_self]
  have e1 := matmul_zero_ix2_any (φ₁ := .bf16) (φ₂ := .bf16) dense_plainDot none x0 x1 p col
  have e2 := broadcastTo_1b_ab_apply x2 broadcasts_S1x3072_S1024x3072 p col
  exact congrArg₂ (· + ·) e1 e2

end Cert.KVal

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.HostPack.lean ====
/-
  The two arrays the host packs for the dense layer, as functions of the weights and biases, read at an index.

  The weight array: the three 1024 x 1024 matrices stacked by rows into 3072 x 1024, the first with every entry
  divided by the square root of the constant 1024, the stack transposed to 1024 x 3072 and its format narrowed (the
  identity on the extended reals). Entry (k, d) is the scaled query weight (d, k); entry (k, 1024 + d) the key weight
  (d, k); entry (k, 2048 + d) the value weight (d, k).

  The bias row: the three biases laid end to end, the first divided by the same square root, recast as one row.
  Entry (0, d) is the scaled query bias d; entry (0, 1024 + d) the key bias d; entry (0, 2048 + d) the value bias d.
-/
import proofs.«170261_j10977936409228_2_alg».proof.Proof.Gen.KernelIdeal
import proofs.«170261_j10977936409228_2_alg».proof.Proof.LibAxisLayout
import proofs.«170261_j10977936409228_2_alg».proof.Proof.LibBroadcastInDim
import Idealize.ShloMosaic.Lib.ValueLayout
import Idealize.ShloMosaic.Lib.Pipeline.Value

noncomputable section

open scoped BigOperators

namespace Cert.KVal

open Idealize.ShloMosaic Idealize.ShloMosaic.ValueIdx Idealize.ShloMosaic.AxisLayout
open Cert.KernelIdeal Cert.KernelIdeal.Facts₀ Cert.KernelIdeal.Facts

/-- The square root of the constant 1024, as the host computes it. -/
abbrev temp : EReal := Ideal.sqrt (Ideal.ofBits .f32 0x44800000#32)

/-- The three matrices that are stacked: the scaled query weights, the key weights, the value weights. -/
abbrev wPieces (wq wk wv : FVec Ideal S1024x1024 .f32) : List ((s : Shape) × (s.Idx → Ideal .f32)) :=
  [⟨S1024x1024, Host.divf wq (broadcastInDim S1024x1024 ![] bcast_S_S1024x1024 (Host.sqrt (constant (F := Ideal) S_ .f32 0x44800000#32)))⟩,
   ⟨S1024x1024, wk⟩, ⟨S1024x1024, wv⟩]

/-- The three vectors that are joined: the scaled query bias, the key bias, the value bias. -/
abbrev bPieces (bq bk bv : FVec Ideal S1024 .f32) : List ((s : Shape) × (s.Idx → Ideal .f32)) :=
  [⟨S1024, Host.divf bq (broadcastInDim S1024 ![] bcast_S_S1024 (Host.sqrt (constant (F := Ideal) S_ .f32 0x44800000#32)))⟩,
   ⟨S1024, bk⟩, ⟨S1024, bv⟩]

/-- The packed weight array as a function of the three weight matrices. -/
def packW (wq wk wv : FVec Ideal S1024x1024 .f32) : FVec Ideal S1024x3072 .bf16 :=
  truncf .bf16 (transpose S1024x3072 [1, 0]
    (concatenate S3072x1024 0 (wPieces wq wk wv) concatenates_S1024x1024_S1024x1024_S1024x1024_S3072x1024_d0)
    transposes_S3072x1024_S1024x3072_1_0) bitsLt_bf16_f32

/-- The packed bias row as a function of the three biases. -/
def packB (bq bk bv : FVec Ideal S1024 .f32) : FVec Ideal S1x3072 .f32 :=
  shapeCast S1x3072 (concatenate S3072 0 (bPieces bq bk bv) concatenates_S1024_S1024_S1024_S3072_d0) shapeCasts_S3072_S1x3072

/-- The packed weight array at (k, col) is the stacked array at (col, k). -/
theorem packW_stack (wq wk wv : FVec Ideal S1024x1024 .f32) (k : Fin 1024) (col : Fin 3072) :
    packW wq wk wv (ix2 k col)
      = concatenate S3072x1024 0 (wPieces wq wk wv) concatenates_S1024x1024_S1024x1024_S1024x1024_S3072x1024_d0 (ix2 col k) := by
  unfold packW
  refine (truncf_apply (ψ := .bf16) (φ := .f32) _ bitsLt_bf16_f32 _).trans ?_
  exact transpose_apply [1, 0] _ transposes_S3072x1024_S1024x3072_1_0 (ix2 k col) (ix2 col k) (fun b => by
    match b with
    | ⟨0, _⟩ => rfl
    | ⟨1, _⟩ => rfl)

/-- Columns 0 .. 1023: the query weights, transposed and divided by the square root. -/
theorem packW_q (wq wk wv : FVec Ideal S1024x1024 .f32) (k d : Fin 1024) :
    packW wq wk wv (ix2 k (⟨d.val, by have := d.isLt; omega⟩ : Fin 3072)) = Ideal.div (wq (ix2 d k)) temp := by
  refine (packW_stack wq wk wv k _).trans ?_
  refine (concat_rows_piece (wPieces wq wk wv) concatenates_S1024x1024_S1024x1024_S1024x1024_S3072x1024_d0 0 (by show (0 : ℕ) < 3; omega)
    (Host.divf wq (broadcastInDim S1024x1024 ![] bcast_S_S1024x1024 (Host.sqrt (constant (F := Ideal) S_ .f32 0x44800000#32))))
    rfl 0 rfl d k _ (Nat.zero_add _)).trans ?_
  show Ideal.div (wq (ix2 d k)) (broadcastInDim S1024x1024 ![] bcast_S_S1024x1024 (Host.sqrt (constant (F := Ideal) S_ .f32 0x44800000#32)) (ix2 d k)) = _
  rw [broadcastInDim_scalar_apply]
  rfl

/-- Columns 1024 .. 2047: the key weights, transposed. -/
theorem packW_k (wq wk wv : FVec Ideal S1024x1024 .f32) (k d : Fin 1024) :
    packW wq wk wv (ix2 k (⟨1024 + d.val, by have := d.isLt; omega⟩ : Fin 3072)) = wk (ix2 d k) := by
  refine (packW_stack wq wk wv k _).trans ?_
  exact concat_rows_piece (wPieces wq wk wv) concatenates_S1024x1024_S1024x1024_S1024x1024_S3072x1024_d0 1 (by show (1 : ℕ) < 3; omega) wk rfl 1024 rfl d k _ rfl

/-- Columns 2048 .. 3071: the value weights, transposed. -/
theorem packW_v (wq wk wv : FVec Ideal S1024x1024 .f32) (k d : Fin 1024) :
    packW wq wk wv (ix2 k (⟨2048 + d.val, by have := d.isLt; omega⟩ : Fin 3072)) = wv (ix2 d k) := by
  refine (packW_stack wq wk wv k _).trans ?_
  exact concat_rows_piece (wPieces wq wk wv) concatenates_S1024x1024_S1024x1024_S1024x1024_S3072x1024_d0 2 (by show (2 : ℕ) < 3; omega) wv rfl 2048 rfl d k _ rfl

/-- The packed bias row at (0, col) is the joined vector at col. -/
theorem packB_join (bq bk bv : FVec Ideal S1024 .f32) (col : Fin 3072) :
    packB bq bk bv (ix2 (0 : Fin 1) col)
      = concatenate S3072 0 (bPieces bq bk bv) concatenates_S1024_S1024_S1024_S3072_d0 (ix1 col) := by
  unfold packB
  exact shapeCast_a_1a_apply _ shapeCasts_S3072_S1x3072 0 col

/-- A vector of three pieces of length 1024 read in piece number n, which starts at position 1024 n. -/
theorem join3_piece (xs : List ((s : Shape) × (s.Idx → Ideal .f32))) (h : Shape.Concatenates (xs.map (·.1)) S3072 0)
    (n : ℕ) (hn : n < xs.length) (y : FVec Ideal S1024 .f32) (hy : xs[n] = ⟨S1024, y⟩) (pre : ℕ)
    (hpre : (((xs.take n).map (·.1)).map fun s : Shape =>
      if h : s.rank = S3072.rank then s.size ((0 : Fin S3072.rank).cast h.symm) else 0).sum = pre)
    (d : Fin 1024) (col : Fin 3072) (hcol : pre + d.val = col.val) :
    concatenate S3072 0 xs h (ix1 col) = y (ix1 d) :=
  concatenate_apply_piece 0 xs h (ix1 col) n hn S1024 y hy rfl pre hpre (ix1 d)
    (fun b hb => by
      match b with
      | ⟨0, _⟩ => exact absurd rfl hb) hcol

/-- Positions 0 .. 1023: the query bias divided by the square root. -/
theorem packB_q (bq bk bv : FVec Ideal S1024 .f32) (d : Fin 1024) :
    packB bq bk bv (ix2 (0 : Fin 1) (⟨d.val, by have := d.isLt; omega⟩ : Fin 3072)) = Ideal.div (bq (ix1 d)) temp := by
  refine (packB_join bq bk bv _).trans ?_
  refine (join3_piece (bPieces bq bk bv) concatenates_S1024_S1024_S1024_S3072_d0 0 (by show (0 : ℕ) < 3; omega)
    (Host.divf bq (broadcastInDim S1024 ![] bcast_S_S1024 (Host.sqrt (constant (F := Ideal) S_ .f32 0x44800000#32)))) rfl 0 rfl d _ (Nat.zero_add _)).trans ?_
  show Ideal.div (bq (ix1 d)) (broadcastInDim S1024 ![] bcast_S_S1024 (Host.sqrt (constant (F := Ideal) S_ .f32 0x44800000#32)) (ix1 d)) = _
  rw [broadcastInDim_scalar_apply]
  rfl

/-- Positions 1024 .. 2047: the key bias. -/
theorem packB_k (bq bk bv : FVec Ideal S1024 .f32) (d : Fin 1024) :
    packB bq bk bv (ix2 (0 : Fin 1) (⟨1024 + d.val, by have := d.isLt; omega⟩ : Fin 3072)) = bk (ix1 d) := by
  refine (packB_join bq bk bv _).trans ?_
  exact join3_piece (bPieces bq bk bv) concatenates_S1024_S1024_S1024_S3072_d0 1 (by show (1 : ℕ) < 3; omega) bk rfl 1024 rfl d _ rfl

/-- Positions 2048 .. 3071: the value bias. -/
theorem packB_v (bq bk bv : FVec Ideal S1024 .f32) (d : Fin 1024) :
    packB bq bk bv (ix2 (0 : Fin 1) (⟨2048 + d.val, by have := d.isLt; omega⟩ : Fin 3072)) = bv (ix1 d) := by
  refine (packB_join bq bk bv _).trans ?_
  exact join3_piece (bPieces bq bk bv) concatenates_S1024_S1024_S1024_S3072_d0 2 (by show (2 : ℕ) < 3; omega) bv rfl 2048 rfl d _ rfl

end Cert.KVal

end
-- ==== Proof.HostPrefix.lean ====
/-
  What the host operations before the two kernels leave in the arrays the kernels read, on the extended reals.

  Before the dense layer runs the host forms, from the input x, the three weight matrices and the three biases:
    * the input with its format narrowed, which on the extended reals is the input itself;
    * one 1024 x 3072 weight array whose column d is row d of the query weights divided by the square root of the
      constant 1024, whose column 1024 + d is row d of the key weights, and whose column 2048 + d is row d of the
      value weights;
    * one 1 x 3072 bias row: the query bias divided by the same square root, then the key bias, then the value bias.
  Each array is the composition of the operations that wrote it, as a function of the arguments; the entries of that
  function follow from its layout operations one at a time: the transposition, the stacking, the quotient.
-/
import proofs.«170261_j10977936409228_2_alg».proof.Proof.Gen.KernelIdeal.Launch
import proofs.«170261_j10977936409228_2_alg».proof.Proof.HostPack
import Idealize.ShloMosaic.Lib.StableHlo.Run

noncomputable section

open scoped BigOperators

namespace Cert.KVal

open Idealize.ShloMosaic Idealize.ShloMosaic.TcCoe Idealize.ShloMosaic.ValueIdx Idealize.SL.Sem
open Cert.KernelIdeal Cert.KernelIdeal.Facts₀ Cert.KernelIdeal.Facts

/-- Core c's TensorCore arrays after the host operations that precede the two kernels. -/
abbrev W1 (m : (ℓ : Loc Cert.KernelIdeal.nD Cert.KernelIdeal.τ Cert.KernelIdeal.sig) → Buf (Elt Ideal) ℓ) (c : Dev Cert.KernelIdeal.nD) :=
  StableHlo.after (Cert.KernelIdeal.Gen.hostOps0 (F := Ideal)) (fun b => m (c, b))

/-- An operation of three literal operands leaves, at its result, its function of the three operands' contents. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Unfold a line of host operations at one array: each operation's result at its own array is its function's value,
    at any other array what was there before. -/
macro "host_results" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.reshape_result]
               | rw [Cert.KVal.nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.reshape_result_ne]; rotate_left; decide)
               | (rw [Idealize.ShloMosaic.StableHlo.nary_result_ne]; rotate_left; decide))))

variable (m : (ℓ : Loc Cert.KernelIdeal.nD Cert.KernelIdeal.τ Cert.KernelIdeal.sig) → Buf (Elt Ideal) ℓ) (c : Dev Cert.KernelIdeal.nD)

/-- The narrowed input is the input. -/
theorem hp_v10 : (W1 m c (Proc.devRef .tc main_v10) : S4096x1024.Idx → EReal) = m ((c : Thread nD τ).loc main_arg0) := by
  dsimp only [W1, Cert.KernelIdeal.Gen.hostOps0]
  host_results
  rfl

/-- The weight array the dense layer reads is the packing of the three weight arguments. -/
theorem e_v7 : (W1 m c (Proc.devRef .tc main_v7) : S1024x3072.Idx → EReal)
    = packW (m ((c : Thread nD τ).loc main_arg1)) (m ((c : Thread nD τ).loc main_arg3)) (m ((c : Thread nD τ).loc main_arg5)) := by
  dsimp only [W1, Cert.KernelIdeal.Gen.hostOps0]
  host_results
  rfl

/-- The bias row the dense layer reads is the packing of the three bias arguments. -/
theorem e_v9 : (W1 m c (Proc.devRef .tc main_v9) : S1x3072.Idx → EReal)
    = packB (m ((c : Thread nD τ).loc main_arg2)) (m ((c : Thread nD τ).loc main_arg4)) (m ((c : Thread nD τ).loc main_arg6)) := by
  dsimp only [W1, Cert.KernelIdeal.Gen.hostOps0]
  host_results
  rfl

/-- Columns 0 .. 1023 of the weight array: the query weights, transposed and divided by the square root. -/
theorem hp_v7 (k d : Fin 1024) :
    (W1 m c (Proc.devRef .tc main_v7) : S1024x3072.Idx → EReal) (ix2 k (⟨d.val, by have := d.isLt; omega⟩ : Fin 3072))
      = Ideal.div (m ((c : Thread nD τ).loc main_arg1) (ix2 d k)) (Ideal.sqrt (Ideal.ofBits .f32 0x44800000#32)) :=
  (congrFun (e_v7 m c) _).trans (packW_q _ _ _ k d)

/-- Columns 1024 .. 2047: the key weights, transposed. -/
theorem hp_v7_k (k d : Fin 1024) :
    (W1 m c (Proc.devRef .tc main_v7) : S1024x3072.Idx → EReal) (ix2 k (⟨1024 + d.val, by have := d.isLt; omega⟩ : Fin 3072))
      = m ((c : Thread nD τ).loc main_arg3) (ix2 d k) :=
  (congrFun (e_v7 m c) _).trans (packW_k _ _ _ k d)

/-- Columns 2048 .. 3071: the value weights, transposed. -/
theorem hp_v7_v (k d : Fin 1024) :
    (W1 m c (Proc.devRef .tc main_v7) : S1024x3072.Idx → EReal) (ix2 k (⟨2048 + d.val, by have := d.isLt; omega⟩ : Fin 3072))
      = m ((c : Thread nD τ).loc main_arg5) (ix2 d k) :=
  (congrFun (e_v7 m c) _).trans (packW_v _ _ _ k d)

/-- Positions 0 .. 1023 of the bias row: the query bias divided by the square root. -/
theorem hp_v9 (d : Fin 1024) :
    (W1 m c (Proc.devRef .tc main_v9) : S1x3072.Idx → EReal) (ix2 (0 : Fin 1) (⟨d.val, by have := d.isLt; omega⟩ : Fin 3072))
      = Ideal.div (m ((c : Thread nD τ).loc main_arg2) (ix1 d)) (Ideal.sqrt (Ideal.ofBits .f32 0x44800000#32)) :=
  (congrFun (e_v9 m c) _).trans (packB_q _ _ _ d)

/-- Positions 1024 .. 2047: the key bias. -/
theorem hp_v9_k (d : Fin 1024) :
    (W1 m c (Proc.devRef .tc main_v9) : S1x3072.Idx → EReal) (ix2 (0 : Fin 1) (⟨1024 + d.val, by have := d.isLt; omega⟩ : Fin 3072))
      = m ((c : Thread nD τ).loc main_arg4) (ix1 d) :=
  (congrFun (e_v9 m c) _).trans (packB_k _ _ _ d)

/-- Positions 2048 .. 3071: the value bias. -/
theorem hp_v9_v (d : Fin 1024) :
    (W1 m c (Proc.devRef .tc main_v9) : S1x3072.Idx → EReal) (ix2 (0 : Fin 1) (⟨2048 + d.val, by have := d.isLt; omega⟩ : Fin 3072))
      = m ((c : Thread nD τ).loc main_arg6) (ix1 d) :=
  (congrFun (e_v9 m c) _).trans (packB_v _ _ _ d)

end Cert.KVal

end
-- ==== Proof.Finite.lean ====
/-
  From the precondition to real entries.

  The precondition says that a flag computed from the seven argument arrays is 1. The flag is the conjunction, over
  the seven arrays, of "every entry has absolute value below plus infinity". A conjunction of one-bit words is 1 only
  if each is; a reduction by "and" over all entries is 1 only if every entry's bit is 1; and an extended real whose
  absolute value is below plus infinity is neither infinity, hence is a real number. So every entry of every argument
  is real.
-/
import proofs.«170261_j10977936409228_2_alg».proof.Defs
import proofs.«170261_j10977936409228_2_alg».proof.Proof.Gen.Pre_finite_inputs
import proofs.«170261_j10977936409228_2_alg».proof.Proof.LibRealEntries
import proofs.«170261_j10977936409228_2_alg».proof.Proof.LibBroadcastInDim
import Idealize.ShloMosaic.Lib.ReduceAll
import Idealize.ShloMosaic.Lib.ValueIdx

noncomputable section

namespace Cert.KVal

open Idealize.ShloMosaic Idealize.ShloMosaic.TcCoe Idealize.ShloMosaic.ValueIdx Idealize.SL.Sem Cert.Algebra

/-- The shape with no axes has one index. -/
instance : Subsingleton Cert.Pre_finite_inputs.S_.Idx := ⟨fun a b => funext fun d => d.elim0⟩

/-- The word 0x7F800000 is plus infinity. -/
theorem inf_bits : Ideal.ofBits .f32 0x7F800000#32 = (⊤ : EReal) := by
  simp [Ideal.ofBits, Ideal.ieee]

/-- An extended real whose absolute value compares below plus infinity is a real number. -/
theorem isReal_of_flag (x : EReal) (h : Ideal.cmp .olt (max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array whose flag array is 1 at an index has a real entry there. -/
theorem real_of_flag {s : Shape} (x : FVec Ideal s .f32) (bc : Cert.Pre_finite_inputs.S_.BroadcastsInDim s ![]) (i : s.Idx)
    (h : cmpf .olt (Host.absf x) (broadcastInDim s ![] bc (constant (F := Ideal) Cert.Pre_finite_inputs.S_ .f32 0x7F800000#32)) i = 1#1) :
    IsReal (x i) := by
  refine isReal_of_flag (x i) ?_
  rw [cmpf_apply, broadcastInDim_scalar_apply] at h
  exact h

open Cert.KernelIdeal in
/-- Under the precondition every entry of each of the seven arguments is real. -/
theorem finite_args (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg3) i))
      ∧ (∀ i, IsReal (m ((c : Thread nD τ).loc main_arg4) i)) ∧ (∀ i, IsReal (m ((c : Thread nD τ).loc main_arg5) i))
      ∧ (∀ i, IsReal (m ((c : Thread nD τ).loc main_arg6) i)) := by
  have h := congrFun (hpre c) ValueIdx.ix0
  dsimp only [Cert.Pre_finite_inputs.fn, Cert.Pre_finite_inputs.fn_part1] at h
  obtain ⟨h28, h32⟩ := IntOp.andi_eq_one.1 h
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => real_of_flag _ _ i (Host.reduce_andi_all _ _ _ _ ValueIdx.ix0 h3 i),
    fun i => real_of_flag _ _ i (Host.reduce_andi_all _ _ _ _ ValueIdx.ix0 h7 i),
    fun i => real_of_flag _ _ i (Host.reduce_andi_all _ _ _ _ ValueIdx.ix0 h12 i),
    fun i => real_of_flag _ _ i (Host.reduce_andi_all _ _ _ _ ValueIdx.ix0 h17 i),
    fun i => real_of_flag _ _ i (Host.reduce_andi_all _ _ _ _ ValueIdx.ix0 h22 i),
    fun i => real_of_flag _ _ i (Host.reduce_andi_all _ _ _ _ ValueIdx.ix0 h27 i),
    fun i => real_of_flag _ _ i (Host.reduce_andi_all _ _ _ _ ValueIdx.ix0 h32 i)⟩

end Cert.KVal

end
-- ==== Proof.ScaleLaw.lean ====
/-
  Scaling the weights is scaling the layer, for real entries.

  For real x, w, b the dense layer with every weight and every bias entry divided by 32,
      sum over k of x (r, k) * (w (d, k) / 32) + b d / 32,
  equals the dense layer divided by 32. This is distributivity of the product over the sum, which holds on the real
  numbers but not on the extended reals (an infinite term would make the two sides different), so the entries are
  required to be real. The dense layer of real entries is real, and so is its quotient by 32.
-/
import proofs.«170261_j10977936409228_2_alg».proof.Proof.LibRealEntries
import proofs.«170261_j10977936409228_2_alg».proof.Proof.Spec

noncomputable section

open scoped BigOperators

namespace Cert.KVal

open Idealize.ShloMosaic Idealize.ShloMosaic.ValueIdx Cert.Algebra

/-- The dense layer of real entries is real. -/
theorem lin_real (x : (⟨2, ![4096, 1024]⟩ : Shape).Idx → EReal) (w : (⟨2, ![1024, 1024]⟩ : Shape).Idx → EReal)
    (b : (⟨1, ![1024]⟩ : Shape).Idx → EReal) (hx : ∀ i, IsReal (x i)) (hw : ∀ i, IsReal (w i)) (hb : ∀ i, IsReal (b i))
    (r : Fin 4096) (c : Fin 1024) : IsReal (Cert.Spec.lin x w b r c) := by
  unfold Cert.Spec.lin
  exact (IsReal.sum _ _ fun k _ => (hx _).mul (hw _)).add (hb _)

/-- The dense layer of real entries divided by 32 is real. -/
theorem qproj_real (x : (⟨2, ![4096, 1024]⟩ : Shape).Idx → EReal) (w : (⟨2, ![1024, 1024]⟩ : Shape).Idx → EReal)
    (b : (⟨1, ![1024]⟩ : Shape).Idx → EReal) (hx : ∀ i, IsReal (x i)) (hw : ∀ i, IsReal (w i)) (hb : ∀ i, IsReal (b i))
    (r : Fin 4096) (d : Fin 1024) : IsReal (Cert.Spec.qproj x w b r d) := by
  unfold Cert.Spec.qproj
  exact (lin_real x w b hx hw hb r d).div_real (by norm_num)

/-- The layer against weights and bias divided by 32 is the layer divided by 32, for real entries. -/
theorem qproj_eq (x : (⟨2, ![4096, 1024]⟩ : Shape).Idx → EReal) (w : (⟨2, ![1024, 1024]⟩ : Shape).Idx → EReal)
    (b : (⟨1, ![1024]⟩ : Shape).Idx → EReal) (hx : ∀ i, IsReal (x i)) (hw : ∀ i, IsReal (w i)) (hb : ∀ i, IsReal (b i))
    (r : Fin 4096) (d : Fin 1024) :
    (∑ k : Fin 1024, x (ix2 r k) * Ideal.div (w (ix2 d k)) ((32 : ℝ) : EReal)) + Ideal.div (b (ix1 d)) ((32 : ℝ) : EReal)
      = Cert.Spec.qproj x w b r d := by
  choose fx hfx using hx
  choose fw hfw using hw
  choose fb hfb using hb
  unfold Cert.Spec.qproj Cert.Spec.lin
  simp only [hfx, hfw, hfb, Ideal.div_coe (by norm_num : (32 : ℝ) ≠ 0), ← EReal.coe_mul, ← coe_sum, ← EReal.coe_add]
  refine congrArg _ ?_
  rw [add_mul, Finset.sum_mul]
  refine congrArg₂ _ (Finset.sum_congr rfl fun k _ => by ring) rfl

end Cert.KVal

end
-- ==== Proof.V11.lean ====
/-
  The dense layer's result array, on the extended reals, is the three projections side by side.

  The array has 4096 rows and 3072 columns. Its entry in row R and column col is the row R of the input against the
  column col of the packed weights, plus the packed bias at col. Reading the packed arrays: columns 0 .. 1023 hold
  the query projection divided by 32 (the weights and the bias were divided by the square root of 1024, which is 32,
  and for real entries dividing the weights and the bias is dividing the layer), columns 1024 .. 2047 the key
  projection, columns 2048 .. 3071 the value projection. All entries are real.
-/
import proofs.«170261_j10977936409228_2_alg».proof.Proof.KI.ArrAt0
import proofs.«170261_j10977936409228_2_alg».proof.Proof.DenseAt
import proofs.«170261_j10977936409228_2_alg».proof.Proof.HostPrefix
import proofs.«170261_j10977936409228_2_alg».proof.Proof.Finite
import proofs.«170261_j10977936409228_2_alg».proof.Proof.ScaleLaw
import proofs.«170261_j10977936409228_2_alg».proof.Proof.RefConsts

noncomputable section

open scoped BigOperators

namespace Cert.KVal

open Idealize.ShloMosaic Idealize.ShloMosaic.TcCoe Idealize.ShloMosaic.ValueIdx Idealize.SL.Sem Cert.Algebra
open Cert.KernelIdeal

variable (m : (ℓ : Loc Cert.KernelIdeal.nD Cert.KernelIdeal.τ Cert.KernelIdeal.sig) → Buf (Elt Ideal) ℓ) (c : Dev Cert.KernelIdeal.nD)

/-- Every core's TensorCore arrays when the dense layer is entered. -/
abbrev V1 : (c : Dev nD) → (b : Ref sig .tc) → Buf (Elt Ideal) ((c : Thread nD τ).loc b) :=
  fun c b => W1 m c (Proc.devRef .tc b)

/-- The dense layer's result array after its run. -/
abbrev v11 : S4096x3072.Idx → EReal :=
  (Cert.KernelIdeal.Hand.dat0 (F := Ideal) (V1 m) c).arrAt 3 Cert.KernelIdeal.cfg0.N

/-- The result array at (R, col): row R of the input against column col of the packed weights, plus the packed bias;
    stated for any three functions equal to the input, the packed weights and the packed bias. -/
theorem v11_at (R : Fin 4096) (col : Fin 3072) (x : S4096x1024.Idx → EReal) (W : S1024x3072.Idx → EReal) (B : S1x3072.Idx → EReal)
    (hxm : x = m ((c : Thread nD τ).loc main_arg0)) (hW : W = W1 m c (Proc.devRef .tc main_v7))
    (hB : B = W1 m c (Proc.devRef .tc main_v9)) :
    v11 m c (ix2 R col) = (∑ k : Fin 1024, x (ix2 R k) * W (ix2 k col)) + B (ix2 (0 : Fin 1) col) := by
  subst hxm hW hB
  have ht : R.val / 1024 < 4 := by have := R.isLt; omega
  have hx : ∀ k : Fin 1024,
      (Hand.iblk0 (F := Ideal) (V1 m) c 0 (⟨R.val / 1024, ht⟩ : Fin cfg0.N) (ix2 (⟨R.val % 1024, Nat.mod_lt _ (by decide)⟩ : Fin 1024) k) : EReal)
        = (m ((c : Thread nD τ).loc main_arg0) : S4096x1024.Idx → EReal) (ix2 R k) := fun k => by
    refine (Hand.iblk0_x (V1 m) c (⟨R.val / 1024, ht⟩ : Fin cfg0.N) (⟨R.val % 1024, Nat.mod_lt _ (by decide)⟩ : Fin 1024) k).trans ?_
    have hR : (⟨1024 * (R.val / 1024) + R.val % 1024, by have := R.isLt; omega⟩ : Fin 4096) = R := Fin.ext (Nat.div_add_mod _ _)
    show (W1 m c (Proc.devRef .tc main_v10) : S4096x1024.Idx → EReal) (ix2 (⟨1024 * (R.val / 1024) + R.val % 1024, _⟩ : Fin 4096) k) = _
    rw [hR]
    exact congrFun (hp_v10 m c) _
  refine (Hand.arrAt0_eq (F := Ideal) (V1 m) c R col).trans ?_
  refine (k0_pay1_apply _ _ _ (⟨R.val % 1024, Nat.mod_lt _ (by decide)⟩ : Fin 1024) col).trans ?_
  exact congrArg₂ (fun a b : EReal => a + b)
    (Finset.sum_congr rfl fun k _ => congrArg₂ (fun a b : EReal => a * b) (hx k) (Hand.iblk0_w (V1 m) c _ _))
    (Hand.iblk0_b (V1 m) c _ _)

section Real

variable (hx : ∀ i, IsReal (m ((c : Thread nD τ).loc main_arg0) i)) (hwq : ∀ i, IsReal (m ((c : Thread nD τ).loc main_arg1) i))
  (hbq : ∀ i, IsReal (m ((c : Thread nD τ).loc main_arg2) i)) (hwk : ∀ i, IsReal (m ((c : Thread nD τ).loc main_arg3) i))
  (hbk : ∀ i, IsReal (m ((c : Thread nD τ).loc main_arg4) i)) (hwv : ∀ i, IsReal (m ((c : Thread nD τ).loc main_arg5) i))
  (hbv : ∀ i, IsReal (m ((c : Thread nD τ).loc main_arg6) i))

include hx hwq hbq in
/-- Columns 0 .. 1023: the query projection divided by 32. -/
theorem v11_q (r : Fin 4096) (d : Fin 1024) :
    v11 m c (ix2 r (⟨d.val, by have := d.isLt; omega⟩ : Fin 3072))
      = Cert.Spec.qproj (m ((c : Thread nD τ).loc main_arg0)) (m ((c : Thread nD τ).loc main_arg1)) (m ((c : Thread nD τ).loc main_arg2)) r d := by
  refine (v11_at m c r _ _ _ _ rfl rfl rfl).trans ?_
  refine Eq.trans ?_ (qproj_eq _ _ _ hx hwq hbq r d)
  refine congrArg₂ (fun a b : EReal => a + b) (Finset.sum_congr rfl fun k _ => congrArg₂ (fun a b : EReal => a * b) rfl ?_) ?_
  · exact (hp_v7 m c k d).trans (by rw [Cert.RefSpec.sqrt_1024])
  · exact (hp_v9 m c d).trans (by rw [Cert.RefSpec.sqrt_1024])

/-- Columns 1024 .. 2047: the key projection. -/
theorem v11_k (j : Fin 4096) (d : Fin 1024) :
    v11 m c (ix2 j (⟨1024 + d.val, by have := d.isLt; omega⟩ : Fin 3072))
      = Cert.Spec.lin (m ((c : Thread nD τ).loc main_arg0)) (m ((c : Thread nD τ).loc main_arg3)) (m ((c : Thread nD τ).loc main_arg4)) j d := by
  refine (v11_at m c j _ _ _ _ rfl rfl rfl).trans ?_
  unfold Cert.Spec.lin
  exact congrArg₂ (fun a b : EReal => a + b) (Finset.sum_congr rfl fun k _ => congrArg₂ (fun a b : EReal => a * b) rfl (hp_v7_k m c k d)) (hp_v9_k m c d)

/-- Columns 2048 .. 3071: the value projection. -/
theorem v11_v (j : Fin 4096) (cc : Fin 1024) :
    v11 m c (ix2 j (⟨2048 + cc.val, by have := cc.isLt; omega⟩ : Fin 3072))
      = Cert.Spec.lin (m ((c : Thread nD τ).loc main_arg0)) (m ((c : Thread nD τ).loc main_arg5)) (m ((c : Thread nD τ).loc main_arg6)) j cc := by
  refine (v11_at m c j _ _ _ _ rfl rfl rfl).trans ?_
  unfold Cert.Spec.lin
  exact congrArg₂ (fun a b : EReal => a + b) (Finset.sum_congr rfl fun k _ => congrArg₂ (fun a b : EReal => a * b) rfl (hp_v7_v m c k cc)) (hp_v9_v m c cc)

include hx hwq hbq hwk hbk hwv hbv in
/-- Every entry of the result array is real. -/
theorem v11_real (i : S4096x3072.Idx) : IsReal (v11 m c i) := by
  obtain ⟨R, col, rfl⟩ : ∃ (R : Fin 4096) (col : Fin 3072), i = ix2 R col := ⟨i 0, i 1, eq_ix2 i⟩
  have hcol : col.val < 3072 := col.isLt
  by_cases h1 : col.val < 1024
  · have e := v11_q m c hx hwq hbq R (⟨col.val, h1⟩ : Fin 1024)
    exact e ▸ qproj_real _ _ _ hx hwq hbq R _
  · by_cases h2 : col.val < 2048
    · have e := v11_k m c R (⟨col.val - 1024, by omega⟩ : Fin 1024)
      have hc : (⟨1024 + (col.val - 1024), by omega⟩ : Fin 3072) = col := Fin.ext (by show 1024 + (col.val - 1024) = col.val; omega)
      rw [hc] at e
      exact e ▸ lin_real _ _ _ hx hwk hbk R _
    · have e := v11_v m c R (⟨col.val - 2048, by omega⟩ : Fin 1024)
      have hc : (⟨2048 + (col.val - 2048), by omega⟩ : Fin 3072) = col := Fin.ext (by show 2048 + (col.val - 2048) = col.val; omega)
      rw [hc] at e
      exact e ▸ lin_real _ _ _ hx hwv hbv R _

end Real

end Cert.KVal

end
-- ==== Proof.KI.BlockReads1.lean ====
/-
  The attention kernel's input blocks, read at explicit coordinates.

  All three input windows read the one array of projections, 4096 rows by 3072 columns: columns 0 to 1023 hold the
  queries, 1024 to 2047 the keys, 2048 to 3071 the values. At grid point t the query window's block is rows
  2048 * (t / 4) onward (2048 of them) of the first column block; the key and value windows' blocks are rows
  1024 * (t % 4) onward (1024 of them) of the second and third column blocks. An element of a block sits in the array,
  on each axis, at the block index times the block's size plus its own coordinate.
-/
import proofs.«170261_j10977936409228_2_alg».proof.Proof.KI.Runs1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section
variable (V : (c : Dev nD) → (b : Ref sig .tc) → Buf (Elt F) ((c : Thread nD τ).loc b))

/-- The windows' block indices at every grid point: the query and output windows follow the query tile t / 4, the key
    and value windows the key/value tile t % 4; the second coordinate picks the column block. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 1
    ∧ win1_2.index t (0 : Fin 2) = t.val % 4 ∧ win1_2.index t (1 : Fin 2) = 2
    ∧ win1_3.index t (0 : Fin 2) = t.val / 4 ∧ win1_3.index t (1 : Fin 2) = 0 :=
  (by decide +kernel : ∀ t : Fin grid1.N, _)

/-- The query block at point t, entry (p, d): the array at row 2048 * (t / 4) + p, column d. -/
theorem iblk1_q (c : Dev nD) (t : Fin cfg1.N) (p : Fin 2048) (d : Fin 1024) :
    iblk1 V c 0 t (ix2 p d)
      = V c main_v11 (ix2 (⟨2048 * (t.val / 4) + p.val, by have hN : t.val < 8 := lt_of_lt_of_eq t.isLt N_1; omega⟩ : Fin 4096)
          (⟨d.val, by omega⟩ : Fin 3072)) := by
  have hN : t.val < 8 := lt_of_lt_of_eq t.isLt N_1
  obtain ⟨e0, e1, -⟩ := idx_facts1 t
  show V c main_v11 (((cfg1.win 0).blk t).view.emb (ix2 p d)) = _
  refine congrArg (V c main_v11) ?_
  funext a; apply Fin.ext
  match a with
  | ⟨0, _⟩ => show win1_0.index t (0 : Fin 2) * 2048 + 1 * p.val = 2048 * (t.val / 4) + p.val; omega
  | ⟨1, _⟩ => show win1_0.index t (1 : Fin 2) * 1024 + 1 * d.val = d.val; omega

/-- The key block at point t, entry (jj, d): the array at row 1024 * (t % 4) + jj, column 1024 + d. -/
theorem iblk1_k (c : Dev nD) (t : Fin cfg1.N) (jj : Fin 1024) (d : Fin 1024) :
    iblk1 V c 1 t (ix2 jj d)
      = V c main_v11 (ix2 (⟨1024 * (t.val % 4) + jj.val, by omega⟩ : Fin 4096)
          (⟨1024 + d.val, by omega⟩ : Fin 3072)) := by
  obtain ⟨-, -, e0, e1, -⟩ := idx_facts1 t
  show V c main_v11 (((cfg1.win 1).blk t).view.emb (ix2 jj d)) = _
  refine congrArg (V c main_v11) ?_
  funext a; apply Fin.ext
  match a with
  | ⟨0, _⟩ => show win1_1.index t (0 : Fin 2) * 1024 + 1 * jj.val = 1024 * (t.val % 4) + jj.val; omega
  | ⟨1, _⟩ => show win1_1.index t (1 : Fin 2) * 1024 + 1 * d.val = 1024 + d.val; omega

/-- The value block at point t, entry (jj, cc): the array at row 1024 * (t % 4) + jj, column 2048 + cc. -/
theorem iblk1_v (c : Dev nD) (t : Fin cfg1.N) (jj : Fin 1024) (cc : Fin 1024) :
    iblk1 V c 2 t (ix2 jj cc)
      = V c main_v11 (ix2 (⟨1024 * (t.val % 4) + jj.val, by omega⟩ : Fin 4096)
          (⟨2048 + cc.val, by omega⟩ : Fin 3072)) := by
  obtain ⟨-, -, -, -, e0, e1, -⟩ := idx_facts1 t
  show V c main_v11 (((cfg1.win 2).blk t).view.emb (ix2 jj cc)) = _
  refine congrArg (V c main_v11) ?_
  funext a; apply Fin.ext
  match a with
  | ⟨0, _⟩ => show win1_2.index t (0 : Fin 2) * 1024 + 1 * jj.val = 1024 * (t.val % 4) + jj.val; omega
  | ⟨1, _⟩ => show win1_2.index t (1 : Fin 2) * 1024 + 1 * cc.val = 2048 + cc.val; omega

end

end Cert.KernelIdeal.Hand

end
-- ==== Proof.KI.ArrAt1.lean ====
/-
  The attention kernel's result array after the region.

  The output window is written back at the points t with t % 4 = 3 only: point 3 writes rows 0 to 2047 and point 7
  rows 2048 to 4095, each the whole 2048 x 1024 block its buffer holds after the body there. The two blocks tile the
  array, so row R of the result is row R % 2048 of what point 4 * (R / 2048) + 3 left in the output buffer.
-/
import proofs.«170261_j10977936409228_2_alg».proof.Proof.KI.Reg1
import proofs.«170261_j10977936409228_2_alg».proof.Proof.KI.BlockReads1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [∀ e, Nonempty (Elt F e)]

section
variable (V : (c : Dev nD) → (b : Ref sig .tc) → Buf (Elt F) ((c : Thread nD τ).loc b))

/-- The accumulation read at equal positions and equal indices. -/
theorem outsAt1_apply_congr (c : Dev nD) {n n' : ℕ} (hn : n < cfg1.N) (hn' : n' < cfg1.N) (h : n = n')
    {j j' : S2048x1024.Idx} (hj : j = j') : (outsAt1 V c n hn).1 j = (outsAt1 V c n' hn').1 j' := by
  subst h; subst hj; rfl

/-- Row R of the result: row R % 2048 of the output buffer after the last key tile of query tile R / 2048. -/
def outArr1 (c : Dev nD) : S4096x1024.Idx → Elt F .f32 := fun i =>
  (outsAt1 V c (4 * ((i 0).val / 2048) + 3) (lt_of_lt_of_eq (by have := idx2_lt0 i; omega) N_1.symm)).1
    (ix2 (⟨(i 0).val % 2048, Nat.mod_lt _ (by decide)⟩ : Fin 2048) (⟨(i 1).val, (i 1).isLt⟩ : Fin 1024))

/-- An index of the result array is in point t's block iff each coordinate is in the block's range on its axis. -/
theorem mem_blk1_3 (t : Fin cfg1.N) (i : S4096x1024.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v12).slice (win1_3.rect t)).set ↔ _
  rw [View.set_slice_whole, Rect.mem_set_unit]
  exact Iff.rfl

/-- What a writing point writes back is its block of the rows' function. -/
theorem flushed1_3_eq (c : Dev nD) (t : Fin cfg1.N) (hf : (cfg1.win 3).flush t = true) :
    (dat1 V c).flushed 3 t = ((cfg1.win 3).blk t).view.read (Elt F) (outArr1 V c) := by
  have h3 : t.val % 4 = 3 := (flush1_3 t).mp hf
  have hN : t.val < 8 := lt_of_lt_of_eq t.isLt N_1
  obtain ⟨-, -, -, -, -, -, e0, e1⟩ := idx_facts1 t
  funext y
  show (cfg1.win 3).cut (grid1.coords t) ((dat1 V c).after 3 t) y = outArr1 V c (((cfg1.win 3).blk t).view.emb y)
  rw [after1_3]
  have hy0 : (y 0).val < 2048 := (y 0).isLt
  have h0 : ((((cfg1.win 3).blk t).view.emb y) 0).val = 2048 * (t.val / 4) + (y 0).val := by
    show win1_3.index t (0 : Fin 2) * 2048 + 1 * (y 0).val = _; omega
  have h1 : ((((cfg1.win 3).blk t).view.emb y) 1).val = (y 1).val := by
    show win1_3.index t (1 : Fin 2) * 1024 + 1 * (y 1).val = _; omega
  unfold outArr1
  refine outsAt1_apply_congr V c _ _ (by rw [h0]; omega) (funext fun a => Fin.ext ?_)
  match a with
  | ⟨0, _⟩ => show (y 0).val = ((((cfg1.win 3).blk t).view.emb y) 0).val % 2048; rw [h0]; omega
  | ⟨1, _⟩ => show (y 1).val = ((((cfg1.win 3).blk t).view.emb y) 1).val; rw [h1]

/-- Every index of the result array is in a writing point's block. -/
theorem cover1_3 (i : S4096x1024.Idx) :
    ∃ t : Fin cfg1.N, (cfg1.win 3).flush t = true ∧ i ∈ ((cfg1.win 3).blk t).view.set := by
  have hi0 : (i 0).val < 4096 := idx2_lt0 i
  have hi1 : (i 1).val < 1024 := (i 1).isLt
  have ht : 4 * ((i 0).val / 2048) + 3 < cfg1.N := lt_of_lt_of_eq (by omega) N_1.symm
  obtain ⟨-, -, -, -, -, -, e0, e1⟩ := idx_facts1 ⟨4 * ((i 0).val / 2048) + 3, ht⟩
  have e0' : win1_3.index ⟨4 * ((i 0).val / 2048) + 3, ht⟩ (0 : Fin 2) = (4 * ((i 0).val / 2048) + 3) / 4 := e0
  refine ⟨⟨4 * ((i 0).val / 2048) + 3, ht⟩, (flush1_3 _).mpr (by show (4 * ((i 0).val / 2048) + 3) % 4 = 3; omega), ?_⟩
  rw [mem_blk1_3]
  intro a
  match a with
  | ⟨0, _⟩ => show win1_3.index ⟨4 * ((i 0).val / 2048) + 3, ht⟩ (0 : Fin 2) * 2048 ≤ (i 0).val ∧ (i 0).val < win1_3.index ⟨4 * ((i 0).val / 2048) + 3, ht⟩ (0 : Fin 2) * 2048 + 2048; omega
  | ⟨1, _⟩ => show win1_3.index ⟨4 * ((i 0).val / 2048) + 3, ht⟩ (1 : Fin 2) * 1024 ≤ (i 1).val ∧ (i 1).val < win1_3.index ⟨4 * ((i 0).val / 2048) + 3, ht⟩ (1 : Fin 2) * 1024 + 1024; omega

/-- THE RESULT ARRAY after the region, entry (R, cc). -/
theorem arrAt1_eq (c : Dev nD) (R : Fin 4096) (cc : Fin 1024) :
    (dat1 V c).arrAt 3 cfg1.N (ix2 R cc)
      = (outsAt1 V c (4 * (R.val / 2048) + 3) (lt_of_lt_of_eq (by omega) N_1.symm)).1
          (ix2 (⟨R.val % 2048, Nat.mod_lt _ (by decide)⟩ : Fin 2048) cc) := by
  rw [(dat1 V c).arrAt_eq_of_cover 3 (outArr1 V c) (fun t hf => flushed1_3_eq V c t hf) (cover1_3)]
  rfl

end

end Cert.KernelIdeal.Hand

end
-- ==== Proof.KI.Pieces1.lean ====
/-
  What each case's run leaves in the buffers, as payloads of the blocks.

  Every store of the attention kernel writes a whole buffer, so the contents a run's pieces leave are the LAST store's
  payload, and a load that follows a store reads that store's payload. Read this way the three carried buffers end at
  one update of the running triple (from the reset values at the first key tile, else from what the buffers held), and
  at the last key tile the output buffer ends at the new weighted sum divided by the new running sum.
-/
import proofs.«170261_j10977936409228_2_alg».proof.Proof.KI.Run1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by
  funext a; match a with | ⟨0, _⟩ => rfl | ⟨1, _⟩ => rfl

/-! ## First key tile -/
set_option maxHeartbeats 1000000 in
theorem canonA_0 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S1024x1024 .bf16) (x2 : Vec F S1024x1024 .bf16) :
    View.canon (kernelRun1_A (F := F) c i arg2 harg2 arg3 harg3 arg4 harg4 arg5 harg5 arg6 harg6 arg7 harg7 arg8 harg8 hc0 hc1 x0 x1 x2).2.1 = k1_pay2 (k1_pay8 x0 x1 (k1_pay4 (F := F))) := by
  unfold kernelRun1_A; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonA_1 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S1024x1024 .bf16) (x2 : Vec F S1024x1024 .bf16) :
    View.canon (kernelRun1_A (F := F) c i arg2 harg2 arg3 harg3 arg4 harg4 arg5 harg5 arg6 harg6 arg7 harg7 arg8 harg8 hc0 hc1 x0 x1 x2).2.2.1 = k1_pay11 x0 x1 (k1_pay4 (F := F)) (k1_pay4 (F := F)) (k1_pay5 (F := F)) := by
  unfold kernelRun1_A; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonA_2 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S1024x1024 .bf16) (x2 : Vec F S1024x1024 .bf16) :
    View.canon (kernelRun1_A (F := F) c i arg2 harg2 arg3 harg3 arg4 harg4 arg5 harg5 arg6 harg6 arg7 harg7 arg8 harg8 hc0 hc1 x0 x1 x2).2.2.2.1 = k1_pay1 (k1_pay12 x0 x1 (k1_pay4 (F := F)) (k1_pay4 (F := F)) (k1_pay6 (F := F))) (k1_pay13 x0 x1 x2 (k1_pay4 (F := F))) := by
  unfold kernelRun1_A; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

/-! ## Middle key tiles -/
set_option maxHeartbeats 1000000 in
theorem canonB_0 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_B (F := F) c i arg2 harg2 arg3 harg3 arg4 harg4 arg5 harg5 arg6 harg6 arg7 harg7 arg8 harg8 hc0 hc1 x0 x1 x2 xs0 xs1 xs2).2.1 = k1_pay2 (k1_pay8 x0 x1 xs0) := by
  unfold kernelRun1_B; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonB_1 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_B (F := F) c i arg2 harg2 arg3 harg3 arg4 harg4 arg5 harg5 arg6 harg6 arg7 harg7 arg8 harg8 hc0 hc1 x0 x1 x2 xs0 xs1 xs2).2.2.1 = k1_pay11 x0 x1 xs0 xs0 xs1 := by
  unfold kernelRun1_B; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonB_2 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_B (F := F) c i arg2 harg2 arg3 harg3 arg4 harg4 arg5 harg5 arg6 harg6 arg7 harg7 arg8 harg8 hc0 hc1 x0 x1 x2 xs0 xs1 xs2).2.2.2.1 = k1_pay1 (k1_pay12 x0 x1 xs0 xs0 xs2) (k1_pay13 x0 x1 x2 xs0) := by
  unfold kernelRun1_B; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

/-! ## Last key tile -/
set_option maxHeartbeats 1000000 in
theorem canonC_0 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_C (F := F) c i arg2 harg2 arg3 harg3 arg4 harg4 arg5 harg5 arg6 harg6 arg7 harg7 arg8 harg8 hc0 hc1 x0 x1 x2 xs0 xs1 xs2).2.1 = k1_pay2 (k1_pay8 x0 x1 xs0) := by
  unfold kernelRun1_C; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonC_1 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_C (F := F) c i arg2 harg2 arg3 harg3 arg4 harg4 arg5 harg5 arg6 harg6 arg7 harg7 arg8 harg8 hc0 hc1 x0 x1 x2 xs0 xs1 xs2).2.2.1 = k1_pay11 x0 x1 xs0 xs0 xs1 := by
  unfold kernelRun1_C; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonC_2 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_C (F := F) c i arg2 harg2 arg3 harg3 arg4 harg4 arg5 harg5 arg6 harg6 arg7 harg7 arg8 harg8 hc0 hc1 x0 x1 x2 xs0 xs1 xs2).2.2.2.1 = k1_pay1 (k1_pay12 x0 x1 xs0 xs0 xs2) (k1_pay13 x0 x1 x2 xs0) := by
  unfold kernelRun1_C; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

set_option maxHeartbeats 1000000 in
theorem canonC_3 (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S1024x1024 .bf16) (x2 : Vec F S1024x1024 .bf16) (xs0 : Vec F S2048x1 .f32) (xs1 : Vec F S2048x1 .f32) (xs2 : Vec F S2048x1024 .f32) :
    View.canon (kernelRun1_C (F := F) c i arg2 harg2 arg3 harg3 arg4 harg4 arg5 harg5 arg6 harg6 arg7 harg7 arg8 harg8 hc0 hc1 x0 x1 x2 xs0 xs1 xs2).1 = k1_pay3 (k1_pay1 (k1_pay12 x0 x1 xs0 xs0 xs2) (k1_pay13 x0 x1 x2 xs0)) (k1_pay11 x0 x1 xs0 xs0 xs1) := by
  unfold kernelRun1_C; dsimp only; sl_unfold_words
  rw [View.canon_cons_unit_zero hz2]
  simp only [View.readAt_eq_ld, Memref.IsWhole.read_unread, View.ld_unit_zero (S := S2048x1024) hz2, View.ld_unit_zero (S := S1024x1024) hz2, View.ld_unit_zero (S := S2048x1) hz2, View.readCov_unit_zero (S := S2048x1) _ hz2, View.readCov_unit_zero (S := S2048x1024) _ hz2]

end Cert.KernelIdeal.Hand

end
-- ==== Proof.KI.Reg1Value.lean ====
/-
  The attention kernel's accumulation, as pure functions of the blocks.

  One update of the carried triple (running maximum, running sum, running weighted sum) from a query block q, a key
  block k and a value block v is a pure function `fstep` of the old triple; the reset values are `finit`; the output is
  the weighted sum divided by the running sum, `fout`. What each case's run leaves in the buffers at a grid point is
  these functions of the point's blocks: one update of the reset values at the first key tile, one update of what the
  buffers held at the others, and at the last also the output.
-/
import proofs.«170261_j10977936409228_2_alg».proof.Proof.KI.Reg1
import proofs.«170261_j10977936409228_2_alg».proof.Proof.KI.Pieces1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The carried triple at a reset: minus infinity, zero, zero. -/
def finit : Vec F S2048x1 .f32 × Vec F S2048x1 .f32 × Vec F S2048x1024 .f32 := (k1_pay4 (F := F), k1_pay5 (F := F), k1_pay6 (F := F))

/-- One update of the carried triple from the blocks of a point; every component is computed from the OLD triple. -/
def fstep (q : Vec F S2048x1024 .bf16) (kk vv : Vec F S1024x1024 .bf16) (s : Vec F S2048x1 .f32 × Vec F S2048x1 .f32 × Vec F S2048x1024 .f32) : Vec F S2048x1 .f32 × Vec F S2048x1 .f32 × Vec F S2048x1024 .f32 :=
  (k1_pay2 (k1_pay8 q kk s.1), k1_pay11 q kk s.1 s.1 s.2.1, k1_pay1 (k1_pay12 q kk s.1 s.1 s.2.2) (k1_pay13 q kk vv s.1))

/-- The output block: the running weighted sum divided by the running sum, row by row. -/
def fout (s : Vec F S2048x1 .f32 × Vec F S2048x1 .f32 × Vec F S2048x1024 .f32) : Vec F S2048x1024 .f32 := k1_pay3 s.2.2 s.2.1

variable (V : (c : Dev nD) → (b : Ref sig .tc) → Buf (Elt F) ((c : Thread nD τ).loc b)) [∀ e, Nonempty (Elt F e)]

/-! ## A reset point -/
theorem stepOuts_A_0 (c : Dev nD) (t : Fin cfg1.N) (h0 : t.val % 4 = 0) (p : Vec F S2048x1 .f32 × Vec F S2048x1 .f32 × Vec F S2048x1024 .f32) :
    (stepOuts V c t p).2.1 = k1_pay2 (k1_pay8 (iblk1 V c 0 t) (iblk1 V c 1 t) (k1_pay4 (F := F))) := by
  have h1 : ¬t.val % 4 = 3 := by omega
  unfold stepOuts; rw [dif_pos h0, dif_neg h1]
  dsimp only
  refine (View.read_writes_eq_canon VS1_0 _ _ (scoverA_0 V c t h0 h1)).trans ?_
  exact canonA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

theorem stepOuts_A_1 (c : Dev nD) (t : Fin cfg1.N) (h0 : t.val % 4 = 0) (p : Vec F S2048x1 .f32 × Vec F S2048x1 .f32 × Vec F S2048x1024 .f32) :
    (stepOuts V c t p).2.2.1 = k1_pay11 (iblk1 V c 0 t) (iblk1 V c 1 t) (k1_pay4 (F := F)) (k1_pay4 (F := F)) (k1_pay5 (F := F)) := by
  have h1 : ¬t.val % 4 = 3 := by omega
  unfold stepOuts; rw [dif_pos h0, dif_neg h1]
  dsimp only
  refine (View.read_writes_eq_canon VS1_1 _ _ (scoverA_1 V c t h0 h1)).trans ?_
  exact canonA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

theorem stepOuts_A_2 (c : Dev nD) (t : Fin cfg1.N) (h0 : t.val % 4 = 0) (p : Vec F S2048x1 .f32 × Vec F S2048x1 .f32 × Vec F S2048x1024 .f32) :
    (stepOuts V c t p).2.2.2 = k1_pay1 (k1_pay12 (iblk1 V c 0 t) (iblk1 V c 1 t) (k1_pay4 (F := F)) (k1_pay4 (F := F)) (k1_pay6 (F := F))) (k1_pay13 (iblk1 V c 0 t) (iblk1 V c 1 t) (iblk1 V c 2 t) (k1_pay4 (F := F))) := by
  have h1 : ¬t.val % 4 = 3 := by omega
  unfold stepOuts; rw [dif_pos h0, dif_neg h1]
  dsimp only
  refine (View.read_writes_eq_canon VS1_2 _ _ (scoverA_2 V c t h0 h1)).trans ?_
  exact canonA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- At a reset point the carried buffers end at one update of the reset values. -/
theorem stepOuts_A (c : Dev nD) (t : Fin cfg1.N) (h0 : t.val % 4 = 0) (p : Vec F S2048x1 .f32 × Vec F S2048x1 .f32 × Vec F S2048x1024 .f32) :
    (stepOuts V c t p).2 = (fstep (iblk1 V c 0 t) (iblk1 V c 1 t) (iblk1 V c 2 t) finit) := by
  unfold fstep finit
  exact Prod.ext (stepOuts_A_0 V c t h0 p) (Prod.ext (stepOuts_A_1 V c t h0 p) (stepOuts_A_2 V c t h0 p))

/-! ## A middle point -/
theorem stepOuts_B_0 (c : Dev nD) (t : Fin cfg1.N) (h0 : ¬t.val % 4 = 0) (h1 : ¬t.val % 4 = 3) (p : Vec F S2048x1 .f32 × Vec F S2048x1 .f32 × Vec F S2048x1024 .f32) :
    (stepOuts V c t p).2.1 = k1_pay2 (k1_pay8 (iblk1 V c 0 t) (iblk1 V c 1 t) p.1) := by
  unfold stepOuts; rw [dif_neg h0, dif_neg h1]
  dsimp only
  refine (View.read_writes_eq_canon VS1_0 _ _ (scoverB_0 V c t h0 h1 p)).trans ?_
  exact canonB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2

theorem stepOuts_B_1 (c : Dev nD) (t : Fin cfg1.N) (h0 : ¬t.val % 4 = 0) (h1 : ¬t.val % 4 = 3) (p : Vec F S2048x1 .f32 × Vec F S2048x1 .f32 × Vec F S2048x1024 .f32) :
    (stepOuts V c t p).2.2.1 = k1_pay11 (iblk1 V c 0 t) (iblk1 V c 1 t) p.1 p.1 p.2.1 := by
  unfold stepOuts; rw [dif_neg h0, dif_neg h1]
  dsimp only
  refine (View.read_writes_eq_canon VS1_1 _ _ (scoverB_1 V c t h0 h1 p)).trans ?_
  exact canonB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2

theorem stepOuts_B_2 (c : Dev nD) (t : Fin cfg1.N) (h0 : ¬t.val % 4 = 0) (h1 : ¬t.val % 4 = 3) (p : Vec F S2048x1 .f32 × Vec F S2048x1 .f32 × Vec F S2048x1024 .f32) :
    (stepOuts V c t p).2.2.2 = k1_pay1 (k1_pay12 (iblk1 V c 0 t) (iblk1 V c 1 t) p.1 p.1 p.2.2) (k1_pay13 (iblk1 V c 0 t) (iblk1 V c 1 t) (iblk1 V c 2 t) p.1) := by
  unfold stepOuts; rw [dif_neg h0, dif_neg h1]
  dsimp only
  refine (View.read_writes_eq_canon VS1_2 _ _ (scoverB_2 V c t h0 h1 p)).trans ?_
  exact canonB_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2

/-- At a middle point the carried buffers end at one update of what they held. -/
theorem stepOuts_B (c : Dev nD) (t : Fin cfg1.N) (h0 : ¬t.val % 4 = 0) (h1 : ¬t.val % 4 = 3) (p : Vec F S2048x1 .f32 × Vec F S2048x1 .f32 × Vec F S2048x1024 .f32) :
    (stepOuts V c t p).2 = (fstep (iblk1 V c 0 t) (iblk1 V c 1 t) (iblk1 V c 2 t) p) := by
  unfold fstep
  exact Prod.ext (stepOuts_B_0 V c t h0 h1 p) (Prod.ext (stepOuts_B_1 V c t h0 h1 p) (stepOuts_B_2 V c t h0 h1 p))

/-! ## A last point -/
theorem stepOuts_C_0 (c : Dev nD) (t : Fin cfg1.N) (h0 : ¬t.val % 4 = 0) (h1 : t.val % 4 = 3) (p : Vec F S2048x1 .f32 × Vec F S2048x1 .f32 × Vec F S2048x1024 .f32) :
    (stepOuts V c t p).2.1 = k1_pay2 (k1_pay8 (iblk1 V c 0 t) (iblk1 V c 1 t) p.1) := by
  unfold stepOuts; rw [dif_neg h0, dif_pos h1]
  dsimp only
  refine (View.read_writes_eq_canon VS1_0 _ _ (scoverC_0 V c t h0 h1 p)).trans ?_
  exact canonC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

theorem stepOuts_C_1 (c : Dev nD) (t : Fin cfg1.N) (h0 : ¬t.val % 4 = 0) (h1 : t.val % 4 = 3) (p : Vec F S2048x1 .f32 × Vec F S2048x1 .f32 × Vec F S2048x1024 .f32) :
    (stepOuts V c t p).2.2.1 = k1_pay11 (iblk1 V c 0 t) (iblk1 V c 1 t) p.1 p.1 p.2.1 := by
  unfold stepOuts; rw [dif_neg h0, dif_pos h1]
  dsimp only
  refine (View.read_writes_eq_canon VS1_1 _ _ (scoverC_1 V c t h0 h1 p)).trans ?_
  exact canonC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

theorem stepOuts_C_2 (c : Dev nD) (t : Fin cfg1.N) (h0 : ¬t.val % 4 = 0) (h1 : t.val % 4 = 3) (p : Vec F S2048x1 .f32 × Vec F S2048x1 .f32 × Vec F S2048x1024 .f32) :
    (stepOuts V c t p).2.2.2 = k1_pay1 (k1_pay12 (iblk1 V c 0 t) (iblk1 V c 1 t) p.1 p.1 p.2.2) (k1_pay13 (iblk1 V c 0 t) (iblk1 V c 1 t) (iblk1 V c 2 t) p.1) := by
  unfold stepOuts; rw [dif_neg h0, dif_pos h1]
  dsimp only
  refine (View.read_writes_eq_canon VS1_2 _ _ (scoverC_2 V c t h0 h1 p)).trans ?_
  exact canonC_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

theorem stepOuts_C_3 (c : Dev nD) (t : Fin cfg1.N) (h0 : ¬t.val % 4 = 0) (h1 : t.val % 4 = 3) (p : Vec F S2048x1 .f32 × Vec F S2048x1 .f32 × Vec F S2048x1024 .f32) :
    (stepOuts V c t p).1 = k1_pay3 (k1_pay1 (k1_pay12 (iblk1 V c 0 t) (iblk1 V c 1 t) p.1 p.1 p.2.2) (k1_pay13 (iblk1 V c 0 t) (iblk1 V c 1 t) (iblk1 V c 2 t) p.1)) (k1_pay11 (iblk1 V c 0 t) (iblk1 V c 1 t) p.1 p.1 p.2.1) := by
  unfold stepOuts; rw [dif_neg h0, dif_pos h1]
  dsimp only
  refine (View.read_writes_eq_canon VO1_3 _ _ (coverC_3 V c t h0 h1 p)).trans ?_
  exact canonC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

/-- At a last point the carried buffers end at one update of what they held, and the output buffer at its quotient. -/
theorem stepOuts_C (c : Dev nD) (t : Fin cfg1.N) (h0 : ¬t.val % 4 = 0) (h1 : t.val % 4 = 3) (p : Vec F S2048x1 .f32 × Vec F S2048x1 .f32 × Vec F S2048x1024 .f32) :
    stepOuts V c t p = (fout (fstep (iblk1 V c 0 t) (iblk1 V c 1 t) (iblk1 V c 2 t) p), (fstep (iblk1 V c 0 t) (iblk1 V c 1 t) (iblk1 V c 2 t) p)) := by
  unfold fout fstep
  exact Prod.ext (stepOuts_C_3 V c t h0 h1 p) (Prod.ext (stepOuts_C_0 V c t h0 h1 p) (Prod.ext (stepOuts_C_1 V c t h0 h1 p) (stepOuts_C_2 V c t h0 h1 p)))

end Cert.KernelIdeal.Hand

end
-- ==== Proof.KI.Tile1.lean ====
/-
  The attention kernel's accumulation over one query tile.

  Query tile qi is worked on at the four consecutive points 4 * qi + k, k = 0, 1, 2, 3. The query block is the same at
  all four; the key and value blocks are those of key tile k. The first point resets the carried triple and updates
  it once; each later point updates what the point before left; the last point also writes the output block. So the
  carried triple after position k is a fold of the update over key tiles 0 … k, started from the reset values, and
  the output block is the output function of the fold over all four.
-/
import proofs.«170261_j10977936409228_2_alg».proof.Proof.KI.Reg1Value
import proofs.«170261_j10977936409228_2_alg».proof.Proof.KI.BlockReads1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The accumulation as a fold over key tiles -/

/-- The carried triple after key tiles 0 … n of one query block q, the key and value blocks given by position. -/
def frun (q : Vec F S2048x1024 .bf16) (K W : ℕ → Vec F S1024x1024 .bf16) :
    ℕ → Vec F S2048x1 .f32 × Vec F S2048x1 .f32 × Vec F S2048x1024 .f32
  | 0 => fstep q (K 0) (W 0) finit
  | n + 1 => fstep q (K (n + 1)) (W (n + 1)) (frun q K W n)

section
variable (V : (c : Dev nD) → (b : Ref sig .tc) → Buf (Elt F) ((c : Thread nD τ).loc b))

/-- Query tile qi's block: the query window's block at the tile's first point. -/
def qBlk (c : Dev nD) (qi : Fin 2) : Vec F S2048x1024 .bf16 :=
  iblk1 V c 0 ⟨4 * qi.val, lt_of_lt_of_eq (by omega) N_1.symm⟩

/-- The key block met at position k of query tile qi. -/
def kBlk (c : Dev nD) (qi : Fin 2) (k : ℕ) : Vec F S1024x1024 .bf16 :=
  iblk1 V c 1 ⟨4 * qi.val + k % 4, lt_of_lt_of_eq (by omega) N_1.symm⟩

/-- The value block met at position k of query tile qi. -/
def vBlk (c : Dev nD) (qi : Fin 2) (k : ℕ) : Vec F S1024x1024 .bf16 :=
  iblk1 V c 2 ⟨4 * qi.val + k % 4, lt_of_lt_of_eq (by omega) N_1.symm⟩

/-- A key block depends on the point only. -/
theorem iblk1_1_congr (c : Dev nD) {t t' : Fin cfg1.N} (h : t = t') :
    (iblk1 V c 1 t : Vec F S1024x1024 .bf16) = iblk1 V c 1 t' := by subst h; rfl

/-- A value block depends on the point only. -/
theorem iblk1_2_congr (c : Dev nD) {t t' : Fin cfg1.N} (h : t = t') :
    (iblk1 V c 2 t : Vec F S1024x1024 .bf16) = iblk1 V c 2 t' := by subst h; rfl

/-- Inside a tile the position is its own remainder by 4. -/
theorem kBlk_eq (c : Dev nD) (qi : Fin 2) (k : ℕ) (hk : k < 4) :
    kBlk V c qi k = iblk1 V c 1 ⟨4 * qi.val + k, lt_of_lt_of_eq (by omega) N_1.symm⟩ :=
  iblk1_1_congr V c (Fin.ext (by show 4 * qi.val + k % 4 = 4 * qi.val + k; rw [Nat.mod_eq_of_lt hk]))

theorem vBlk_eq (c : Dev nD) (qi : Fin 2) (k : ℕ) (hk : k < 4) :
    vBlk V c qi k = iblk1 V c 2 ⟨4 * qi.val + k, lt_of_lt_of_eq (by omega) N_1.symm⟩ :=
  iblk1_2_congr V c (Fin.ext (by show 4 * qi.val + k % 4 = 4 * qi.val + k; rw [Nat.mod_eq_of_lt hk]))

/-- The query block does not move within a query tile. -/
theorem iblk1_q_tile (c : Dev nD) (qi : Fin 2) (k : ℕ) (hk : k < 4) :
    iblk1 V c 0 ⟨4 * qi.val + k, lt_of_lt_of_eq (by omega) N_1.symm⟩ = qBlk V c qi := by
  unfold qBlk
  funext j
  obtain ⟨p, d, rfl⟩ : ∃ (p : Fin 2048) (d : Fin 1024), j = ix2 p d := ⟨j 0, j 1, eq_ix2 j⟩
  rw [iblk1_q, iblk1_q]
  refine congrArg (V c main_v11) (congrArg₂ ix2 (Fin.ext ?_) rfl)
  show 2048 * ((4 * qi.val + k) / 4) + p.val = 2048 * ((4 * qi.val) / 4) + p.val
  omega

variable [∀ e, Nonempty (Elt F e)]

/-! ## One point of the accumulation, by position -/

/-- At a reset position the carried triple is one update of the reset values. -/
theorem outs_reset (c : Dev nD) : ∀ (n : ℕ) (hn : n < cfg1.N) (h0 : n % 4 = 0),
    (outsAt1 V c n hn).2 = fstep (iblk1 V c 0 ⟨n, hn⟩) (iblk1 V c 1 ⟨n, hn⟩) (iblk1 V c 2 ⟨n, hn⟩) finit
  | 0, hn, h0 => stepOuts_A V c ⟨0, hn⟩ h0 _
  | m + 1, hn, h0 => stepOuts_A V c ⟨m + 1, hn⟩ h0 _

/-- At a middle position it is one update of what the position before left. -/
theorem outs_mid (c : Dev nD) (m : ℕ) (hn : m + 1 < cfg1.N) (h0 : ¬(m + 1) % 4 = 0) (h1 : ¬(m + 1) % 4 = 3) :
    (outsAt1 V c (m + 1) hn).2
      = fstep (iblk1 V c 0 ⟨m + 1, hn⟩) (iblk1 V c 1 ⟨m + 1, hn⟩) (iblk1 V c 2 ⟨m + 1, hn⟩) (outsAt1 V c m (Nat.lt_of_succ_lt hn)).2 :=
  stepOuts_B V c ⟨m + 1, hn⟩ h0 h1 _

/-- At a last position likewise, and the output buffer holds the output of that update. -/
theorem outs_last (c : Dev nD) (m : ℕ) (hn : m + 1 < cfg1.N) (h0 : ¬(m + 1) % 4 = 0) (h1 : (m + 1) % 4 = 3) :
    outsAt1 V c (m + 1) hn
      = (fout (fstep (iblk1 V c 0 ⟨m + 1, hn⟩) (iblk1 V c 1 ⟨m + 1, hn⟩) (iblk1 V c 2 ⟨m + 1, hn⟩) (outsAt1 V c m (Nat.lt_of_succ_lt hn)).2),
         fstep (iblk1 V c 0 ⟨m + 1, hn⟩) (iblk1 V c 1 ⟨m + 1, hn⟩) (iblk1 V c 2 ⟨m + 1, hn⟩) (outsAt1 V c m (Nat.lt_of_succ_lt hn)).2) :=
  stepOuts_C V c ⟨m + 1, hn⟩ h0 h1 _

/-- Past the first position of a tile: one update of what the position before left, whichever case. -/
theorem outs_succ (c : Dev nD) (m : ℕ) (hn : m + 1 < cfg1.N) (h0 : ¬(m + 1) % 4 = 0) :
    (outsAt1 V c (m + 1) hn).2
      = fstep (iblk1 V c 0 ⟨m + 1, hn⟩) (iblk1 V c 1 ⟨m + 1, hn⟩) (iblk1 V c 2 ⟨m + 1, hn⟩) (outsAt1 V c m (Nat.lt_of_succ_lt hn)).2 := by
  by_cases h1 : (m + 1) % 4 = 3
  · rw [outs_last V c m hn h0 h1]
  · exact outs_mid V c m hn h0 h1

/-! ## One query tile -/

/-- THE CARRIED TRIPLE after position k of query tile qi is the fold over key tiles 0 … k. -/
theorem outsAt1_tile (c : Dev nD) (qi : Fin 2) : ∀ (k : ℕ) (hk : k < 4),
    (outsAt1 V c (4 * qi.val + k) (lt_of_lt_of_eq (by omega) N_1.symm)).2
      = frun (qBlk V c qi) (kBlk V c qi) (vBlk V c qi) k
  | 0, hk => by
    refine (outs_reset V c (4 * qi.val + 0) (lt_of_lt_of_eq (by omega) N_1.symm) (by omega)).trans ?_
    rw [iblk1_q_tile V c qi 0 hk, ← kBlk_eq V c qi 0 hk, ← vBlk_eq V c qi 0 hk]
    rfl
  | k + 1, hk => by
    refine (outs_succ V c (4 * qi.val + k) (lt_of_lt_of_eq (by omega) N_1.symm) (by omega)).trans ?_
    rw [outsAt1_tile c qi k (by omega)]
    have eq := iblk1_q_tile V c qi (k + 1) hk
    have ek := kBlk_eq V c qi (k + 1) hk
    have ev := vBlk_eq V c qi (k + 1) hk
    show fstep (iblk1 V c 0 ⟨4 * qi.val + (k + 1), _⟩) (iblk1 V c 1 ⟨4 * qi.val + (k + 1), _⟩) (iblk1 V c 2 ⟨4 * qi.val + (k + 1), _⟩) _ = _
    rw [eq, ← ek, ← ev]
    rfl

/-- THE OUTPUT BUFFER after the last position of query tile qi: the output of the fold over all four key tiles. -/
theorem outsAt1_last (c : Dev nD) (qi : Fin 2) :
    (outsAt1 V c (4 * qi.val + 3) (lt_of_lt_of_eq (by omega) N_1.symm)).1
      = fout (frun (qBlk V c qi) (kBlk V c qi) (vBlk V c qi) 3) := by
  rw [← outsAt1_tile V c qi 3 (by omega)]
  have hl := outs_last V c (4 * qi.val + 2) (lt_of_lt_of_eq (by omega) N_1.symm) (by omega) (by omega)
  show (outsAt1 V c (4 * qi.val + 2 + 1) _).1 = fout (outsAt1 V c (4 * qi.val + 2 + 1) _).2
  rw [hl]

end

end Cert.KernelIdeal.Hand

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.LibTilesOfEq.lean ====
/-
  The tiling law for an index range whose size is given as a product.

  A sum over n positions, where n = a * b, is the sum over the a tiles of the sum over the b positions of each tile,
  position r of tile t being b * t + r. The size n is a variable tied to the product by a hypothesis, not the product
  itself: at a literal size such as 8192 = 16 * 512 the law then applies directly to functions on the 8192 positions,
  and the two spellings of the size are related only by that one numeric equation.
-/
import proofs.«170261_j10977936409228_2_alg».proof.Proof.LibTileSum

noncomputable section

open scoped BigOperators

namespace Cert.Lib.TilesOfEq

/-- A sum over the n = a * b positions is the sum over the a tiles of the sum over the b positions b * t + r of each. -/
theorem sum_tiles_of_eq {M : Type*} [AddCommMonoid M] (a b n : ℕ) (h : a * b = n) (g : Fin n → M) :
    ∑ i, g i = ∑ t : Fin a, ∑ r : Fin b,
      g ⟨b * t.val + r.val, by rw [← h]; exact Cert.Lib.TileSum.tile_lt t.isLt r.isLt⟩ := by
  subst h
  exact Cert.Lib.TileSum.sum_fin_tiles a b g

end Cert.Lib.TilesOfEq

end
-- ==== Proof.LibOnlineSoftmax.lean ====
/-
  The running maximum and running sum of shifted exponentials that an online softmax keeps, on the extended reals.

  A row of N = T * W entries is met in T tiles of W entries each. After each tile the pair (m, s) is updated:
      m' = max m (largest entry of the tile),
      s' = exp (m - m') * s + sum over the tile of exp (entry - m'),
  starting at the first tile from m = -inf and s = 0. When every entry is a real number, after the last tile m is the
  largest entry of the whole row and s is the sum over the whole row of exp (entry - m): rescaling the old sum by
  exp (m - m') turns each old term exp (entry - m) into exp (entry - m'), because exp (a - b) * exp (b - c) = exp (a - c)
  on real numbers. At the first tile exp (-inf - m') = 0 and 0 * 0 = 0, so the start values contribute nothing.
  With an infinite entry the identity fails, which is why the entries are asked to be real.

  Also: the largest entry of the row shifted by its own maximum is 0.
-/
import proofs.«170261_j10977936409228_2_alg».proof.Proof.LibSoftmaxRow
import proofs.«170261_j10977936409228_2_alg».proof.Proof.LibTilesOfEq

noncomputable section

open scoped BigOperators

namespace Cert.OnlineSoftmax

open Idealize.ShloMosaic Cert.Algebra Cert.Softmax

variable {W : ℕ}

/-- The largest entry of one tile: the fold of max from -inf. -/
def tileMax (x : Fin W → EReal) : EReal := (Finset.univ : Finset (Fin W)).fold max ⊥ x

/-- The running maximum after a tile. -/
def stepM (m : EReal) (x : Fin W → EReal) : EReal := max m (tileMax x)

/-- The running sum after a tile: the old sum rescaled to the new maximum, plus the tile's shifted exponentials. -/
def stepL (m s : EReal) (x : Fin W → EReal) : EReal :=
  Ideal.exp (m - stepM m x) * s + ∑ q, Ideal.exp (x q - stepM m x)

/-- The pair (running maximum, running sum) after tiles 0 … n. -/
def onl (x : ℕ → Fin W → EReal) : ℕ → EReal × EReal
  | 0 => (stepM ⊥ (x 0), stepL ⊥ 0 (x 0))
  | n + 1 => (stepM (onl x n).1 (x (n + 1)), stepL (onl x n).1 (onl x n).2 (x (n + 1)))

theorem onl_zero (x : ℕ → Fin W → EReal) : onl x 0 = (stepM ⊥ (x 0), stepL ⊥ 0 (x 0)) := rfl
theorem onl_succ (x : ℕ → Fin W → EReal) (n : ℕ) :
    onl x (n + 1) = (stepM (onl x n).1 (x (n + 1)), stepL (onl x n).1 (onl x n).2 (x (n + 1))) := rfl

/-! ## The largest of finitely many extended reals, when it is attained -/

/-- The fold of max from -inf over a finite family is M as soon as M bounds every entry and is one of them. -/
theorem fold_max_eq_of_attained {n : ℕ} (f : Fin n → EReal) (M : EReal) (hle : ∀ j, f j ≤ M) (j0 : Fin n)
    (hj0 : f j0 = M) : (Finset.univ : Finset (Fin n)).fold max ⊥ f = M :=
  le_antisymm ((Finset.fold_max_le M).mpr ⟨bot_le, fun j _ => hle j⟩)
    ((Finset.le_fold_max M).mpr (Or.inr ⟨j0, Finset.mem_univ _, hj0.ge⟩))

/-- The coercion of the larger of two reals is the larger of the coercions. -/
theorem coe_max_real (u v : ℝ) : ((max u v : ℝ) : EReal) = max (u : EReal) (v : EReal) := by
  rcases le_total u v with h | h
  · rw [max_eq_right h, max_eq_right (EReal.coe_le_coe_iff.mpr h)]
  · rw [max_eq_left h, max_eq_left (EReal.coe_le_coe_iff.mpr h)]

/-- The largest entry of a tile of W ≥ 1 reals is a real that bounds the tile and is one of its entries. -/
theorem tileMax_real (hW : 0 < W) (y : Fin W → EReal) (b : Fin W → ℝ) (hb : ∀ q, y q = (b q : EReal)) :
    ∃ Mt : ℝ, tileMax y = (Mt : EReal) ∧ (∀ q, b q ≤ Mt) ∧ ∃ q, b q = Mt := by
  haveI : Nonempty (Fin W) := ⟨⟨0, hW⟩⟩
  obtain ⟨q0, -, hq0⟩ := Finset.exists_max_image (Finset.univ : Finset (Fin W)) b Finset.univ_nonempty
  refine ⟨b q0, ?_, fun q => hq0 q (Finset.mem_univ q), q0, rfl⟩
  exact fold_max_eq_of_attained y _ (fun q => by rw [hb]; exact EReal.coe_le_coe_iff.mpr (hq0 q (Finset.mem_univ q))) q0 (hb q0)

/-! ## One step on real data -/

/-- From the start value -inf the running maximum after a tile is the tile's maximum. -/
theorem stepM_bot (Mt : ℝ) (y : Fin W → EReal) (hy : tileMax y = (Mt : EReal)) : stepM ⊥ y = (Mt : EReal) := by
  unfold stepM; rw [hy]; exact max_eq_right bot_le

/-- From the start values (-inf, 0) the running sum after a tile is the tile's sum of shifted exponentials:
    exp (-inf - m') = 0 and 0 * 0 = 0. -/
theorem stepL_bot (Mt : ℝ) (y : Fin W → EReal) (b : Fin W → ℝ) (hb : ∀ q, y q = (b q : EReal))
    (hy : tileMax y = (Mt : EReal)) : stepL ⊥ 0 y = ((∑ q, Real.exp (b q - Mt) : ℝ) : EReal) := by
  unfold stepL
  rw [stepM_bot Mt y hy, EReal.bot_sub, Ideal.exp_bot, zero_mul, zero_add, coe_sum]
  refine Finset.sum_congr rfl fun q _ => ?_
  rw [hb, ← EReal.coe_sub, Ideal.exp_coe]

/-- From a real running maximum M the new one is the real max M Mt. -/
theorem stepM_coe (M Mt : ℝ) (y : Fin W → EReal) (hy : tileMax y = (Mt : EReal)) :
    stepM (M : EReal) y = ((max M Mt : ℝ) : EReal) := by
  unfold stepM; rw [hy, coe_max_real]

/-- From a real pair (M, S) the new running sum is the real exp (M - M') * S + sum of exp (entry - M'), M' = max M Mt. -/
theorem stepL_coe (M S Mt : ℝ) (y : Fin W → EReal) (b : Fin W → ℝ) (hb : ∀ q, y q = (b q : EReal))
    (hy : tileMax y = (Mt : EReal)) :
    stepL (M : EReal) (S : EReal) y
      = ((Real.exp (M - max M Mt) * S + ∑ q, Real.exp (b q - max M Mt) : ℝ) : EReal) := by
  unfold stepL
  rw [stepM_coe M Mt y hy, ← EReal.coe_sub, Ideal.exp_coe, ← EReal.coe_mul, EReal.coe_add, coe_sum]
  congr 1
  refine Finset.sum_congr rfl fun q _ => ?_
  rw [hb, ← EReal.coe_sub, Ideal.exp_coe]

/-- Rescaling by exp (M - M') moves every term exp (entry - M) to exp (entry - M'). -/
theorem rescale (s : Finset ℕ) (A : ℕ → Fin W → ℝ) (M M' : ℝ) :
    Real.exp (M - M') * ∑ k ∈ s, ∑ q, Real.exp (A k q - M) = ∑ k ∈ s, ∑ q, Real.exp (A k q - M') := by
  rw [Finset.mul_sum]
  refine Finset.sum_congr rfl fun k _ => ?_
  rw [Finset.mul_sum]
  refine Finset.sum_congr rfl fun q _ => ?_
  rw [← Real.exp_add]
  congr 1
  ring

/-! ## The invariant -/

/-- After tiles 0 … n of real data A the running maximum is a real M that bounds those tiles and is one of their entries,
    and the running sum is the sum over those tiles of exp (entry - M). -/
theorem onl_inv (hW : 0 < W) (T : ℕ) (x : ℕ → Fin W → EReal) (A : ℕ → Fin W → ℝ)
    (hA : ∀ k, k < T → ∀ q, x k q = (A k q : EReal)) (n : ℕ) (hn : n < T) :
    ∃ M : ℝ, (onl x n).1 = (M : EReal) ∧ (∀ k, k ≤ n → ∀ q, A k q ≤ M) ∧ (∃ k, k ≤ n ∧ ∃ q, A k q = M) ∧
      (onl x n).2 = ((∑ k ∈ Finset.range (n + 1), ∑ q, Real.exp (A k q - M) : ℝ) : EReal) := by
  induction n with
  | zero =>
    obtain ⟨Mt, hMt, hle, q0, hq0⟩ := tileMax_real hW (x 0) (A 0) (hA 0 hn)
    refine ⟨Mt, ?_, ?_, ⟨0, le_rfl, q0, hq0⟩, ?_⟩
    · rw [onl_zero]; exact stepM_bot Mt _ hMt
    · intro k hk q
      obtain rfl : k = 0 := by omega
      exact hle q
    · rw [onl_zero]
      show stepL ⊥ 0 (x 0) = _
      rw [stepL_bot Mt _ (A 0) (hA 0 hn) hMt, Finset.sum_range_one]
  | succ n ih =>
    obtain ⟨M, hM, hle, ⟨k0, hk0, q0, hq0⟩, hS⟩ := ih (by omega)
    obtain ⟨Mt, hMt, hlet, qt, hqt⟩ := tileMax_real hW (x (n + 1)) (A (n + 1)) (hA (n + 1) hn)
    refine ⟨max M Mt, ?_, ?_, ?_, ?_⟩
    · rw [onl_succ]
      show stepM (onl x n).1 (x (n + 1)) = _
      rw [hM]; exact stepM_coe M Mt _ hMt
    · intro k hk q
      by_cases hkn : k ≤ n
      · exact le_trans (hle k hkn q) (le_max_left _ _)
      · obtain rfl : k = n + 1 := by omega
        exact le_trans (hlet q) (le_max_right _ _)
    · rcases le_total M Mt with hmm | hmm
      · exact ⟨n + 1, le_rfl, qt, by rw [hqt, max_eq_right hmm]⟩
      · exact ⟨k0, by omega, q0, by rw [hq0, max_eq_left hmm]⟩
    · rw [onl_succ]
      show stepL (onl x n).1 (onl x n).2 (x (n + 1)) = _
      rw [hM, hS, stepL_coe M _ Mt _ (A (n + 1)) (hA (n + 1) hn) hMt]
      refine congrArg _ ?_
      rw [Finset.sum_range_succ (fun k => ∑ q, Real.exp (A k q - max M Mt)) (n + 1), rescale]

/-- THE ONLINE SOFTMAX: over the T tiles of a row of N = T * W real entries (tile k, lane q at position W * k + q) the
    running pair ends at the row's maximum and the row's sum of shifted exponentials. -/
theorem onl_flat (T N : ℕ) (hT : 0 < T) (hW : 0 < W) (h : T * W = N) (l : Fin N → EReal) (hl : ∀ j, IsReal (l j))
    (x : ℕ → Fin W → EReal)
    (hx : ∀ k (hk : k < T) (q : Fin W),
      x k q = l ⟨W * k + q.val, by rw [← h]; exact Cert.Lib.TileSum.tile_lt hk q.isLt⟩) :
    (onl x (T - 1)).1 = rowMax l ∧ (onl x (T - 1)).2 = tot l := by
  haveI : NeZero N := ⟨by have := Nat.mul_pos hT hW; omega⟩
  choose a ha using hl
  have hlt : ∀ k, k < T → ∀ q : Fin W, W * k + q.val < N := fun k hk q => by
    rw [← h]; exact Cert.Lib.TileSum.tile_lt hk q.isLt
  -- the real tiles
  let A : ℕ → Fin W → ℝ := fun k q => if hk : k < T then a ⟨W * k + q.val, hlt k hk q⟩ else 0
  have hA : ∀ k (hk : k < T) (q : Fin W), A k q = a ⟨W * k + q.val, hlt k hk q⟩ := fun k hk q => dif_pos hk
  have hxA : ∀ k, k < T → ∀ q, x k q = (A k q : EReal) := fun k hk q => by rw [hx k hk q, ha, hA k hk q]
  obtain ⟨M, hM, hle, ⟨k0, hk0, q0, hq0⟩, hS⟩ := onl_inv hW T x A hxA (T - 1) (by omega)
  have hk0T : k0 < T := by omega
  -- the running maximum is the row's: every position j is lane j % W of tile j / W
  have hrow : rowMax l = (M : EReal) := by
    refine fold_max_eq_of_attained l _ (fun j => ?_) ⟨W * k0 + q0.val, hlt k0 hk0T q0⟩ ?_
    · have hjW : j.val / W < T := Nat.div_lt_of_lt_mul (by rw [Nat.mul_comm, h]; exact j.isLt)
      have hj : A (j.val / W) ⟨j.val % W, Nat.mod_lt _ hW⟩ = a j := by
        rw [hA _ hjW]
        exact congrArg a (Fin.ext (Nat.div_add_mod j.val W))
      rw [ha, ← hj]
      exact EReal.coe_le_coe_iff.mpr (hle _ (by omega) _)
    · rw [ha, ← hA k0 hk0T q0, hq0]
  refine ⟨hM.trans hrow.symm, ?_⟩
  -- the running sum is the row's: the sum over the row is the sum over its tiles
  rw [hS, (tot_coe l a ha M hrow).1]
  refine congrArg _ ?_
  rw [Nat.sub_add_cancel hT, Finset.sum_range,
    Cert.Lib.TilesOfEq.sum_tiles_of_eq T W N h (fun j => Real.exp (a j - M))]
  refine Finset.sum_congr rfl fun t _ => Finset.sum_congr rfl fun q _ => ?_
  rw [hA t.val t.isLt q]

/-- The largest entry of a real row shifted by its own maximum is 0. -/
theorem rowMax_shift {n : ℕ} [NeZero n] (l : Fin n → EReal) (hl : ∀ j, IsReal (l j)) :
    rowMax (fun j => l j - rowMax l) = 0 := by
  choose a ha using hl
  obtain ⟨M, hM⟩ := isReal_rowMax l fun k => ⟨a k, ha k⟩
  -- M bounds the row
  have hle : ∀ j, a j ≤ M := fun j => by
    have hj : l j ≤ rowMax l := (Finset.le_fold_max (l j)).mpr (Or.inr ⟨j, Finset.mem_univ _, le_rfl⟩)
    rw [ha, hM] at hj
    exact EReal.coe_le_coe_iff.mp hj
  -- and is one of its entries: otherwise every entry, and so the fold, is strictly below M
  have hatt : ∃ j, a j = M := by
    by_contra hne
    have hlt : rowMax l < (M : EReal) := (Finset.fold_max_lt (M : EReal)).mpr ⟨EReal.bot_lt_coe M, fun j _ => by
      rw [ha]
      exact EReal.coe_lt_coe_iff.mpr (lt_of_le_of_ne (hle j) fun hj => hne ⟨j, hj⟩)⟩
    rw [hM] at hlt
    exact lt_irrefl _ hlt
  obtain ⟨j0, hj0⟩ := hatt
  have hsh : ∀ j, l j - rowMax l = ((a j - M : ℝ) : EReal) := fun j => by rw [ha, hM, ← EReal.coe_sub]
  refine fold_max_eq_of_attained _ 0 (fun j => ?_) j0 ?_
  · show l j - rowMax l ≤ 0
    rw [hsh]
    exact EReal.coe_nonpos.mpr (sub_nonpos.mpr (hle j))
  · show l j0 - rowMax l = 0
    rw [hsh, hj0, sub_self, EReal.coe_zero]

end Cert.OnlineSoftmax

end
-- ==== Proof.LibOnlineAttention.lean ====
/-
  The running weighted sum that an online softmax attention keeps beside its running maximum and running sum, on the
  extended reals.

  A row of N = T * W scores is met in T tiles of W entries each, and with each score comes a weight (one coordinate of
  the value attached to that position). Beside the pair (m, s) of the online softmax a third number a is updated after
  each tile:
      m' = max m (largest score of the tile),
      a' = exp (m - m') * a + sum over the tile of exp (score - m') * weight,
  starting at the first tile from m = -inf and a = 0. When every score and every weight is a real number, after the
  last tile a is the sum over the whole row of exp (score - M) * weight, M the largest score of the row: rescaling the
  old value by exp (m - m') turns each old term exp (score - m) * weight into exp (score - m') * weight, because
  exp (u - v) * exp (v - w) = exp (u - w) on real numbers, and a real factor distributes over a finite sum of reals. At
  the first tile exp (-inf - m') = 0 and 0 * 0 = 0, so the start values contribute nothing.

  Dividing that by the running sum, which ends at the positive real total of the shifted exponentials, gives the
  softmax-weighted mean of the weights: dividing by a positive real is multiplying by its reciprocal, and the
  reciprocal moves inside the finite sum of reals. With an infinite entry these identities fail, which is why the
  entries are asked to be real.
-/
import proofs.«170261_j10977936409228_2_alg».proof.Proof.LibOnlineSoftmax

noncomputable section

open scoped BigOperators

namespace Cert.OnlineAttention

open Idealize.ShloMosaic Cert.Algebra Cert.Softmax Cert.OnlineSoftmax

variable {W : ℕ}

/-- The running weighted sum after a tile: the old one rescaled to the new maximum, plus the tile's shifted
    exponentials against the tile's weights. -/
def stepA (m a : EReal) (x β : Fin W → EReal) : EReal :=
  Ideal.exp (m - stepM m x) * a + ∑ q, Ideal.exp (x q - stepM m x) * β q

/-- The running weighted sum after tiles 0 … n (the pair onl x n runs beside it). -/
def onlA (x β : ℕ → Fin W → EReal) : ℕ → EReal
  | 0 => stepA ⊥ 0 (x 0) (β 0)
  | n + 1 => stepA (onl x n).1 (onlA x β n) (x (n + 1)) (β (n + 1))

theorem onlA_zero (x β : ℕ → Fin W → EReal) : onlA x β 0 = stepA ⊥ 0 (x 0) (β 0) := rfl
theorem onlA_succ (x β : ℕ → Fin W → EReal) (n : ℕ) :
    onlA x β (n + 1) = stepA (onl x n).1 (onlA x β n) (x (n + 1)) (β (n + 1)) := rfl

/-- The step written out: the rescaled old value plus the tile's products. -/
theorem stepA_comm_form (m a : EReal) (x β : Fin W → EReal) :
    stepA m a x β = Ideal.exp (m - stepM m x) * a + ∑ q, Ideal.exp (x q - stepM m x) * β q := rfl

/-- The largest entry of a tile is the fold of max from -inf over the tile. -/
theorem tileMax_eq_fold (x : Fin W → EReal) : tileMax x = (Finset.univ : Finset (Fin W)).fold max ⊥ x := rfl

/-! ## One step on real data -/

/-- From the start values (-inf, 0) the running weighted sum after a tile is the tile's sum of shifted exponentials
    times weights: exp (-inf - m') = 0 and 0 * 0 = 0. -/
theorem stepA_bot (Mt : ℝ) (y w : Fin W → EReal) (b c : Fin W → ℝ) (hb : ∀ q, y q = (b q : EReal))
    (hc : ∀ q, w q = (c q : EReal)) (hy : tileMax y = (Mt : EReal)) :
    stepA ⊥ 0 y w = ((∑ q, Real.exp (b q - Mt) * c q : ℝ) : EReal) := by
  unfold stepA
  rw [stepM_bot Mt y hy, EReal.bot_sub, Ideal.exp_bot, zero_mul, zero_add, coe_sum]
  refine Finset.sum_congr rfl fun q _ => ?_
  rw [hb, hc, ← EReal.coe_sub, Ideal.exp_coe, ← EReal.coe_mul]

/-- From a real running maximum M and a real running weighted sum S the new one is the real
    exp (M - M') * S + sum of exp (score - M') * weight, M' = max M Mt. -/
theorem stepA_coe (M S Mt : ℝ) (y w : Fin W → EReal) (b c : Fin W → ℝ) (hb : ∀ q, y q = (b q : EReal))
    (hc : ∀ q, w q = (c q : EReal)) (hy : tileMax y = (Mt : EReal)) :
    stepA (M : EReal) (S : EReal) y w
      = ((Real.exp (M - max M Mt) * S + ∑ q, Real.exp (b q - max M Mt) * c q : ℝ) : EReal) := by
  unfold stepA
  rw [stepM_coe M Mt y hy, ← EReal.coe_sub, Ideal.exp_coe, ← EReal.coe_mul, EReal.coe_add, coe_sum]
  congr 1
  refine Finset.sum_congr rfl fun q _ => ?_
  rw [hb, hc, ← EReal.coe_sub, Ideal.exp_coe, ← EReal.coe_mul]

/-- Rescaling by exp (M - M') moves every term exp (score - M) * weight to exp (score - M') * weight. -/
theorem rescaleA (s : Finset ℕ) (A B : ℕ → Fin W → ℝ) (M M' : ℝ) :
    Real.exp (M - M') * ∑ k ∈ s, ∑ q, Real.exp (A k q - M) * B k q
      = ∑ k ∈ s, ∑ q, Real.exp (A k q - M') * B k q := by
  rw [Finset.mul_sum]
  refine Finset.sum_congr rfl fun k _ => ?_
  rw [Finset.mul_sum]
  refine Finset.sum_congr rfl fun q _ => ?_
  rw [← mul_assoc, ← Real.exp_add, show M - M' + (A k q - M) = A k q - M' by ring]

/-! ## The invariant -/

/-- After tiles 0 … n of real scores A and real weights B, with M the real running maximum, the running weighted sum
    is the sum over those tiles of exp (score - M) * weight. -/
theorem onlA_inv (hW : 0 < W) (T : ℕ) (x β : ℕ → Fin W → EReal) (A B : ℕ → Fin W → ℝ)
    (hA : ∀ k, k < T → ∀ q, x k q = (A k q : EReal)) (hB : ∀ k, k < T → ∀ q, β k q = (B k q : EReal))
    (n : ℕ) (hn : n < T) (M : ℝ) (hM : (onl x n).1 = (M : EReal)) :
    onlA x β n = ((∑ k ∈ Finset.range (n + 1), ∑ q, Real.exp (A k q - M) * B k q : ℝ) : EReal) := by
  induction n generalizing M with
  | zero =>
    obtain ⟨Mt, hMt, -, -⟩ := tileMax_real hW (x 0) (A 0) (hA 0 hn)
    have hMM : M = Mt := by
      rw [onl_zero] at hM
      have h1 : stepM ⊥ (x 0) = (M : EReal) := hM
      rw [stepM_bot Mt _ hMt] at h1
      exact (EReal.coe_injective h1).symm
    subst hMM
    rw [onlA_zero, stepA_bot M _ _ (A 0) (B 0) (hA 0 hn) (hB 0 hn) hMt, Finset.sum_range_one]
  | succ n ih =>
    obtain ⟨M0, hM0, -, -, -⟩ := onl_inv hW T x A hA n (by omega)
    obtain ⟨Mt, hMt, -, -⟩ := tileMax_real hW (x (n + 1)) (A (n + 1)) (hA (n + 1) hn)
    have hMM : M = max M0 Mt := by
      rw [onl_succ] at hM
      have h1 : stepM (onl x n).1 (x (n + 1)) = (M : EReal) := hM
      rw [hM0, stepM_coe M0 Mt _ hMt] at h1
      exact (EReal.coe_injective h1).symm
    subst hMM
    rw [onlA_succ, hM0, ih (by omega) M0 hM0,
      stepA_coe M0 _ Mt _ _ (A (n + 1)) (B (n + 1)) (hA (n + 1) hn) (hB (n + 1) hn) hMt]
    refine congrArg _ ?_
    rw [Finset.sum_range_succ (fun k => ∑ q, Real.exp (A k q - max M0 Mt) * B k q) (n + 1), rescaleA]

/-- THE ONLINE WEIGHTED SUM: over the T tiles of a row of N = T * W real scores and real weights (tile k, lane q at
    position W * k + q) the running weighted sum ends at the row's sum of shifted exponentials times weights. -/
theorem onlA_flat (T N : ℕ) (hT : 0 < T) (hW : 0 < W) (h : T * W = N) (l : Fin N → EReal) (hl : ∀ j, IsReal (l j))
    (b : Fin N → EReal) (hb : ∀ j, IsReal (b j)) (x β : ℕ → Fin W → EReal)
    (hx : ∀ k (hk : k < T) (q : Fin W),
      x k q = l ⟨W * k + q.val, by rw [← h]; exact Cert.Lib.TileSum.tile_lt hk q.isLt⟩)
    (hβ : ∀ k (hk : k < T) (q : Fin W),
      β k q = b ⟨W * k + q.val, by rw [← h]; exact Cert.Lib.TileSum.tile_lt hk q.isLt⟩) :
    onlA x β (T - 1) = ∑ j, ex l j * b j := by
  haveI : NeZero N := ⟨by have := Nat.mul_pos hT hW; omega⟩
  have hmax := (onl_flat T N hT hW h l hl x hx).1
  obtain ⟨M, hrow⟩ := isReal_rowMax l hl
  choose a ha using hl
  choose c hc using hb
  have hlt : ∀ k, k < T → ∀ q : Fin W, W * k + q.val < N := fun k hk q => by
    rw [← h]; exact Cert.Lib.TileSum.tile_lt hk q.isLt
  -- the real tiles of scores and of weights
  let A : ℕ → Fin W → ℝ := fun k q => if hk : k < T then a ⟨W * k + q.val, hlt k hk q⟩ else 0
  let B : ℕ → Fin W → ℝ := fun k q => if hk : k < T then c ⟨W * k + q.val, hlt k hk q⟩ else 0
  have hA : ∀ k (hk : k < T) (q : Fin W), A k q = a ⟨W * k + q.val, hlt k hk q⟩ := fun k hk q => dif_pos hk
  have hB : ∀ k (hk : k < T) (q : Fin W), B k q = c ⟨W * k + q.val, hlt k hk q⟩ := fun k hk q => dif_pos hk
  have hxA : ∀ k, k < T → ∀ q, x k q = (A k q : EReal) := fun k hk q => by rw [hx k hk q, ha, hA k hk q]
  have hβB : ∀ k, k < T → ∀ q, β k q = (B k q : EReal) := fun k hk q => by rw [hβ k hk q, hc, hB k hk q]
  rw [onlA_inv hW T x β A B hxA hβB (T - 1) (by omega) M (hmax.trans hrow)]
  -- the row's sum, on reals
  have hR : ∑ j, ex l j * b j = ((∑ j, Real.exp (a j - M) * c j : ℝ) : EReal) := by
    rw [coe_sum]
    refine Finset.sum_congr rfl fun j _ => ?_
    rw [ex_coe l a ha M hrow j, hc, ← EReal.coe_mul]
  rw [hR]
  refine congrArg _ ?_
  rw [Nat.sub_add_cancel hT, Finset.sum_range,
    Cert.Lib.TilesOfEq.sum_tiles_of_eq T W N h (fun j => Real.exp (a j - M) * c j)]
  refine Finset.sum_congr rfl fun t _ => Finset.sum_congr rfl fun q _ => ?_
  rw [hA t.val t.isLt q, hB t.val t.isLt q]

/-- ONE ROW OF ATTENTION: the running weighted sum divided by the running sum is the softmax-weighted mean of the
    weights, each shifted exponential divided by the total. -/
theorem attention_row (T N : ℕ) (hT : 0 < T) (hW : 0 < W) (h : T * W = N) (l : Fin N → EReal)
    (hl : ∀ j, IsReal (l j)) (b : Fin N → EReal) (hb : ∀ j, IsReal (b j)) (x β : ℕ → Fin W → EReal)
    (hx : ∀ k (hk : k < T) (q : Fin W),
      x k q = l ⟨W * k + q.val, by rw [← h]; exact Cert.Lib.TileSum.tile_lt hk q.isLt⟩)
    (hβ : ∀ k (hk : k < T) (q : Fin W),
      β k q = b ⟨W * k + q.val, by rw [← h]; exact Cert.Lib.TileSum.tile_lt hk q.isLt⟩) :
    Ideal.div (onlA x β (T - 1)) (onl x (T - 1)).2 = ∑ j, Ideal.div (ex l j) (tot l) * b j := by
  haveI : NeZero N := ⟨by have := Nat.mul_pos hT hW; omega⟩
  rw [onlA_flat T N hT hW h l hl b hb x β hx hβ, (onl_flat T N hT hW h l hl x hx).2, ← val_eq l b hl hb]
  -- dividing by the positive real total is multiplying by its reciprocal
  obtain ⟨M, hrow⟩ := isReal_rowMax l hl
  choose a ha using hl
  obtain ⟨hS, hpos⟩ := tot_coe l a ha M hrow
  rw [hS, Ideal.div_coe hpos.ne', Ideal.div_coe hpos.ne', one_mul]

end Cert.OnlineAttention

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.AttnAt.lean ====
/-
  One grid step of the attention kernel, read entry by entry on the extended reals.

  At a grid step the kernel holds a block of 2048 query rows, a block of 1024 key rows and the block of the same 1024
  value rows, each of width 1024, and three running arrays: a column m of running maxima, a column l of running sums
  and a 2048 x 1024 array a of running weighted sums. For query row p the scores against the key block are
      sc (p, j) = sum over d of query (p, d) * key (j, d),
  formed by transposing the key block and multiplying into a zero accumulator. The step then writes, row by row,
      m' = max m (largest score of the row),
      l' = exp (m - m') * l + sum over j of exp (sc (p, j) - m'),
      a' (p, c) = exp (m - m') * a (p, c) + sum over j of exp (sc (p, j) - m') * value (j, c),
  which are the steps of the online softmax and of its running weighted sum for the row's tile of scores, with the
  column c of the value block as the weights. On the extended reals the format changes are the identity, a cast to the
  same shape changes nothing, a row reduction kept as a column is read at its row, and a column broadcast across a
  row is read at its row. At the first step the running arrays are set to -inf, 0 and 0; after the last the output is
  a divided by l, row by row.
-/
import proofs.«170261_j10977936409228_2_alg».proof.Proof.Gen.KernelIdeal.Skeleton
import proofs.«170261_j10977936409228_2_alg».proof.Proof.LibOnlineAttention
import proofs.«170261_j10977936409228_2_alg».proof.Proof.LibDotIx2
import proofs.«170261_j10977936409228_2_alg».proof.Proof.LibRowReduce
import proofs.«170261_j10977936409228_2_alg».proof.Proof.LibKeepdims
import Idealize.ShloMosaic.Lib.ValueLayout
import Idealize.ShloMosaic.Lib.Pipeline.Value

noncomputable section

open scoped BigOperators

namespace Cert.KVal

open Idealize.ShloMosaic Idealize.ShloMosaic.ValueIdx Cert.KernelIdeal Cert.KernelIdeal.Gen
open Cert.OnlineSoftmax Cert.OnlineAttention

/-- Both products of the attention step are plain 2048 x 1024 by 1024 x 1024 products. -/
theorem attn_plainDot : PlainDot (M := 2048) (K := 1024) (N := 1024) dot_S2048x1024_S1024x1024_S2048x1024_1_0_0_1_n_n where
  rank := rfl
  size := rfl
  l0 := fun j q => by
    unfold DotDims.lhsIdx
    rw [dif_neg (show ¬(0 : Fin S2048x1024.rank) ∈ dot_S2048x1024_S1024x1024_S2048x1024_1_0_0_1_n_n.lhsBatch by decide),
      dif_pos (show (0 : Fin S2048x1024.rank) ∈ dot_S2048x1024_S1024x1024_S2048x1024_1_0_0_1_n_n.lhsNonContracting by decide)]
    rfl
  l1 := fun j q => dot_S2048x1024_S1024x1024_S2048x1024_1_0_0_1_n_n.lhsIdx_val_of_single rfl j q
  r0 := fun j q => dot_S2048x1024_S1024x1024_S2048x1024_1_0_0_1_n_n.rhsIdx_val_of_single rfl j q
  r1 := fun j q => by
    unfold DotDims.rhsIdx
    rw [dif_neg (show ¬(1 : Fin S1024x1024.rank) ∈ dot_S2048x1024_S1024x1024_S2048x1024_1_0_0_1_n_n.rhsBatch by decide),
      dif_pos (show (1 : Fin S1024x1024.rank) ∈ dot_S2048x1024_S1024x1024_S2048x1024_1_0_0_1_n_n.rhsNonContracting by decide)]
    rfl

/-- The score of query row p against key row j: the sum over the width of the products. -/
def sc (x0 : Vec Ideal S2048x1024 .bf16) (x1 : Vec Ideal S1024x1024 .bf16) (p : Fin 2048) (j : Fin 1024) : EReal :=
  ∑ d : Fin 1024, (x0 (ix2 p d) : EReal) * (x1 (ix2 j d) : EReal)

/-- The block of scores at (p, j): the query block against the transposed key block, into zeros. -/
theorem pay7_apply (x0 : Vec Ideal S2048x1024 .bf16) (x1 : Vec Ideal S1024x1024 .bf16) (p : Fin 2048) (j : Fin 1024) :
    k1_pay7 (F := Ideal) x0 x1 (ix2 p j) = sc x0 x1 p j := by
  unfold k1_pay7 sc
  simp only [shapeCast_self]
  refine (matmul_zero_ix2_any attn_plainDot none x0
    (transpose S1024x1024 [1, 0] x1 transposes_S1024x1024_p1_0_S1024x1024) p j).trans ?_
  exact Finset.sum_congr rfl fun d _ =>
    congrArg (fun t : EReal => (x0 (ix2 p d) : EReal) * t) (transpose_ix2_apply x1 transposes_S1024x1024_p1_0_S1024x1024 d j)

/-- The new running maximum of row p: the larger of the old one and the row's largest score. -/
theorem pay8_apply (x0 : Vec Ideal S2048x1024 .bf16) (x1 : Vec Ideal S1024x1024 .bf16) (mp : Vec Ideal S2048x1 .f32)
    (p : Fin 2048) :
    k1_pay8 (F := Ideal) x0 x1 mp (ix2 p 0) = stepM (mp (ix2 p 0)) (sc x0 x1 p) := by
  unfold k1_pay8 stepM tileMax
  refine congrArg (max (mp (ix2 p 0) : EReal)) ?_
  refine (shapeCast_a_a1_apply _ shapeCasts_S2048_S2048x1 p 0).trans ?_
  refine (multiReduction_max_row (k1_pay7 (F := Ideal) x0 x1) 0xFF800000#32 reduces_S2048x1024_S2048 (.inl rfl) rfl p).trans ?_
  rw [Cert.Softmax.negInf_f32]
  exact congrArg (fun f => Finset.fold max ⊥ f (Finset.univ : Finset (Fin 1024))) (funext fun j => pay7_apply x0 x1 p j)

/-- The rescaling factor of row p: the exponential of an old maximum minus the new one. -/
theorem pay9_apply (x0 : Vec Ideal S2048x1024 .bf16) (x1 : Vec Ideal S1024x1024 .bf16) (mp mq : Vec Ideal S2048x1 .f32)
    (p : Fin 2048) :
    k1_pay9 (F := Ideal) x0 x1 mp mq (ix2 p 0) = Ideal.exp (mq (ix2 p 0) - stepM (mp (ix2 p 0)) (sc x0 x1 p)) := by
  unfold k1_pay9
  exact congrArg (fun t : EReal => Ideal.exp ((mq (ix2 p 0) : EReal) - t)) (pay8_apply x0 x1 mp p)

/-- The shifted exponential at (p, j): the score minus the row's new maximum, exponentiated. -/
theorem pay10_apply (x0 : Vec Ideal S2048x1024 .bf16) (x1 : Vec Ideal S1024x1024 .bf16) (mp : Vec Ideal S2048x1 .f32)
    (p : Fin 2048) (j : Fin 1024) :
    k1_pay10 (F := Ideal) x0 x1 mp (ix2 p j) = Ideal.exp (sc x0 x1 p j - stepM (mp (ix2 p 0)) (sc x0 x1 p)) := by
  unfold k1_pay10
  exact congrArg₂ (fun a b : EReal => Ideal.exp (a - b)) (pay7_apply x0 x1 p j)
    ((broadcastTo_a1_ab_apply _ broadcasts_S2048x1_S2048x1024 p j).trans (pay8_apply x0 x1 mp p))

/-- The new running sum of row p: the old one rescaled, plus the row's shifted exponentials. -/
theorem pay11_apply (x0 : Vec Ideal S2048x1024 .bf16) (x1 : Vec Ideal S1024x1024 .bf16) (mp lp : Vec Ideal S2048x1 .f32)
    (p : Fin 2048) :
    k1_pay11 (F := Ideal) x0 x1 mp mp lp (ix2 p 0) = stepL (mp (ix2 p 0)) (lp (ix2 p 0)) (sc x0 x1 p) := by
  unfold k1_pay11 stepL
  simp only [shapeCast_self]
  refine congrArg₂ (fun a b : EReal => a + b)
    (congrArg (fun t : EReal => t * (lp (ix2 p 0) : EReal)) (pay9_apply x0 x1 mp mp p)) ?_
  refine (shapeCast_a_a1_apply _ shapeCasts_S2048_S2048x1 p 0).trans ?_
  refine (multiReduction_add_row (k1_pay10 (F := Ideal) x0 x1 mp) 0x00000000#32 reduces_S2048x1024_S2048 (.inl rfl) rfl p).trans ?_
  exact Finset.sum_congr rfl fun j _ => pay10_apply x0 x1 mp p j

/-- The new running weighted sum at (p, c): the old one rescaled, plus the row's shifted exponentials against the
    column c of the value block. -/
theorem acc_apply (x0 : Vec Ideal S2048x1024 .bf16) (x1 x2 : Vec Ideal S1024x1024 .bf16) (mp : Vec Ideal S2048x1 .f32)
    (ap : Vec Ideal S2048x1024 .f32) (p : Fin 2048) (cc : Fin 1024) :
    k1_pay1 (F := Ideal) (k1_pay12 x0 x1 mp mp ap) (k1_pay13 x0 x1 x2 mp) (ix2 p cc)
      = stepA (mp (ix2 p 0)) (ap (ix2 p cc)) (sc x0 x1 p) (fun j => x2 (ix2 j cc)) := by
  unfold k1_pay1 k1_pay12 k1_pay13 stepA
  simp only [shapeCast_self]
  refine congrArg₂ (fun a b : EReal => a + b)
    (congrArg (fun t : EReal => t * (ap (ix2 p cc) : EReal))
      ((broadcastTo_a1_ab_apply _ broadcasts_S2048x1_S2048x1024 p cc).trans (pay9_apply x0 x1 mp mp p))) ?_
  refine (matmul_zero_ix2_any attn_plainDot none
    (truncf .bf16 (k1_pay10 (F := Ideal) x0 x1 mp) bitsLt_bf16_f32) x2 p cc).trans ?_
  exact Finset.sum_congr rfl fun j _ =>
    congrArg (fun t : EReal => t * (x2 (ix2 j cc) : EReal)) (pay10_apply x0 x1 mp p j)

/-- The stored running maximum is the new running maximum. -/
theorem pay2_apply (v : FVec Ideal S2048x1 .f32) : k1_pay2 (F := Ideal) v = v := shapeCast_self _ _

/-- The output at (p, c): the running weighted sum divided by the row's running sum. -/
theorem pay3_apply (a : Vec Ideal S2048x1024 .f32) (l : Vec Ideal S2048x1 .f32) (p : Fin 2048) (cc : Fin 1024) :
    k1_pay3 (F := Ideal) a l (ix2 p cc) = Ideal.div (a (ix2 p cc)) (l (ix2 p 0)) := by
  unfold k1_pay3
  exact congrArg (Ideal.div (a (ix2 p cc) : EReal)) (broadcastTo_a1_ab_apply l broadcasts_S2048x1_S2048x1024 p cc)

/-- The running maxima start at -inf. -/
theorem pay4_apply (i : S2048x1.Idx) : k1_pay4 (F := Ideal) i = (⊥ : EReal) := by
  unfold k1_pay4
  simp only [shapeCast_self]
  exact Cert.Softmax.negInf_f32

/-- The running sums start at 0. -/
theorem pay5_apply (i : S2048x1.Idx) : k1_pay5 (F := Ideal) i = (0 : EReal) := by
  unfold k1_pay5
  simp only [shapeCast_self]
  exact Ideal.ofBits_zero_f32

/-- The running weighted sums start at 0. -/
theorem pay6_apply (i : S2048x1024.Idx) : k1_pay6 (F := Ideal) i = (0 : EReal) := by
  unfold k1_pay6
  simp only [shapeCast_self]
  exact Ideal.ofBits_zero_f32

end Cert.KVal

end
-- ==== Proof.FlashRow.lean ====
/-
  One query row through the four key tiles of the attention kernel, on the extended reals.

  For a tile of 2048 query rows the kernel keeps three running arrays — a column of running maxima, a column of
  running sums, and a 2048 x 1024 array of running weighted sums — set to -inf, 0 and 0 before the first key tile and
  updated at each of the four key tiles of 1024 rows from their old values; after the last key tile it writes the
  running weighted sums divided, row by row, by the running sums.

  Read at one query row p and one column c, the three arrays follow the online softmax of the row's 4096 scores
  (tile k holds the scores of row p against the 1024 key rows of key tile k) together with its running weighted sum,
  the weights being column c of the value tiles. So when all entries are real numbers the written quotient is the
  softmax-weighted mean over all 4096 positions of column c of the values.
-/
import proofs.«170261_j10977936409228_2_alg».proof.Proof.AttnAt
import proofs.«170261_j10977936409228_2_alg».proof.Proof.LibRealEntries

noncomputable section

open scoped BigOperators

namespace Cert.KVal

open Idealize.ShloMosaic Idealize.ShloMosaic.ValueIdx Cert.KernelIdeal Cert.KernelIdeal.Gen
open Cert.Algebra Cert.OnlineSoftmax Cert.OnlineAttention

/-- The three running arrays of a query tile: maxima, sums, weighted sums. -/
abbrev St := Vec Ideal S2048x1 .f32 × Vec Ideal S2048x1 .f32 × Vec Ideal S2048x1024 .f32

/-- The running arrays before the first key tile. -/
def flashInit : St := (k1_pay4 (F := Ideal), k1_pay5 (F := Ideal), k1_pay6 (F := Ideal))

/-- One key tile: the three arrays updated from their old values. -/
def flashStep (q : Vec Ideal S2048x1024 .bf16) (kk vv : Vec Ideal S1024x1024 .bf16) (s : St) : St :=
  (k1_pay2 (F := Ideal) (k1_pay8 q kk s.1), k1_pay11 (F := Ideal) q kk s.1 s.1 s.2.1,
    k1_pay1 (F := Ideal) (k1_pay12 q kk s.1 s.1 s.2.2) (k1_pay13 q kk vv s.1))

/-- What is written after the last key tile. -/
def flashOut (s : St) : Vec Ideal S2048x1024 .f32 := k1_pay3 (F := Ideal) s.2.2 s.2.1

/-- The running arrays after key tiles 0 … n. -/
def flashRun (q : Vec Ideal S2048x1024 .bf16) (K V : ℕ → Vec Ideal S1024x1024 .bf16) : ℕ → St
  | 0 => flashStep q (K 0) (V 0) flashInit
  | n + 1 => flashStep q (K (n + 1)) (V (n + 1)) (flashRun q K V n)

theorem flashRun_zero (q : Vec Ideal S2048x1024 .bf16) (K V : ℕ → Vec Ideal S1024x1024 .bf16) :
    flashRun q K V 0 = flashStep q (K 0) (V 0) flashInit := rfl
theorem flashRun_succ (q : Vec Ideal S2048x1024 .bf16) (K V : ℕ → Vec Ideal S1024x1024 .bf16) (n : ℕ) :
    flashRun q K V (n + 1) = flashStep q (K (n + 1)) (V (n + 1)) (flashRun q K V n) := rfl

/-! ## One key tile at a row -/

/-- The new running maximum of row p. -/
theorem flashStep_m (q : Vec Ideal S2048x1024 .bf16) (kk vv : Vec Ideal S1024x1024 .bf16) (s : St) (p : Fin 2048) :
    (flashStep q kk vv s).1 (ix2 p 0) = stepM (s.1 (ix2 p 0)) (sc q kk p) := by
  show k1_pay2 (F := Ideal) (k1_pay8 q kk s.1) (ix2 p 0) = _
  rw [pay2_apply]
  exact pay8_apply q kk s.1 p

/-- The new running sum of row p. -/
theorem flashStep_l (q : Vec Ideal S2048x1024 .bf16) (kk vv : Vec Ideal S1024x1024 .bf16) (s : St) (p : Fin 2048) :
    (flashStep q kk vv s).2.1 (ix2 p 0) = stepL (s.1 (ix2 p 0)) (s.2.1 (ix2 p 0)) (sc q kk p) :=
  pay11_apply q kk s.1 s.2.1 p

/-- The new running weighted sum at (p, c). -/
theorem flashStep_a (q : Vec Ideal S2048x1024 .bf16) (kk vv : Vec Ideal S1024x1024 .bf16) (s : St) (p : Fin 2048)
    (cc : Fin 1024) :
    (flashStep q kk vv s).2.2 (ix2 p cc)
      = stepA (s.1 (ix2 p 0)) (s.2.2 (ix2 p cc)) (sc q kk p) (fun j => vv (ix2 j cc)) :=
  acc_apply q kk vv s.1 s.2.2 p cc

/-! ## The running arrays at a row follow the online softmax of the row -/

/-- After key tiles 0 … n, at row p and column c: the running maximum and running sum are the online softmax's pair
    for the row's tiles of scores, and the running weighted sum is the online weighted sum against column c of the
    value tiles. -/
theorem flashRun_inv (q : Vec Ideal S2048x1024 .bf16) (K V : ℕ → Vec Ideal S1024x1024 .bf16) (p : Fin 2048)
    (cc : Fin 1024) (n : ℕ) :
    (flashRun q K V n).1 (ix2 p 0) = (onl (fun k => sc q (K k) p) n).1 ∧
    (flashRun q K V n).2.1 (ix2 p 0) = (onl (fun k => sc q (K k) p) n).2 ∧
    (flashRun q K V n).2.2 (ix2 p cc)
      = onlA (fun k => sc q (K k) p) (fun k (jj : Fin 1024) => (V k (ix2 jj cc) : EReal)) n := by
  induction n with
  | zero =>
    have h4 : flashInit.1 (ix2 p 0) = (⊥ : EReal) := pay4_apply (ix2 p (0 : Fin 1))
    have h5 : flashInit.2.1 (ix2 p 0) = (0 : EReal) := pay5_apply (ix2 p (0 : Fin 1))
    have h6 : flashInit.2.2 (ix2 p cc) = (0 : EReal) := pay6_apply (ix2 p cc)
    refine ⟨?_, ?_, ?_⟩
    · rw [flashRun_zero, flashStep_m, h4]; rfl
    · rw [flashRun_zero, flashStep_l, h4, h5]; rfl
    · rw [flashRun_zero, flashStep_a, h4, h6]; rfl
  | succ n ih =>
    obtain ⟨hm, hs, ha⟩ := ih
    refine ⟨?_, ?_, ?_⟩
    · rw [flashRun_succ, flashStep_m, hm]; rfl
    · rw [flashRun_succ, flashStep_l, hm, hs]; rfl
    · rw [flashRun_succ, flashStep_a, hm, ha]; rfl

/-! ## The written quotient -/

/-- ONE ENTRY OF THE OUTPUT TILE: at row p and column c the kernel writes the softmax-weighted mean, over the 4096
    positions, of column c of the values, the scores being those of row p against the four key tiles. -/
theorem flash_row (q : Vec Ideal S2048x1024 .bf16) (K V : ℕ → Vec Ideal S1024x1024 .bf16) (hq : ∀ i, IsReal (q i))
    (hK : ∀ k, k < 4 → ∀ i, IsReal (K k i)) (hV : ∀ k, k < 4 → ∀ i, IsReal (V k i)) (p : Fin 2048) (cc : Fin 1024)
    (l b : Fin 4096 → EReal)
    (hl : ∀ k (hk : k < 4) (jj : Fin 1024), l ⟨1024 * k + jj.val, by omega⟩ = sc q (K k) p jj)
    (hb : ∀ k (hk : k < 4) (jj : Fin 1024), b ⟨1024 * k + jj.val, by omega⟩ = V k (ix2 jj cc)) :
    flashOut (flashRun q K V 3) (ix2 p cc)
      = ∑ j : Fin 4096, Ideal.div (Cert.Softmax.ex l j) (Cert.Softmax.tot l) * b j := by
  obtain ⟨-, hs, ha⟩ := flashRun_inv q K V p cc 3
  -- every position j is lane j % 1024 of tile j / 1024
  have hpos : ∀ j : Fin 4096, ∃ (k : ℕ) (hk : k < 4) (jj : Fin 1024), j = ⟨1024 * k + jj.val, by omega⟩ := fun j =>
    ⟨j.val / 1024, by omega, ⟨j.val % 1024, Nat.mod_lt _ (by norm_num)⟩, Fin.ext (by
      show j.val = 1024 * (j.val / 1024) + j.val % 1024
      exact (Nat.div_add_mod j.val 1024).symm)⟩
  -- the scores and the weights are real
  have hlr : ∀ j, IsReal (l j) := fun j => by
    obtain ⟨k, hk, jj, rfl⟩ := hpos j
    rw [hl k hk jj]
    exact IsReal.sum _ _ fun d _ => (hq _).mul (hK k hk _)
  have hbr : ∀ j, IsReal (b j) := fun j => by
    obtain ⟨k, hk, jj, rfl⟩ := hpos j
    rw [hb k hk jj]
    exact hV k hk _
  show k1_pay3 (F := Ideal) (flashRun q K V 3).2.2 (flashRun q K V 3).2.1 (ix2 p cc) = _
  rw [pay3_apply, hs, ha]
  exact attention_row 4 4096 (by norm_num) (by norm_num) (by norm_num) l hlr b hbr
    (fun k => sc q (K k) p) (fun k (jj : Fin 1024) => (V k (ix2 jj cc) : EReal))
    (fun k hk jj => (hl k hk jj).symm) (fun k hk jj => (hb k hk jj).symm)

end Cert.KVal

end
-- ==== Proof.AttnOfFlash.lean ====
/-
  The attention kernel's output entry is the specification's attention, read off one projected array.

  The projected array has 4096 rows and 3072 columns: the query in columns 0 … 1023, the key in columns 1024 … 2047, the
  value in columns 2048 … 3071. Query row R lies in the query tile R / 2048 at row R % 2048 of the tile; key tile k
  and value tile k hold rows 1024 * k … 1024 * k + 1023. With the tiles read off the array in this way, the entry
  the kernel writes for row R and column c is the specification's attention at (R, c): the scores of the tile row
  against key tile k are the specification's scores of row R at positions 1024 * k …, because
  2048 * (R / 2048) + R % 2048 = R, and the weights are column c of the value columns.
-/
import proofs.«170261_j10977936409228_2_alg».proof.Proof.FlashRow
import proofs.«170261_j10977936409228_2_alg».proof.Proof.Spec

noncomputable section

open scoped BigOperators

namespace Cert.KVal

open Idealize.ShloMosaic Idealize.ShloMosaic.ValueIdx Cert.KernelIdeal Cert.KernelIdeal.Gen
open Cert.Algebra

/-- ONE ENTRY OF THE KERNEL'S OUTPUT: for the tiles cut out of a real projected array, the entry written for row R and
    column c is the attention of the array's query, key and value columns at (R, c). -/
theorem attn_of_flash (v11 : S4096x3072.Idx → EReal) (hreal : ∀ i, IsReal (v11 i)) (R : Fin 4096) (cc : Fin 1024)
    (q : Vec Ideal S2048x1024 .bf16) (K V : ℕ → Vec Ideal S1024x1024 .bf16)
    (hq : ∀ (p : Fin 2048) (d : Fin 1024),
      q (ix2 p d) = v11 (ix2 ⟨2048 * (R.val / 2048) + p.val, by omega⟩ ⟨d.val, by omega⟩))
    (hK : ∀ k (hk : k < 4) (jj : Fin 1024) (d : Fin 1024),
      K k (ix2 jj d) = v11 (ix2 ⟨1024 * k + jj.val, by omega⟩ ⟨1024 + d.val, by omega⟩))
    (hV : ∀ k (hk : k < 4) (jj : Fin 1024) (c' : Fin 1024),
      V k (ix2 jj c') = v11 (ix2 ⟨1024 * k + jj.val, by omega⟩ ⟨2048 + c'.val, by omega⟩)) :
    flashOut (flashRun q K V 3) (ix2 ⟨R.val % 2048, by omega⟩ cc)
      = Cert.Spec.attn (fun r d => v11 (ix2 r ⟨d.val, by omega⟩)) (fun j d => v11 (ix2 j ⟨1024 + d.val, by omega⟩))
          (fun j c' => v11 (ix2 j ⟨2048 + c'.val, by omega⟩)) R cc := by
  -- the tiles are real
  have hqr : ∀ i, IsReal (q i) := fun i => by
    obtain ⟨p, d, rfl⟩ : ∃ (p : Fin 2048) (d : Fin 1024), i = ix2 p d := ⟨i 0, i 1, eq_ix2 i⟩
    rw [hq]; exact hreal _
  have hKr : ∀ k, k < 4 → ∀ i, IsReal (K k i) := fun k hk i => by
    obtain ⟨jj, d, rfl⟩ : ∃ (jj : Fin 1024) (d : Fin 1024), i = ix2 jj d := ⟨i 0, i 1, eq_ix2 i⟩
    rw [hK k hk]; exact hreal _
  have hVr : ∀ k, k < 4 → ∀ i, IsReal (V k i) := fun k hk i => by
    obtain ⟨jj, d, rfl⟩ : ∃ (jj : Fin 1024) (d : Fin 1024), i = ix2 jj d := ⟨i 0, i 1, eq_ix2 i⟩
    rw [hV k hk]; exact hreal _
  -- row R % 2048 of query tile R / 2048 is row R
  have hR : (⟨2048 * (R.val / 2048) + R.val % 2048, by omega⟩ : Fin 4096) = R :=
    Fin.ext (Nat.div_add_mod R.val 2048)
  unfold Cert.Spec.attn
  refine flash_row q K V hqr hKr hVr ⟨R.val % 2048, by omega⟩ cc
    (Cert.Spec.scores (fun r d => v11 (ix2 r ⟨d.val, by omega⟩)) (fun j d => v11 (ix2 j ⟨1024 + d.val, by omega⟩)) R)
    (fun j => v11 (ix2 j ⟨2048 + cc.val, by omega⟩)) (fun k hk jj => ?_) (fun k hk jj => (hV k hk jj cc).symm)
  unfold Cert.Spec.scores sc
  refine Finset.sum_congr rfl fun d _ => ?_
  beta_reduce
  rw [hq, hK k hk jj d]
  exact congrArg (fun r : Fin 4096 => v11 (ix2 r ⟨d.val, by omega⟩)
    * v11 (ix2 ⟨1024 * k + jj.val, by omega⟩ ⟨1024 + d.val, by omega⟩)) hR.symm

end Cert.KVal

end
-- ==== Proof.V12.lean ====
/-
  The attention kernel's result array is the specification's attention of the projected array.

  After the region, entry (R, c) of the result is row R % 2048 of what the last key tile of query tile R / 2048 left in
  the output buffer; that is the output function of the accumulation over the four key tiles, run on the query block
  of the tile and on the four key and value blocks. The blocks are read off the one projected array (query rows
  2048 * (R / 2048) onward of the first 1024 columns, key and value rows 1024 * k onward of the second and third 1024
  columns), so on the extended reals, when the projected array is real, the entry is the attention of the array's
  query, key and value columns at (R, c).
-/
import proofs.«170261_j10977936409228_2_alg».proof.Proof.KI.ArrAt1
import proofs.«170261_j10977936409228_2_alg».proof.Proof.KI.BlockReads1
import proofs.«170261_j10977936409228_2_alg».proof.Proof.KI.Tile1
import proofs.«170261_j10977936409228_2_alg».proof.Proof.AttnOfFlash

set_option maxRecDepth 16384

noncomputable section

open scoped BigOperators

namespace Cert.KVal

open Idealize.ShloMosaic Idealize.ShloMosaic.TcCoe Idealize.ShloMosaic.ValueIdx Idealize.SL.Sem Cert.KernelIdeal Cert.KernelIdeal.Gen Cert.KernelIdeal.Hand
open Cert.Algebra

/-- On the extended reals the accumulation over the key tiles is the one whose rows follow the online softmax. -/
theorem frun_eq_flashRun (q : Vec Ideal S2048x1024 .bf16) (K V : ℕ → Vec Ideal S1024x1024 .bf16) (n : ℕ) :
    frun (F := Ideal) q K V n = flashRun q K V n := by
  induction n with
  | zero => rfl
  | succ n ih =>
    show fstep q (K (n + 1)) (V (n + 1)) (frun q K V n) = flashStep q (K (n + 1)) (V (n + 1)) (flashRun q K V n)
    rw [ih]; rfl

/-- THE ATTENTION KERNEL'S RESULT ARRAY: when the projected array is real, entry (R, c) of the result after the region
    is the attention of the projected array's query, key and value columns at (R, c). -/
theorem v12_of (V : (c : Dev Cert.KernelIdeal.nD) → (b : Ref Cert.KernelIdeal.sig .tc) → Buf (Elt Ideal) ((c : Thread Cert.KernelIdeal.nD Cert.KernelIdeal.τ).loc b))
    (c : Dev Cert.KernelIdeal.nD)
    (hreal : ∀ i, IsReal ((V c Cert.KernelIdeal.main_v11 : S4096x3072.Idx → EReal) i)) (R : Fin 4096) (cc : Fin 1024) :
    ((Cert.KernelIdeal.Hand.dat1 (F := Ideal) V c).arrAt 3 Cert.KernelIdeal.cfg1.N : S4096x1024.Idx → EReal) (ix2 R cc)
      = Cert.Spec.attn (fun r d => (V c main_v11 : S4096x3072.Idx → EReal) (ix2 r ⟨d.val, by omega⟩))
          (fun j d => (V c main_v11 : S4096x3072.Idx → EReal) (ix2 j ⟨1024 + d.val, by omega⟩))
          (fun j c' => (V c main_v11 : S4096x3072.Idx → EReal) (ix2 j ⟨2048 + c'.val, by omega⟩)) R cc := by
  -- the query tile of row R
  have hqi : R.val / 2048 < 2 := by omega
  refine (arrAt1_eq V c R cc).trans ?_
  refine (congrFun (outsAt1_last V c ⟨R.val / 2048, hqi⟩) _).trans ?_
  rw [frun_eq_flashRun]
  refine attn_of_flash (V c main_v11) hreal R cc (qBlk V c ⟨R.val / 2048, hqi⟩) (kBlk V c ⟨R.val / 2048, hqi⟩)
    (vBlk V c ⟨R.val / 2048, hqi⟩) (fun p d => ?_) (fun k hk jj d => ?_) (fun k hk jj c' => ?_)
  · refine (iblk1_q V c _ p d).trans ?_
    exact congrArg (fun r : Fin 4096 => (V c main_v11 : S4096x3072.Idx → EReal) (ix2 r ⟨d.val, by omega⟩))
      (Fin.ext (by show 2048 * (4 * (R.val / 2048) / 4) + p.val = 2048 * (R.val / 2048) + p.val; omega))
  · refine (iblk1_k V c _ jj d).trans ?_
    exact congrArg (fun r : Fin 4096 => (V c main_v11 : S4096x3072.Idx → EReal) (ix2 r ⟨1024 + d.val, by omega⟩))
      (Fin.ext (by show 1024 * ((4 * (R.val / 2048) + k % 4) % 4) + jj.val = 1024 * k + jj.val; omega))
  · refine (iblk1_v V c _ jj c').trans ?_
    exact congrArg (fun r : Fin 4096 => (V c main_v11 : S4096x3072.Idx → EReal) (ix2 r ⟨2048 + c'.val, by omega⟩))
      (Fin.ext (by show 1024 * ((4 * (R.val / 2048) + k % 4) % 4) + jj.val = 1024 * k + jj.val; omega))

end Cert.KVal

end
-- ==== Proof.KResult.lean ====
/-
  The kernel's result on the extended reals is the specification's attention of the three projections.

  Under the precondition every argument entry is real. The dense layer's result array then holds the query projection
  divided by 32 in columns 0 .. 1023, the key projection in columns 1024 .. 2047 and the value projection in columns
  2048 .. 3071, all real. The attention kernel reads those three column blocks of whatever array it finds there and,
  for real entries, leaves the softmax attention of them. Substituting the first fact in the second gives the
  specification's function of the seven arguments.
-/
import proofs.«170261_j10977936409228_2_alg».proof.Proof.V11
import proofs.«170261_j10977936409228_2_alg».proof.Proof.V12

noncomputable section

open scoped BigOperators

namespace Cert.KVal

open Idealize.ShloMosaic Idealize.ShloMosaic.TcCoe Idealize.ShloMosaic.ValueIdx Idealize.SL.Sem Cert.Algebra
open Cert.KernelIdeal

/-- The attention of equal projections is equal. -/
theorem attn_congr {q k v q' k' v' : Fin 4096 → Fin 1024 → EReal} (hq : q = q') (hk : k = k') (hv : v = v') (R : Fin 4096) (cc : Fin 1024) :
    Cert.Spec.attn q k v R cc = Cert.Spec.attn q' k' v' R cc := by
  subst hq hk hv
  rfl

/-- The attention kernel's result array is the specification's function of the seven arguments. -/
theorem result_of (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (V : (c : Dev Cert.KernelIdeal.nD) → (b : Ref Cert.KernelIdeal.sig .tc) → Buf (Elt Ideal) ((c : Thread Cert.KernelIdeal.nD Cert.KernelIdeal.τ).loc b))
    (hV : (V c Cert.KernelIdeal.main_v11 : S4096x3072.Idx → EReal) = v11 m c) :
    ((Cert.KernelIdeal.Hand.dat1 (F := Ideal) V c).arrAt 3 Cert.KernelIdeal.cfg1.N : S4096x1024.Idx → EReal)
      = Cert.Spec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  obtain ⟨hx, hwq, hbq, hwk, hbk, hwv, hbv⟩ := finite_args m hpre c
  have hreal : ∀ i, IsReal ((V c Cert.KernelIdeal.main_v11 : S4096x3072.Idx → EReal) i) := fun i => by
    rw [hV]
    exact v11_real m c hx hwq hbq hwk hbk hwv hbv i
  funext i
  obtain ⟨R, cc, rfl⟩ : ∃ (R : Fin 4096) (cc : Fin 1024), i = ix2 R cc := ⟨i 0, i 1, eq_ix2 i⟩
  refine (v12_of V c hreal R cc).trans ?_
  refine Eq.trans ?_ (Cert.Spec.out_ix2 _ _ _ _ _ _ _ R cc).symm
  refine attn_congr (funext fun r => funext fun d => ?_) (funext fun j => funext fun d => ?_) (funext fun j => funext fun d => ?_) R cc
  · exact (congrFun hV _).trans (v11_q m c hx hwq hbq r d)
  · exact (congrFun hV _).trans (v11_k m c j d)
  · exact (congrFun hV _).trans (v11_v m c j d)

end Cert.KVal

end
-- ==== Proof.lean ====
/-
  The kernel computes one head of softmax attention over 4096 rows of width 1024 in two stages: a dense layer that
  projects the input onto queries (scaled by 1/32 through the weights and the bias), keys and values in one array of
  width 3072, and a tiled attention that meets the keys and values of each block of 2048 queries in four tiles of 1024
  rows, keeping for every query a running maximum of its scores, a running sum of the shifted exponentials and a running
  weighted sum of the value rows, and divides the last by the second at the end. The reference projects, divides the
  query projection by 1024 ^ (1/2) = 32, and applies the softmax row by row.

  The frames: each program's run is its host operations followed by its regions; each region's body is run case by
  case on whole buffers; the three windows of the second region read one array, whose full share is dealt in thirds.
  The values, on the extended reals under finite inputs: the dense layer's result array is the three projections side by
  side (scaling the weights and the bias by 1/32 is scaling the layer, since every entry is real); the carried triple
  after the four tiles is the row's maximum, the row's sum of shifted exponentials and their sum against the value
  column (rescaling by exp (m - m') moves every term from the old maximum to the new one); their quotient is the softmax
  average. The reference's result is the same function of the same three projections.
-/
import proofs.«170261_j10977936409228_2_alg».proof.Defs
import proofs.«170261_j10977936409228_2_alg».proof.Proof.Gen.Kernel
import proofs.«170261_j10977936409228_2_alg».proof.Proof.Gen.KernelIdeal
import proofs.«170261_j10977936409228_2_alg».proof.Proof.Gen.ReferenceIdeal
import proofs.«170261_j10977936409228_2_alg».proof.Proof.Gen.Pre_finite_inputs
import proofs.«170261_j10977936409228_2_alg».proof.Proof.K.Run
import proofs.«170261_j10977936409228_2_alg».proof.Proof.KI.Run
import proofs.«170261_j10977936409228_2_alg».proof.Proof.RefRun
import proofs.«170261_j10977936409228_2_alg».proof.Proof.KResult

noncomputable section

namespace Cert.Proof

open Idealize.ShloMosaic Idealize.ShloMosaic.TcCoe Idealize.SL.Sem

/-- The word-level program runs to the end, faults nowhere and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run_main (F := Bits) m ρ)

/-- So does the program read at the extended reals. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_main (F := Ideal) m ρ)

/-- The array the attention region reads is the dense region's result. -/
theorem projected_eq (m : (ℓ : Loc Cert.KernelIdeal.nD Cert.KernelIdeal.τ Cert.KernelIdeal.sig) → Buf (Elt Ideal) ℓ) (c : Dev Cert.KernelIdeal.nD) :
    (Cert.KernelIdeal.Hand.V2 (F := Ideal) m c Cert.KernelIdeal.main_v11 : Cert.KernelIdeal.S4096x3072.Idx → EReal) = Cert.KVal.v11 m c :=
  Cert.KernelIdeal.Hand.W2_arr (F := Ideal) m c 3

/-- Both programs, from memories agreeing on the arguments, end with the attention of the three projections. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun _ h c => ⟨(h c).1.trans (Cert.KVal.result_of m hpre c (Cert.KernelIdeal.Hand.V2 (F := Ideal) m) (projected_eq m c)), (h c).2⟩)
      (Cert.KernelIdeal.Hand.run_main (F := Ideal) m ρ)
  · exact (θ_run (Cert.ReferenceIdeal.defs (F := Ideal)) _ _).mono
      (fun _ h c => ⟨(h c).1.trans (by
        rw [(hagree c).1, (hagree c).2.1, (hagree c).2.2.1, (hagree c).2.2.2.1, (hagree c).2.2.2.2.1, (hagree c).2.2.2.2.2.1, (hagree c).2.2.2.2.2.2]), (h c).2⟩)
      (Cert.RefSpec.run m' ρ')

theorem claim : Cert.Claim :=
  ⟨Cert.Kernel.Gen.facts, Cert.KernelIdeal.Gen.facts, Cert.ReferenceIdeal.Gen.facts, Cert.Pre_finite_inputs.Gen.facts,
    frame_k, frame_ki, Cert.RefSpec.frame, trivial, algebraic⟩

end Cert.Proof

end
